-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32x64 : Shape := ⟨3, ![16384, 32, 64]⟩
abbrev S16384x512 : Shape := ⟨2, ![16384, 512]⟩
abbrev S512x2048 : Shape := ⟨2, ![512, 2048]⟩
abbrev S2048 : Shape := ⟨1, ![2048]⟩
abbrev S2048x2048 : Shape := ⟨2, ![2048, 2048]⟩
abbrev S512x1024 : Shape := ⟨2, ![512, 1024]⟩
abbrev S1024 : Shape := ⟨1, ![1024]⟩
abbrev S512x4096 : Shape := ⟨2, ![512, 4096]⟩
abbrev S4096 : Shape := ⟨1, ![4096]⟩
abbrev S4096x2048 : Shape := ⟨2, ![4096, 2048]⟩
abbrev S1024x2048 : Shape := ⟨2, ![1024, 2048]⟩
abbrev S_ : Shape := ⟨0, ![]⟩

class Facts : Prop where
  bcast_S_S16384x32x64 : S_.BroadcastsInDim S16384x32x64 (![] : Fin 0 → Fin S16384x32x64.rank)
  reducesTo_S16384x32x64_S_d0_1_2 : S16384x32x64.ReducesTo [0, 1, 2] S_
  h_S_ : 0 < S_.numel
  bcast_S_S16384x512 : S_.BroadcastsInDim S16384x512 (![] : Fin 0 → Fin S16384x512.rank)
  reducesTo_S16384x512_S_d0_1 : S16384x512.ReducesTo [0, 1] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S512x4096 : S_.BroadcastsInDim S512x4096 (![] : Fin 0 → Fin S512x4096.rank)
  reducesTo_S512x4096_S_d0_1 : S512x4096.ReducesTo [0, 1] S_
  bcast_S_S4096 : S_.BroadcastsInDim S4096 (![] : Fin 0 → Fin S4096.rank)
  reducesTo_S4096_S_d0 : S4096.ReducesTo [0] S_
  bcast_S_S4096x2048 : S_.BroadcastsInDim S4096x2048 (![] : Fin 0 → Fin S4096x2048.rank)
  reducesTo_S4096x2048_S_d0_1 : S4096x2048.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part4 {F : FTy → Type} [FloatOps F] (main_arg14 : FVec F S1024x2048 .f32) (main_arg15 : FVec F S2048 .f32) (main_v63 : IVec S_ 1) (main_v67 : IVec S_ 1) : IVec S_ 1 :=
  let main_v68 : IVec S_ 1 := andi main_v63 main_v67
  let main_v69 : FVec F S1024x2048 .f32 := Host.absf main_arg14
  let main_cst_26 : FVec F S_ .f32 := constant S_ .f32 0x7F800000#32
  let main_v70 : FVec F S1024x2048 .f32 := broadcastInDim S1024x2048 ![] bcast_S_S1024x2048 main_cst_26
  let main_v71 : IVec S1024x2048 1 := cmpf .olt main_v69 main_v70
  let main_c_27 : IVec S_ 1 := constantI S_ 1 1#1
  let main_v72 : IVec S_ 1 := (fun x v => Host.reduce IntOp.andi x v reducesTo_S1024x2048_S_d0_1 h_S_) main_v71 main_c_27
  let main_v73 : IVec S_ 1 := andi main_v68 main_v72
  let main_v74 : FVec F S2048 .f32 := Host.absf main_arg15
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  main_v78

def fn_part3 {F : FTy → Type} [FloatOps F] (main_arg11 : FVec F S2048 .f32) (main_arg12 : FVec F S512x1024 .f32) (main_arg13 : FVec F S1024 .f32) (main_arg14 : FVec F S1024x2048 .f32) (main_arg15 : FVec F S2048 .f32) (main_v48 : IVec S_ 1) (main_v49 : FVec F S4096x2048 .f32) (main_v50 : FVec F S4096x2048 .f32) : IVec S_ 1 :=
  let main_v51 : IVec S4096x2048 1 := cmpf .olt main_v49 main_v50
  let main_c_19 : IVec S_ 1 := constantI S_ 1 1#1
  let main_v52 : IVec S_ 1 := (fun x v => Host.reduce IntOp.andi x v reducesTo_S4096x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S512x1024 .f32 := Host.absf main_arg12
  let main_cst_22 : FVec F S_ .f32 := constant S_ .f32 0x7F800000#32
  let main_v60 : FVec F S512x1024 .f32 := broadcastInDim S512x1024 ![] bcast_S_S512x1024 main_cst_22
  let main_v61 : IVec S512x1024 1 := cmpf .olt main_v59 main_v60
  let main_c_23 : IVec S_ 1 := constantI S_ 1 1#1
  let main_v62 : IVec S_ 1 := (fun x v => Host.reduce IntOp.andi x v reducesTo_S512x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_v63 main_v67

def fn_part2 {F : FTy → Type} [FloatOps F] (main_arg7 : FVec F S1024 .f32) (main_arg8 : FVec F S512x4096 .f32) (main_arg9 : FVec F S4096 .f32) (main_arg10 : FVec F S4096x2048 .f32) (main_arg11 : FVec F S2048 .f32) (main_arg12 : FVec F S512x1024 .f32) (main_arg13 : FVec F S1024 .f32) (main_arg14 : FVec F S1024x2048 .f32) (main_arg15 : FVec F S2048 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S512x4096 .f32 := Host.absf main_arg8
  let main_cst_14 : FVec F S_ .f32 := constant S_ .f32 0x7F800000#32
  let main_v40 : FVec F S512x4096 .f32 := broadcastInDim S512x4096 ![] bcast_S_S512x4096 main_cst_14
  let main_v41 : IVec S512x4096 1 := cmpf .olt main_v39 main_v40
  let main_c_15 : IVec S_ 1 := constantI S_ 1 1#1
  let main_v42 : IVec S_ 1 := (fun x v => Host.reduce IntOp.andi x v reducesTo_S512x4096_S_d0_1 h_S_) main_v41 main_c_15
  let main_v43 : IVec S_ 1 := andi main_v38 main_v42
  let main_v44 : FVec F S4096 .f32 := Host.absf main_arg9
  let main_cst_16 : FVec F S_ .f32 := constant S_ .f32 0x7F800000#32
  let main_v45 : FVec F S4096 .f32 := broadcastInDim S4096 ![] bcast_S_S4096 main_cst_16
  let main_v46 : IVec S4096 1 := cmpf .olt main_v44 main_v45
  let main_c_17 : IVec S_ 1 := constantI S_ 1 1#1
  let main_v47 : IVec S_ 1 := (fun x v => Host.reduce IntOp.andi x v reducesTo_S4096_S_d0 h_S_) main_v46 main_c_17
  let main_v48 : IVec S_ 1 := andi main_v43 main_v47
  let main_v49 : FVec F S4096x2048 .f32 := Host.absf main_arg10
  let main_cst_18 : FVec F S_ .f32 := constant S_ .f32 0x7F800000#32
  let main_v50 : FVec F S4096x2048 .f32 := broadcastInDim S4096x2048 ![] bcast_S_S4096x2048 main_cst_18
  fn_part3 (F := F) main_arg11 main_arg12 main_arg13 main_arg14 main_arg15 main_v48 main_v49 main_v50

def fn_part1 {F : FTy → Type} [FloatOps F] (main_arg4 : FVec F S2048x2048 .f32) (main_arg5 : FVec F S2048 .f32) (main_arg6 : FVec F S512x1024 .f32) (main_arg7 : FVec F S1024 .f32) (main_arg8 : FVec F S512x4096 .f32) (main_arg9 : FVec F S4096 .f32) (main_arg10 : FVec F S4096x2048 .f32) (main_arg11 : FVec F S2048 .f32) (main_arg12 : FVec F S512x1024 .f32) (main_arg13 : FVec F S1024 .f32) (main_arg14 : FVec F S1024x2048 .f32) (main_arg15 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16384x32x64 .f32) (main_arg1 : FVec F S16384x512 .f32) (main_arg2 : FVec F S512x2048 .f32) (main_arg3 : FVec F S2048 .f32) (main_arg4 : FVec F S2048x2048 .f32) (main_arg5 : FVec F S2048 .f32) (main_arg6 : FVec F S512x1024 .f32) (main_arg7 : FVec F S1024 .f32) (main_arg8 : FVec F S512x4096 .f32) (main_arg9 : FVec F S4096 .f32) (main_arg10 : FVec F S4096x2048 .f32) (main_arg11 : FVec F S2048 .f32) (main_arg12 : FVec F S512x1024 .f32) (main_arg13 : FVec F S1024 .f32) (main_arg14 : FVec F S1024x2048 .f32) (main_arg15 : FVec F S2048 .f32) : IVec S_ 1 :=
  let main_v0 : FVec F S16384x32x64 .f32 := Host.absf main_arg0
  let main_cst : FVec F S_ .f32 := constant S_ .f32 0x7F800000#32
  let main_v1 : FVec F S16384x32x64 .f32 := broadcastInDim S16384x32x64 ![] bcast_S_S16384x32x64 main_cst
  let main_v2 : IVec S16384x32x64 1 := cmpf .olt main_v0 main_v1
  let main_c : IVec S_ 1 := constantI S_ 1 1#1
  let main_v3 : IVec S_ 1 := (fun x v => Host.reduce IntOp.andi x v reducesTo_S16384x32x64_S_d0_1_2 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S512x2048 .f32 := Host.absf main_arg2
  let main_cst_2 : FVec F S_ .f32 := constant S_ .f32 0x7F800000#32
  let main_v10 : FVec F S512x2048 .f32 := broadcastInDim S512x2048 ![] bcast_S_S512x2048 main_cst_2
  let main_v11 : IVec S512x2048 1 := cmpf .olt main_v9 main_v10
  let main_c_3 : IVec S_ 1 := constantI S_ 1 1#1
  let main_v12 : IVec S_ 1 := (fun x v => Host.reduce IntOp.andi x v reducesTo_S512x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16384x32x64 : Shape := ⟨3, ![16384, 32, 64]⟩
abbrev S16384x512 : Shape := ⟨2, ![16384, 512]⟩
abbrev S512x2048 : Shape := ⟨2, ![512, 2048]⟩
abbrev S2048 : Shape := ⟨1, ![2048]⟩
abbrev S2048x2048 : Shape := ⟨2, ![2048, 2048]⟩
abbrev S512x1024 : Shape := ⟨2, ![512, 1024]⟩
abbrev S1024 : Shape := ⟨1, ![1024]⟩
abbrev S512x4096 : Shape := ⟨2, ![512, 4096]⟩
abbrev S4096 : Shape := ⟨1, ![4096]⟩
abbrev S4096x2048 : Shape := ⟨2, ![4096, 2048]⟩
abbrev S1024x2048 : Shape := ⟨2, ![1024, 2048]⟩
abbrev S1x2048 : Shape := ⟨2, ![1, 2048]⟩
abbrev S16384x2048 : Shape := ⟨2, ![16384, 2048]⟩
abbrev S512x512 : Shape := ⟨2, ![512, 512]⟩
abbrev S16384x64x32 : Shape := ⟨3, ![16384, 64, 32]⟩
abbrev S1x1024 : Shape := ⟨2, ![1, 1024]⟩
abbrev S16384x1024 : Shape := ⟨2, ![16384, 1024]⟩
abbrev S16384x32x32 : Shape := ⟨3, ![16384, 32, 32]⟩
abbrev S1x4096 : Shape := ⟨2, ![1, 4096]⟩
abbrev S16384x4096 : Shape := ⟨2, ![16384, 4096]⟩
abbrev S128x32x64 : Shape := ⟨3, ![128, 32, 64]⟩
abbrev S128x64x32 : Shape := ⟨3, ![128, 64, 32]⟩
abbrev S128x32x32 : Shape := ⟨3, ![128, 32, 32]⟩
abbrev S128x64 : Shape := ⟨2, ![128, 64]⟩
abbrev S128x1x64 : Shape := ⟨3, ![128, 1, 64]⟩

abbrev nBuf : Space → Nat
  | .hbm => 42
  | .vmem => 54
  | .smem => 0
  | _ => 0

abbrev bufTy : (tb : Table) → Fin (tcTables nBuf tb) → BufTy
  | .hbm, ⟨0, _⟩ => ⟨S16384x32x64, .f32⟩
  | .hbm, ⟨1, _⟩ => ⟨S16384x512, .f32⟩
  | .hbm, ⟨2, _⟩ => ⟨S512x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S512x1024, .f32⟩
  | .hbm, ⟨7, _⟩ => ⟨S1024, .f32⟩
  | .hbm, ⟨8, _⟩ => ⟨S512x4096, .f32⟩
  | .hbm, ⟨9, _⟩ => ⟨S4096, .f32⟩
  | .hbm, ⟨10, _⟩ => ⟨S4096x2048, .f32⟩
  | .hbm, ⟨11, _⟩ => ⟨S2048, .f32⟩
  | .hbm, ⟨12, _⟩ => ⟨S512x1024, .f32⟩
  | .hbm, ⟨13, _⟩ => ⟨S1024, .f32⟩
  | .hbm, ⟨14, _⟩ => ⟨S1024x2048, .f32⟩
  | .hbm, ⟨15, _⟩ => ⟨S2048, .f32⟩
  | .hbm, ⟨16, _⟩ => ⟨S512x2048, .bf16⟩
  | .hbm, ⟨17, _⟩ => ⟨S1x2048, .f32⟩
  | .hbm, ⟨18, _⟩ => ⟨S16384x2048, .bf16⟩
  | .hbm, ⟨19, _⟩ => ⟨S2048x2048, .bf16⟩
  | .hbm, ⟨20, _⟩ => ⟨S1x2048, .f32⟩
  | .hbm, ⟨21, _⟩ => ⟨S16384x2048, .f32⟩
  | .hbm, ⟨22, _⟩ => ⟨S16384x64x32, .f32⟩
  | .hbm, ⟨23, _⟩ => ⟨S512x1024, .bf16⟩
  | .hbm, ⟨24, _⟩ => ⟨S1x1024, .f32⟩
  | .hbm, ⟨25, _⟩ => ⟨S16384x1024, .f32⟩
  | .hbm, ⟨26, _⟩ => ⟨S16384x32x32, .f32⟩
  | .hbm, ⟨27, _⟩ => ⟨S512x4096, .bf16⟩
  | .hbm, ⟨28, _⟩ => ⟨S1x4096, .f32⟩
  | .hbm, ⟨29, _⟩ => ⟨S16384x4096, .bf16⟩
  | .hbm, ⟨30, _⟩ => ⟨S4096x2048, .bf16⟩
  | .hbm, ⟨31, _⟩ => ⟨S1x2048, .f32⟩
  | .hbm, ⟨32, _⟩ => ⟨S16384x2048, .f32⟩
  | .hbm, ⟨33, _⟩ => ⟨S16384x32x64, .f32⟩
  | .hbm, ⟨34, _⟩ => ⟨S512x1024, .bf16⟩
  | .hbm, ⟨35, _⟩ => ⟨S1x1024, .f32⟩
  | .hbm, ⟨36, _⟩ => ⟨S16384x1024, .bf16⟩
  | .hbm, ⟨37, _⟩ => ⟨S1024x2048, .bf16⟩
  | .hbm, ⟨38, _⟩ => ⟨S1x2048, .f32⟩
  | .hbm, ⟨39, _⟩ => ⟨S16384x2048, .f32⟩
  | .hbm, ⟨40, _⟩ => ⟨S16384x32x64, .f32⟩
  | .hbm, ⟨41, _⟩ => ⟨S16384x32x64, .f32⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S1x2048, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x512, .f32⟩
  | .local _ .vmem, ⟨13, _⟩ => ⟨S512x512, .f32⟩
  | .local _ .vmem, ⟨14, _⟩ => ⟨S512x1024, .bf16⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x512, .f32⟩
  | .local _ .vmem, ⟨19, _⟩ => ⟨S512x512, .f32⟩
  | .local _ .vmem, ⟨20, _⟩ => ⟨S512x4096, .bf16⟩
  | .local _ .vmem, ⟨21, _⟩ => ⟨S1x4096, .f32⟩
  | .local _ .vmem, ⟨22, _⟩ => ⟨S512x4096, .bf16⟩
  | .local _ .vmem, ⟨23, _⟩ => ⟨S512x4096, .bf16⟩
  | .local _ .vmem, ⟨24, _⟩ => ⟨S512x4096, .bf16⟩
  | .local _ .vmem, ⟨25, _⟩ => ⟨S512x4096, .bf16⟩
  | .local _ .vmem, ⟨26, _⟩ => ⟨S4096x2048, .bf16⟩
  | .local _ .vmem, ⟨27, _⟩ => ⟨S1x2048, .f32⟩
  | .local _ .vmem, ⟨28, _⟩ => ⟨S512x2048, .f32⟩
  | .local _ .vmem, ⟨29, _⟩ => ⟨S512x2048, .f32⟩
  | .local _ .vmem, ⟨30, _⟩ => ⟨S512x512, .f32⟩
  | .local _ .vmem, ⟨31, _⟩ => ⟨S512x512, .f32⟩
  | .local _ .vmem, ⟨32, _⟩ => ⟨S512x1024, .bf16⟩
  | .local _ .vmem, ⟨33, _⟩ => ⟨S1x1024, .f32⟩
  | .local _ .vmem, ⟨34, _⟩ => ⟨S512x1024, .bf16⟩
  | .local _ .vmem, ⟨35, _⟩ => ⟨S512x1024, .bf16⟩
  | .local _ .vmem, ⟨36, _⟩ => ⟨S512x1024, .bf16⟩
  | .local _ .vmem, ⟨37, _⟩ => ⟨S512x1024, .bf16⟩
  | .local _ .vmem, ⟨38, _⟩ => ⟨S1024x2048, .bf16⟩
  | .local _ .vmem, ⟨39, _⟩ => ⟨S1x2048, .f32⟩
  | .local _ .vmem, ⟨40, _⟩ => ⟨S512x2048, .f32⟩
  | .local _ .vmem, ⟨41, _⟩ => ⟨S512x2048, .f32⟩
  | .local _ .vmem, ⟨42, _⟩ => ⟨S128x32x64, .f32⟩
  | .local _ .vmem, ⟨43, _⟩ => ⟨S128x32x64, .f32⟩
  | .local _ .vmem, ⟨44, _⟩ => ⟨S128x64x32, .f32⟩
  | .local _ .vmem, ⟨45, _⟩ => ⟨S128x64x32, .f32⟩
  | .local _ .vmem, ⟨46, _⟩ => ⟨S128x32x32, .f32⟩
  | .local _ .vmem, ⟨47, _⟩ => ⟨S128x32x32, .f32⟩
  | .local _ .vmem, ⟨48, _⟩ => ⟨S128x32x64, .f32⟩
  | .local _ .vmem, ⟨49, _⟩ => ⟨S128x32x64, .f32⟩
  | .local _ .vmem, ⟨50, _⟩ => ⟨S128x32x64, .f32⟩
  | .local _ .vmem, ⟨51, _⟩ => ⟨S128x32x64, .f32⟩
  | .local _ .vmem, ⟨52, _⟩ => ⟨S128x32x64, .f32⟩
  | .local _ .vmem, ⟨53, _⟩ => ⟨S128x32x64, .f32⟩
  | _, _ => ⟨S16384x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc7_stg3_0 : Ref sig .tc := ⟨.vmem, 48, rfl⟩
abbrev cc7_stg3_1 : Ref sig .tc := ⟨.vmem, 49, rfl⟩
abbrev cc7_stg4_0 : Ref sig .tc := ⟨.vmem, 50, rfl⟩
abbrev cc7_stg4_1 : Ref sig .tc := ⟨.vmem, 51, rfl⟩
abbrev cc7_stg5_0 : Ref sig .tc := ⟨.vmem, 52, rfl⟩
abbrev cc7_stg5_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc7_sem3_0 : DmaSem sig := 48
abbrev cc7_sem3_1 : DmaSem sig := 49
abbrev cc7_sem4_0 : DmaSem sig := 50
abbrev cc7_sem4_1 : DmaSem sig := 51
abbrev cc7_sem5_0 : DmaSem sig := 52
abbrev cc7_sem5_1 : DmaSem sig := 53

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x4096 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4096 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x4096 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x2048 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1024x2048 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2048 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S512x2048 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![128], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_2 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_3 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_4 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_5 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S128x32x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S128x64x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S128x32x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S128x32x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S128x32x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S128x32x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  bitsLt_bf16_f32 : FTy.bits .bf16 < FTy.bits .f32
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  packedbf16_S512x2048_S512x2048_0_0 : (Rect.unit (s := S512x2048) ![0, 0] S512x2048.size inb_S512x2048_S512x2048_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S16384x2048_S16384x64x32 : S16384x2048.ShapeCasts S16384x64x32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S16384x32x32 : S16384x1024.ShapeCasts S16384x32x32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  packedbf16_S512x4096_S512x4096_0_0 : (Rect.unit (s := S512x4096) ![0, 0] S512x4096.size inb_S512x4096_S512x4096_0_0).PackedRows (EltTy.packing .bf16)
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  shapeCasts_S16384x2048_S16384x32x64 : S16384x2048.ShapeCasts S16384x32x64
  packedbf16_S512x1024_S512x1024_0_0 : (Rect.unit (s := S512x1024) ![0, 0] S512x1024.size inb_S512x1024_S512x1024_0_0).PackedRows (EltTy.packing .bf16)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S128x32x64_S128x32x64_0_0_0 : ∀ a, (![0, 0, 0] : Fin 3 → Nat) a + S128x32x64.size a ≤ S128x32x64.size a
  h_S128x32x64 : 0 < S128x32x64.numel
  inb_S128x64x32_S128x64x32_0_0_0 : ∀ a, (![0, 0, 0] : Fin 3 → Nat) a + S128x64x32.size a ≤ S128x64x32.size a
  h_S128x64x32 : 0 < S128x64x32.numel
  shapeCasts_S128x64x32_S128x64x32 : S128x64x32.ShapeCasts S128x64x32
  inb_S128x32x32_S128x32x32_0_0_0 : ∀ a, (![0, 0, 0] : Fin 3 → Nat) a + S128x32x32.size a ≤ S128x32x32.size a
  h_S128x32x32 : 0 < S128x32x32.numel
  shapeCasts_S128x32x32_S128x32x32 : S128x32x32.ShapeCasts S128x32x32
  shapeCasts_S128x32x64_S128x32x64 : S128x32x64.ShapeCasts S128x32x64
  reduces_S128x32x64_S128x64 : S128x32x64.Reduces [1] S128x64
  shapeCasts_S128x64_S128x1x64 : S128x64.ShapeCasts S128x1x64
  broadcasts_S128x1x64_S128x32x64 : S128x1x64.Broadcasts S128x32x64
  dot_S512x512_S512x2048_S512x2048_1_0_0_1_n_n_wf : DotDims.WF S512x512 S512x2048 S512x2048 [1] [0] [0] [1] [] []
  dot_S512x2048_S2048x2048_S512x2048_1_0_0_1_n_n_wf : DotDims.WF S512x2048 S2048x2048 S512x2048 [1] [0] [0] [1] [] []
  dot_S512x512_S512x1024_S512x1024_1_0_0_1_n_n_wf : DotDims.WF S512x512 S512x1024 S512x1024 [1] [0] [0] [1] [] []
  dot_S512x512_S512x4096_S512x4096_1_0_0_1_n_n_wf : DotDims.WF S512x512 S512x4096 S512x4096 [1] [0] [0] [1] [] []
  dot_S512x4096_S4096x2048_S512x2048_1_0_0_1_n_n_wf : DotDims.WF S512x4096 S4096x2048 S512x2048 [1] [0] [0] [1] [] []
  dot_S512x1024_S1024x2048_S512x2048_1_0_0_1_n_n_wf : DotDims.WF S512x1024 S1024x2048 S512x2048 [1] [0] [0] [1] [] []
  dot_S128x32x64_S128x64x32_S128x32x32_2_1_1_2_0_0_wf : DotDims.WF S128x32x64 S128x64x32 S128x32x32 [2] [1] [1] [2] [0] [0]
  dot_S128x32x32_S128x32x64_S128x32x64_2_1_1_2_0_0_wf : DotDims.WF S128x32x32 S128x32x64 S128x32x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .bf16 = 32 ∨ (Rect.block (s := S512x2048) S512x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .bf16 = 32 ∨ (Rect.block (s := S16384x2048) S512x2048.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .bf16 = 32 ∨ (Rect.block (s := S16384x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S16384x2048.size a
  hwx1_3 : ∀ i : grid1.Coords, EltTy.bits .f32 = 32 ∨ (Rect.block (s := S16384x2048) S512x2048.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S16384x512.size a
  hwx2_0 : ∀ i : grid2.Coords, EltTy.bits .f32 = 32 ∨ (Rect.block (s := S16384x512) S512x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S512x1024.size a
  hwx2_1 : ∀ i : grid2.Coords, EltTy.bits .bf16 = 32 ∨ (Rect.block (s := S512x1024) S512x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S16384x1024.size a
  hwx2_3 : ∀ i : grid2.Coords, EltTy.bits .f32 = 32 ∨ (Rect.block (s := S16384x1024) S512x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x512.size a ≤ S16384x512.size a
  hwx3_0 : ∀ i : grid3.Coords, EltTy.bits .f32 = 32 ∨ (Rect.block (s := S16384x512) S512x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x4096.size a ≤ S512x4096.size a
  hwx3_1 : ∀ i : grid3.Coords, EltTy.bits .bf16 = 32 ∨ (Rect.block (s := S512x4096) S512x4096.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4096.size a ≤ S1x4096.size a
  hwx3_2 : ∀ i : grid3.Coords, EltTy.bits .f32 = 32 ∨ (Rect.block (s := S1x4096) S1x4096.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x4096.size a ≤ S16384x4096.size a
  hwx3_3 : ∀ i : grid3.Coords, EltTy.bits .bf16 = 32 ∨ (Rect.block (s := S16384x4096) S512x4096.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x4096.size a ≤ S16384x4096.size a
  hwx4_0 : ∀ i : grid4.Coords, EltTy.bits .bf16 = 32 ∨ (Rect.block (s := S16384x4096) S512x4096.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4096x2048.size a ≤ S4096x2048.size a
  hwx4_1 : ∀ i : grid4.Coords, EltTy.bits .bf16 = 32 ∨ (Rect.block (s := S4096x2048) S4096x2048.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x2048.size a ≤ S1x2048.size a
  hwx4_2 : ∀ i : grid4.Coords, EltTy.bits .f32 = 32 ∨ (Rect.block (s := S1x2048) S1x2048.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x2048.size a ≤ S16384x2048.size a
  hwx4_3 : ∀ i : grid4.Coords, EltTy.bits .f32 = 32 ∨ (Rect.block (s := S16384x2048) S512x2048.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x512.size a ≤ S16384x512.size a
  hwx5_0 : ∀ i : grid5.Coords, EltTy.bits .f32 = 32 ∨ (Rect.block (s := S16384x512) S512x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x1024.size a ≤ S512x1024.size a
  hwx5_1 : ∀ i : grid5.Coords, EltTy.bits .bf16 = 32 ∨ (Rect.block (s := S512x1024) S512x1024.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x1024.size a
  hwx5_2 : ∀ i : grid5.Coords, EltTy.bits .f32 = 32 ∨ (Rect.block (s := S1x1024) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x1024.size a ≤ S16384x1024.size a
  hwx5_3 : ∀ i : grid5.Coords, EltTy.bits .bf16 = 32 ∨ (Rect.block (s := S16384x1024) S512x1024.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x1024.size a ≤ S16384x1024.size a
  hwx6_0 : ∀ i : grid6.Coords, EltTy.bits .bf16 = 32 ∨ (Rect.block (s := S16384x1024) S512x1024.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1024x2048.size a ≤ S1024x2048.size a
  hwx6_1 : ∀ i : grid6.Coords, EltTy.bits .bf16 = 32 ∨ (Rect.block (s := S1024x2048) S1024x2048.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2048.size a ≤ S1x2048.size a
  hwx6_2 : ∀ i : grid6.Coords, EltTy.bits .f32 = 32 ∨ (Rect.block (s := S1x2048) S1x2048.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S512x2048.size a ≤ S16384x2048.size a
  hwx6_3 : ∀ i : grid6.Coords, EltTy.bits .f32 = 32 ∨ (Rect.block (s := S16384x2048) S512x2048.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S128x32x64.size a ≤ S16384x32x64.size a
  hwx7_0 : ∀ i : grid7.Coords, EltTy.bits .f32 = 32 ∨ (Rect.block (s := S16384x32x64) S128x32x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S128x64x32.size a ≤ S16384x64x32.size a
  hwx7_1 : ∀ i : grid7.Coords, EltTy.bits .f32 = 32 ∨ (Rect.block (s := S16384x64x32) S128x64x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S128x32x32.size a ≤ S16384x32x32.size a
  hwx7_2 : ∀ i : grid7.Coords, EltTy.bits .f32 = 32 ∨ (Rect.block (s := S16384x32x32) S128x32x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S128x32x64.size a ≤ S16384x32x64.size a
  hwx7_3 : ∀ i : grid7.Coords, EltTy.bits .f32 = 32 ∨ (Rect.block (s := S16384x32x64) S128x32x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S128x32x64.size a ≤ S16384x32x64.size a
  hwx7_4 : ∀ i : grid7.Coords, EltTy.bits .f32 = 32 ∨ (Rect.block (s := S16384x32x64) S128x32x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S128x32x64.size a ≤ S16384x32x64.size a
  hwx7_5 : ∀ i : grid7.Coords, EltTy.bits .f32 = 32 ∨ (Rect.block (s := S16384x32x64) S128x32x64.size (cc7_transform_5 i) (hinb7_5 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S512x4096_S4096x2048_S512x2048_1_0_0_1_n_n : DotDims S512x4096 S4096x2048 S512x2048 where
  lhsContracting := [1]
  rhsContracting := [0]
  lhsNonContracting := [0]
  rhsNonContracting := [1]
  lhsBatch := []
  rhsBatch := []
  wf := dot_S512x4096_S4096x2048_S512x2048_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S128x32x64_S128x64x32_S128x32x32_2_1_1_2_0_0 : DotDims S128x32x64 S128x64x32 S128x32x32 where
  lhsContracting := [2]
  rhsContracting := [1]
  lhsNonContracting := [1]
  rhsNonContracting := [2]
  lhsBatch := [0]
  rhsBatch := [0]
  wf := dot_S128x32x64_S128x64x32_S128x32x32_2_1_1_2_0_0_wf
def dot_S128x32x32_S128x32x64_S128x32x64_2_1_1_2_0_0 : DotDims S128x32x32 S128x32x64 S128x32x64 where
  lhsContracting := [2]
  rhsContracting := [1]
  lhsNonContracting := [1]
  rhsNonContracting := [2]
  lhsBatch := [0]
  rhsBatch := [0]
  wf := dot_S128x32x32_S128x32x64_S128x32x64_2_1_1_2_0_0_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S512x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S512x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11) S512x4096.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S1x4096.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S512x4096.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v13) S512x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S4096x2048.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S1x2048.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v16) S512x2048.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_arg1) S512x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18) S512x1024.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v19) S1x1024.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v20) S512x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v20) S512x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v21) S1024x2048.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v22) S1x2048.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v23) S512x2048.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_arg0) S128x32x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v6) S128x64x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v10) S128x32x32.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v17) S128x32x64.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v24) S128x32x64.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v25) S128x32x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S16384x32x64 : Shape := ⟨3, ![16384, 32, 64]⟩
abbrev S16384x512 : Shape := ⟨2, ![16384, 512]⟩
abbrev S512x2048 : Shape := ⟨2, ![512, 2048]⟩
abbrev S2048 : Shape := ⟨1, ![2048]⟩
abbrev S2048x2048 : Shape := ⟨2, ![2048, 2048]⟩
abbrev S512x1024 : Shape := ⟨2, ![512, 1024]⟩
abbrev S1024 : Shape := ⟨1, ![1024]⟩
abbrev S512x4096 : Shape := ⟨2, ![512, 4096]⟩
abbrev S4096 : Shape := ⟨1, ![4096]⟩
abbrev S4096x2048 : Shape := ⟨2, ![4096, 2048]⟩
abbrev S1024x2048 : Shape := ⟨2, ![1024, 2048]⟩
abbrev S16384x2048 : Shape := ⟨2, ![16384, 2048]⟩
abbrev S1x2048 : Shape := ⟨2, ![1, 2048]⟩
abbrev S_ : Shape := ⟨0, ![]⟩
abbrev S16384x64x32 : Shape := ⟨3, ![16384, 64, 32]⟩
abbrev S16384x1024 : Shape := ⟨2, ![16384, 1024]⟩
abbrev S1x1024 : Shape := ⟨2, ![1, 1024]⟩
abbrev S16384x32x32 : Shape := ⟨3, ![16384, 32, 32]⟩
abbrev S16384x4096 : Shape := ⟨2, ![16384, 4096]⟩
abbrev S1x4096 : Shape := ⟨2, ![1, 4096]⟩
abbrev S16384x64 : Shape := ⟨2, ![16384, 64]⟩
abbrev S16384x1x64 : Shape := ⟨3, ![16384, 1, 64]⟩

abbrev nBuf : Space → Nat
  | .hbm => 99
  | .vmem => 0
  | .smem => 0
  | _ => 0

abbrev bufTy : (tb : Table) → Fin (tcTables nBuf tb) → BufTy
  | .hbm, ⟨0, _⟩ => ⟨S16384x32x64, .f32⟩
  | .hbm, ⟨1, _⟩ => ⟨S16384x512, .f32⟩
  | .hbm, ⟨2, _⟩ => ⟨S512x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S512x1024, .f32⟩
  | .hbm, ⟨7, _⟩ => ⟨S1024, .f32⟩
  | .hbm, ⟨8, _⟩ => ⟨S512x4096, .f32⟩
  | .hbm, ⟨9, _⟩ => ⟨S4096, .f32⟩
  | .hbm, ⟨10, _⟩ => ⟨S4096x2048, .f32⟩
  | .hbm, ⟨11, _⟩ => ⟨S2048, .f32⟩
  | .hbm, ⟨12, _⟩ => ⟨S512x1024, .f32⟩
  | .hbm, ⟨13, _⟩ => ⟨S1024, .f32⟩
  | .hbm, ⟨14, _⟩ => ⟨S1024x2048, .f32⟩
  | .hbm, ⟨15, _⟩ => ⟨S2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S_, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x64x32, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x32x32, .f32⟩
  | .hbm, ⟨33, _⟩ => ⟨S16384x4096, .f32⟩
  | .hbm, ⟨34, _⟩ => ⟨S1x4096, .f32⟩
  | .hbm, ⟨35, _⟩ => ⟨S16384x4096, .f32⟩
  | .hbm, ⟨36, _⟩ => ⟨S16384x4096, .f32⟩
  | .hbm, ⟨37, _⟩ => ⟨S_, .f32⟩
  | .hbm, ⟨38, _⟩ => ⟨S16384x4096, .f32⟩
  | .hbm, ⟨39, _⟩ => ⟨S16384x4096, .f32⟩
  | .hbm, ⟨40, _⟩ => ⟨S16384x2048, .f32⟩
  | .hbm, ⟨41, _⟩ => ⟨S1x2048, .f32⟩
  | .hbm, ⟨42, _⟩ => ⟨S16384x2048, .f32⟩
  | .hbm, ⟨43, _⟩ => ⟨S16384x2048, .f32⟩
  | .hbm, ⟨44, _⟩ => ⟨S16384x32x64, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S16384x2048, .f32⟩
  | .hbm, ⟨53, _⟩ => ⟨S1x2048, .f32⟩
  | .hbm, ⟨54, _⟩ => ⟨S16384x2048, .f32⟩
  | .hbm, ⟨55, _⟩ => ⟨S16384x2048, .f32⟩
  | .hbm, ⟨56, _⟩ => ⟨S16384x32x64, .f32⟩
  | .hbm, ⟨57, _⟩ => ⟨S16384x32x32, .f32⟩
  | .hbm, ⟨58, _⟩ => ⟨S16384x32x32, .f32⟩
  | .hbm, ⟨59, _⟩ => ⟨S_, .f32⟩
  | .hbm, ⟨60, _⟩ => ⟨S16384x32x32, .f32⟩
  | .hbm, ⟨61, _⟩ => ⟨S16384x32x32, .i1⟩
  | .hbm, ⟨62, _⟩ => ⟨S_, .f32⟩
  | .hbm, ⟨63, _⟩ => ⟨S16384x32x32, .f32⟩
  | .hbm, ⟨64, _⟩ => ⟨S16384x32x32, .i1⟩
  | .hbm, ⟨65, _⟩ => ⟨S_, .f32⟩
  | .hbm, ⟨66, _⟩ => ⟨S_, .f32⟩
  | .hbm, ⟨67, _⟩ => ⟨S16384x32x32, .f32⟩
  | .hbm, ⟨68, _⟩ => ⟨S16384x32x32, .f32⟩
  | .hbm, ⟨69, _⟩ => ⟨S16384x32x32, .f32⟩
  | .hbm, ⟨70, _⟩ => ⟨S_, .f32⟩
  | .hbm, ⟨71, _⟩ => ⟨S16384x32x32, .f32⟩
  | .hbm, ⟨72, _⟩ => ⟨S16384x32x32, .f32⟩
  | .hbm, ⟨73, _⟩ => ⟨S16384x32x32, .f32⟩
  | .hbm, ⟨74, _⟩ => ⟨S16384x32x64, .f32⟩
  | .hbm, ⟨75, _⟩ => ⟨S16384x32x64, .f32⟩
  | .hbm, ⟨76, _⟩ => ⟨S16384x32x64, .f32⟩
  | .hbm, ⟨77, _⟩ => ⟨S_, .f32⟩
  | .hbm, ⟨78, _⟩ => ⟨S16384x64, .f32⟩
  | .hbm, ⟨79, _⟩ => ⟨S16384x1x64, .f32⟩
  | .hbm, ⟨80, _⟩ => ⟨S_, .f32⟩
  | .hbm, ⟨81, _⟩ => ⟨S16384x1x64, .f32⟩
  | .hbm, ⟨82, _⟩ => ⟨S16384x1x64, .f32⟩
  | .hbm, ⟨83, _⟩ => ⟨S_, .f32⟩
  | .hbm, ⟨84, _⟩ => ⟨S16384x1x64, .f32⟩
  | .hbm, ⟨85, _⟩ => ⟨S_, .f32⟩
  | .hbm, ⟨86, _⟩ => ⟨S16384x1x64, .f32⟩
  | .hbm, ⟨87, _⟩ => ⟨S16384x1x64, .f32⟩
  | .hbm, ⟨88, _⟩ => ⟨S16384x1x64, .f32⟩
  | .hbm, ⟨89, _⟩ => ⟨S16384x32x64, .f32⟩
  | .hbm, ⟨90, _⟩ => ⟨S16384x32x64, .f32⟩
  | .hbm, ⟨91, _⟩ => ⟨S16384x32x64, .f32⟩
  | .hbm, ⟨92, _⟩ => ⟨S16384x32x64, .f32⟩
  | .hbm, ⟨93, _⟩ => ⟨S_, .f32⟩
  | .hbm, ⟨94, _⟩ => ⟨S16384x32x64, .f32⟩
  | .hbm, ⟨95, _⟩ => ⟨S16384x32x64, .f32⟩
  | .hbm, ⟨96, _⟩ => ⟨S_, .f32⟩
  | .hbm, ⟨97, _⟩ => ⟨S16384x32x64, .f32⟩
  | .hbm, ⟨98, _⟩ => ⟨S16384x32x64, .f32⟩
  | _, _ => ⟨S16384x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call1_cst : Ref sig .tc := ⟨.hbm, 37, rfl⟩
abbrev main_call1_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call2_cst : Ref sig .tc := ⟨.hbm, 49, rfl⟩
abbrev main_call2_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_call3_cst : Ref sig .tc := ⟨.hbm, 59, rfl⟩
abbrev main_call3_v0 : Ref sig .tc := ⟨.hbm, 60, rfl⟩
abbrev main_call3_v1 : Ref sig .tc := ⟨.hbm, 61, rfl⟩
abbrev main_call3_cst_0 : Ref sig .tc := ⟨.hbm, 62, rfl⟩
abbrev main_call3_v2 : Ref sig .tc := ⟨.hbm, 63, rfl⟩
abbrev main_call3_v3 : Ref sig .tc := ⟨.hbm, 64, rfl⟩
abbrev main_call3_cst_1 : Ref sig .tc := ⟨.hbm, 65, rfl⟩
abbrev main_call3_call0_v0 : Ref sig .tc := ⟨.hbm, 66, rfl⟩
abbrev main_call3_call0_v1 : Ref sig .tc := ⟨.hbm, 67, rfl⟩
abbrev main_call3_v4 : Ref sig .tc := ⟨.hbm, 68, rfl⟩
abbrev main_call3_v5 : Ref sig .tc := ⟨.hbm, 69, rfl⟩
abbrev main_call3_cst_2 : Ref sig .tc := ⟨.hbm, 70, rfl⟩
abbrev main_call3_v6 : Ref sig .tc := ⟨.hbm, 71, rfl⟩
abbrev main_call3_v7 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_cst : Ref sig .tc := ⟨.hbm, 77, rfl⟩
abbrev main_v41 : Ref sig .tc := ⟨.hbm, 78, rfl⟩
abbrev main_v42 : Ref sig .tc := ⟨.hbm, 79, rfl⟩
abbrev main_cst_0 : Ref sig .tc := ⟨.hbm, 80, rfl⟩
abbrev main_v43 : Ref sig .tc := ⟨.hbm, 81, rfl⟩
abbrev main_v44 : Ref sig .tc := ⟨.hbm, 82, rfl⟩
abbrev main_cst_1 : Ref sig .tc := ⟨.hbm, 83, rfl⟩
abbrev main_v45 : Ref sig .tc := ⟨.hbm, 84, rfl⟩
abbrev main_cst_2 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_3 : Ref sig .tc := ⟨.hbm, 93, rfl⟩
abbrev main_v53 : Ref sig .tc := ⟨.hbm, 94, rfl⟩
abbrev main_v54 : Ref sig .tc := ⟨.hbm, 95, rfl⟩
abbrev main_cst_4 : Ref sig .tc := ⟨.hbm, 96, rfl⟩
abbrev main_v55 : Ref sig .tc := ⟨.hbm, 97, rfl⟩
abbrev main_v56 : Ref sig .tc := ⟨.hbm, 98, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  shapeCasts_S16384x2048_S16384x64x32 : S16384x2048.ShapeCasts S16384x64x32
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S16384x32x32 : S16384x1024.ShapeCasts S16384x32x32
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  shapeCasts_S16384x2048_S16384x32x64 : S16384x2048.ShapeCasts S16384x32x64
  bcast_S_S16384x1024 : S_.BroadcastsInDim S16384x1024 (![] : Fin 0 → Fin S16384x1024.rank)
  bcast_S_S16384x32x32 : S_.BroadcastsInDim S16384x32x32 (![] : Fin 0 → Fin S16384x32x32.rank)
  reducesTo_S16384x32x64_S16384x64_d1 : S16384x32x64.ReducesTo [1] S16384x64
  h_S_ : 0 < S_.numel
  bcast_S16384x64_S16384x1x64_0_2 : S16384x64.BroadcastsInDim S16384x1x64 (![0, 2] : Fin 2 → Fin S16384x1x64.rank)
  bcast_S_S16384x1x64 : S_.BroadcastsInDim S16384x1x64 (![] : Fin 0 → Fin S16384x1x64.rank)
  bcast_S16384x1x64_S16384x32x64_0_1_2 : S16384x1x64.BroadcastsInDim S16384x32x64 (![0, 1, 2] : Fin 3 → Fin S16384x32x64.rank)
  bcast_S_S16384x32x64 : S_.BroadcastsInDim S16384x32x64 (![] : Fin 0 → Fin S16384x32x64.rank)
  dot_S16384x512_S512x2048_S16384x2048_1_0_0_1_n_n_wf : DotDims.WF S16384x512 S512x2048 S16384x2048 [1] [0] [0] [1] [] []
  dot_S16384x2048_S2048x2048_S16384x2048_1_0_0_1_n_n_wf : DotDims.WF S16384x2048 S2048x2048 S16384x2048 [1] [0] [0] [1] [] []
  dot_S16384x512_S512x1024_S16384x1024_1_0_0_1_n_n_wf : DotDims.WF S16384x512 S512x1024 S16384x1024 [1] [0] [0] [1] [] []
  dot_S16384x512_S512x4096_S16384x4096_1_0_0_1_n_n_wf : DotDims.WF S16384x512 S512x4096 S16384x4096 [1] [0] [0] [1] [] []
  dot_S16384x4096_S4096x2048_S16384x2048_1_0_0_1_n_n_wf : DotDims.WF S16384x4096 S4096x2048 S16384x2048 [1] [0] [0] [1] [] []
  dot_S16384x1024_S1024x2048_S16384x2048_1_0_0_1_n_n_wf : DotDims.WF S16384x1024 S1024x2048 S16384x2048 [1] [0] [0] [1] [] []
  dot_S16384x32x64_S16384x64x32_S16384x32x32_2_1_1_2_0_0_wf : DotDims.WF S16384x32x64 S16384x64x32 S16384x32x32 [2] [1] [1] [2] [0] [0]
  dot_S16384x32x32_S16384x32x64_S16384x32x64_2_1_1_2_0_0_wf : DotDims.WF S16384x32x32 S16384x32x64 S16384x32x64 [2] [1] [1] [2] [0] [0]

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf
def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf
def dot_S16384x4096_S4096x2048_S16384x2048_1_0_0_1_n_n : DotDims S16384x4096 S4096x2048 S16384x2048 where
  lhsContracting := [1]
  rhsContracting := [0]
  lhsNonContracting := [0]
  rhsNonContracting := [1]
  lhsBatch := []
  rhsBatch := []
  wf := dot_S16384x4096_S4096x2048_S16384x2048_1_0_0_1_n_n_wf
def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf
def dot_S16384x32x64_S16384x64x32_S16384x32x32_2_1_1_2_0_0 : DotDims S16384x32x64 S16384x64x32 S16384x32x32 where
  lhsContracting := [2]
  rhsContracting := [1]
  lhsNonContracting := [1]
  rhsNonContracting := [2]
  lhsBatch := [0]
  rhsBatch := [0]
  wf := dot_S16384x32x64_S16384x64x32_S16384x32x32_2_1_1_2_0_0_wf
def dot_S16384x32x32_S16384x32x64_S16384x32x64_2_1_1_2_0_0 : DotDims S16384x32x32 S16384x32x64 S16384x32x64 where
  lhsContracting := [2]
  rhsContracting := [1]
  lhsNonContracting := [1]
  rhsNonContracting := [2]
  lhsBatch := [0]
  rhsBatch := [0]
  wf := dot_S16384x32x32_S16384x32x64_S16384x32x64_2_1_1_2_0_0_wf

class Facts : Prop extends Facts₀ where

variable [Facts]
-- ==== Proof.KRun.lean ====
/-
  The idealized kernel program's run, with its RESULT named.

  Every weakly fair execution of @main terminates, nothing faulting; the sixteen argument arrays end as launched, and
  the result array ends at what the last of the eight kernel regions leaves in it — the last boundary's contents in the
  fold of buffer contents through @main's stretches of host operations and kernel regions (`Gen.W16`). This is the
  regions theorem of the pipeline library applied to @main's sixteen segments, as for the frame, read at one more buffer.
-/
import proofs.«166068_j82617990906012_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions theorem's implicit arguments are found by unifying its conclusion with this one, which takes unfolding
-- plain definitions in a metavariable's type
set_option backward.isDefEq.respectTransparency.types false in
/-- The run: the result at the last boundary's contents, the arguments as launched. -/
theorem run : θ_run defs (onTc (τ := τ) (main (F := F))) ⟨m, fun _ => 0, ρ⟩ (fun r => ∀ c : Dev nD,
      r.2.mem ((c.tc : Thread nD τ).loc main_v25) = W16 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v25 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c)⟩)

end Cert.KernelIdeal.KRun

end
-- ==== Proof.Spec.lean ====
/-
  The whole computation as ONE function of the argument arrays, entry by entry, over the extended reals.

  A state row `s` (512 numbers) drives four small "hyper" networks of dense layers
  (`dense x w b = x · w + b`, the bias added to every row; `relu` between the two layers of a two-layer one):

      W₁ = dense (relu (dense s ·)) ·      read as a 64 × 32 matrix per sample,
      B₁ = dense s ·                        read as a 32 × 32 matrix per sample,
      W₂ = dense (relu (dense s ·)) ·      read as a 32 × 64 matrix per sample,
      B₂ = dense (relu (dense s ·)) ·      read as a 32 × 64 matrix per sample,

  and each sample's 32 × 64 embedding `E` is mixed through them:

      H = elu (E · W₁ + B₁),   O = H · W₂ + B₂,
      result = logistic (O · min (1, 5 / (max over the 32 rows of |O| + ε)))        (column by column).

  How a flat row of 2048 (or 1024) numbers is read as a matrix is the same re-layout on both sides of the claim, so it is
  a parameter here (`r₁ r₂ r₃`).
-/
import Idealize.ShloMosaic.PureOps.Ideal.Laws
import Idealize.ShloMosaic.Lib.ValueIdx

noncomputable section

open scoped BigOperators
open Idealize.ShloMosaic Idealize.ShloMosaic.ValueIdx

namespace HyperMix

/-- Arrays of extended reals of rank one, two and three. -/
abbrev Arr1 (n : ℕ) := (⟨1, ![n]⟩ : Shape).Idx → EReal
abbrev Arr2 (a b : ℕ) := (⟨2, ![a, b]⟩ : Shape).Idx → EReal
abbrev Arr3 (a b c : ℕ) := (⟨3, ![a, b, c]⟩ : Shape).Idx → EReal

/-- The literals of the computation, as the words both programs spell: `1`, `5`, the `ε` next to the maximum, and
    the `-∞` a maximum starts from. -/
abbrev one : EReal := Ideal.ofBits .f32 0x3F800000#32
abbrev five : EReal := Ideal.ofBits .f32 0x40A00000#32
abbrev eps : EReal := Ideal.ofBits .f32 0x3727C5AC#32
abbrev negInf : EReal := Ideal.ofBits .f32 0xFF800000#32
abbrev zero : EReal := Ideal.ofBits .f32 0x00000000#32

/-- A dense layer: row `p` of `x` against column `q` of `w`, plus the bias of column `q`. -/
def dense {M K N : ℕ} (x : Arr2 M K) (w : Arr2 K N) (b : Arr1 N) : Arr2 M N :=
  fun i => (∑ k : Fin K, x (ix2 (i 0) k) * w (ix2 k (i 1))) + b (ix1 (i 1))

theorem dense_ix2 {M K N : ℕ} (x : Arr2 M K) (w : Arr2 K N) (b : Arr1 N) (p : Fin M) (q : Fin N) :
    dense x w b (ix2 p q) = (∑ k : Fin K, x (ix2 p k) * w (ix2 k q)) + b (ix1 q) := rfl

/-- The positive part, entry by entry. -/
def relu {s : Shape} (a : s.Idx → EReal) : s.Idx → EReal := fun i => max (a i) zero

/-- The exponential linear unit: the identity above zero, `eˣ - 1` from zero down. -/
def elu (x : EReal) : EReal := if 0 < x then x else Ideal.exp x - 1

/-- The hidden activations of the mixing step: per sample, `elu (E · W₁ + B₁)`. -/
def hidden {B : ℕ} (e : Arr3 B 32 64) (w₁ : Arr3 B 64 32) (b₁ : Arr3 B 32 32) : Arr3 B 32 32 :=
  fun i => elu ((∑ a : Fin 64, e (ix3 (i 0) (i 1) a) * w₁ (ix3 (i 0) a (i 2))) + b₁ (ix3 (i 0) (i 1) (i 2)))

theorem hidden_ix3 {B : ℕ} (e : Arr3 B 32 64) (w₁ : Arr3 B 64 32) (b₁ : Arr3 B 32 32) (b : Fin B) (v : Fin 32) (h : Fin 32) :
    hidden e w₁ b₁ (ix3 b v h) = elu ((∑ a : Fin 64, e (ix3 b v a) * w₁ (ix3 b a h)) + b₁ (ix3 b v h)) := rfl

/-- The mixed output before normalisation: per sample, `H · W₂ + B₂`. -/
def mixed {B : ℕ} (h : Arr3 B 32 32) (w₂ : Arr3 B 32 64) (b₂ : Arr3 B 32 64) : Arr3 B 32 64 :=
  fun i => (∑ k : Fin 32, h (ix3 (i 0) (i 1) k) * w₂ (ix3 (i 0) k (i 2))) + b₂ (ix3 (i 0) (i 1) (i 2))

theorem mixed_ix3 {B : ℕ} (h : Arr3 B 32 32) (w₂ : Arr3 B 32 64) (b₂ : Arr3 B 32 64) (b : Fin B) (v : Fin 32) (f : Fin 64) :
    mixed h w₂ b₂ (ix3 b v f) = (∑ k : Fin 32, h (ix3 b v k) * w₂ (ix3 b k f)) + b₂ (ix3 b v f) := rfl

/-- The largest magnitude in column `f` of sample `b`, over the 32 rows (a maximum taken from `-∞`). -/
def absMax {B : ℕ} (o : Arr3 B 32 64) (b : Fin B) (f : Fin 64) : EReal :=
  (Finset.univ : Finset (Fin 32)).fold max negInf (fun v => max (o (ix3 b v f)) (-(o (ix3 b v f))))

/-- The factor a column is scaled by: `min (1, 5 / (its largest magnitude + ε))`. -/
def scale (mx : EReal) : EReal := min one (Ideal.div five (mx + eps))

/-- Each column scaled, then the logistic function of every entry. -/
def squash {B : ℕ} (o : Arr3 B 32 64) : Arr3 B 32 64 :=
  fun i => Ideal.logistic (o (ix3 (i 0) (i 1) (i 2)) * scale (absMax o (i 0) (i 2)))

theorem squash_ix3 {B : ℕ} (o : Arr3 B 32 64) (b : Fin B) (v : Fin 32) (f : Fin 64) :
    squash o (ix3 b v f) = Ideal.logistic (o (ix3 b v f) * scale (absMax o b f)) := rfl

/-- The mixing step: the result from the embeddings and the four per-sample matrices. -/
def mix {B : ℕ} (e : Arr3 B 32 64) (w₁ : Arr3 B 64 32) (b₁ : Arr3 B 32 32) (w₂ : Arr3 B 32 64) (b₂ : Arr3 B 32 64) :
    Arr3 B 32 64 :=
  squash (mixed (hidden e w₁ b₁) w₂ b₂)

/-- THE RESULT as a function of the sixteen argument arrays (and of how a flat row is read as a matrix). -/
def full (r₁ : Arr2 16384 2048 → Arr3 16384 64 32) (r₂ : Arr2 16384 1024 → Arr3 16384 32 32)
    (r₃ : Arr2 16384 2048 → Arr3 16384 32 64)
    (e : Arr3 16384 32 64) (s : Arr2 16384 512)
    (w1aW : Arr2 512 2048) (w1ab : Arr1 2048) (w1bW : Arr2 2048 2048) (w1bb : Arr1 2048)
    (b1W : Arr2 512 1024) (b1b : Arr1 1024)
    (w2aW : Arr2 512 4096) (w2ab : Arr1 4096) (w2bW : Arr2 4096 2048) (w2bb : Arr1 2048)
    (b2aW : Arr2 512 1024) (b2ab : Arr1 1024) (b2bW : Arr2 1024 2048) (b2bb : Arr1 2048) : Arr3 16384 32 64 :=
  mix e
    (r₁ (dense (relu (dense s w1aW w1ab)) w1bW w1bb))
    (r₂ (dense s b1W b1b))
    (r₃ (dense (relu (dense s w2aW w2ab)) w2bW w2bb))
    (r₃ (dense (relu (dense s b2aW b2ab)) b2bW b2bb))

/-- A flat array read in another shape of the same size, in row-major order. -/
def relay {s t : Shape} (h : s.ShapeCasts t) (x : s.Idx → EReal) : t.Idx → EReal := fun i => shapeCast t x h i

/-- The word `0x3F800000` is the number one. -/
theorem one_eq : one = 1 := by
  simp [one, Ideal.ofBits, Ideal.ieee, -EReal.coe_mul]; norm_num

/-- The word `0x00000000` is the number zero. -/
theorem zero_eq : zero = 0 := Ideal.ofBits_zero_f32

end HyperMix

end
-- ==== Proof.LibLayout.lean ====
/-
  A flat array of `N` numbers read as one row `[1, N]`: the row's entry `q` is the array's entry `q`.
-/
import Idealize.ShloMosaic.Lib.ValueIdx
import Idealize.ShloMosaic.Lib.Pipeline.Value

noncomputable section

open Idealize.ShloMosaic Idealize.ShloMosaic.ValueIdx

namespace RowOfFlat

variable {N : ℕ} {α : Type}

theorem apply (x : (⟨1, ![N]⟩ : Shape).Idx → α) (h : (⟨1, ![N]⟩ : Shape).ShapeCasts (⟨2, ![1, N]⟩ : Shape)) (q : Fin N) :
    shapeCast (⟨2, ![1, N]⟩ : Shape) x h (ix2 (0 : Fin 1) q) = x (ix1 q) :=
  (shapeCast_addUnit_apply ![N] x h (ix2 (0 : Fin 1) q)).trans
    (congrArg x (funext fun a => by match a with | ⟨0, _⟩ => rfl))

/-- As a whole array: reading the row's entries back gives the flat array. -/
theorem eq (x : (⟨1, ![N]⟩ : Shape).Idx → α) (h : (⟨1, ![N]⟩ : Shape).ShapeCasts (⟨2, ![1, N]⟩ : Shape)) :
    (fun j : (⟨1, ![N]⟩ : Shape).Idx => shapeCast (⟨2, ![1, N]⟩ : Shape) x h (ix2 (0 : Fin 1) (j 0))) = x := by
  funext j
  exact (apply x h (j 0)).trans (congrArg x (eq_ix1 j).symm)

end RowOfFlat

end
-- ==== Proof.Walk.lean ====
/-
  Buffer contents through @main's fold: a buffer that a stretch of host operations does not write, and that a kernel
  region either does not touch or only reads through an input window, holds after it what it held before. Each lemma
  walks one buffer back from the boundary where a later region reads it to the boundary where it was last written
  (for an argument array: to the launch).
-/
import proofs.«166068_j82617990906012_2_alg».proof.Proof.Gen.KernelIdeal.Frame

set_option maxRecDepth 16384

noncomputable section

namespace Cert.KernelIdeal.Walk

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

theorem arg1_1_0 (c : Dev nD) : W1 m ρ c (Proc.devRef .tc main_arg1) = W0 m ρ c (Proc.devRef .tc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem arg4_2_0 (c : Dev nD) : W2 m ρ c (Proc.devRef .tc main_arg4) = W0 m ρ c (Proc.devRef .tc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem arg5_2_0 (c : Dev nD) : W2 m ρ c (Proc.devRef .tc main_arg5) = W0 m ρ c (Proc.devRef .tc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem v2_3_2 (c : Dev nD) : W3 m ρ c (Proc.devRef .tc main_v2) = W2 m ρ c (Proc.devRef .tc main_v2) :=
  calc W3 m ρ c (Proc.devRef .tc main_v2)
    _ = W2 m ρ c (Proc.devRef .tc main_v2) := StableHlo.after_of_forall_not_mem (b := Proc.devRef .tc main_v2) _ _ (List.forall_iff_forall_mem.mp (by
          simp only [hostOps1, List.Forall, StableHlo.unary_writes, StableHlo.reshape_writes, Finset.mem_singleton]
          repeat' apply And.intro
          all_goals exact StableHlo.devRef_ne_of_ne (by decide)))

theorem arg1_5_0 (c : Dev nD) : W5 m ρ c (Proc.devRef .tc main_arg1) = W0 m ρ c (Proc.devRef .tc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem arg6_4_0 (c : Dev nD) : W4 m ρ c (Proc.devRef .tc main_arg6) = W0 m ρ c (Proc.devRef .tc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem arg7_4_0 (c : Dev nD) : W4 m ρ c (Proc.devRef .tc main_arg7) = W0 m ρ c (Proc.devRef .tc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem arg1_7_0 (c : Dev nD) : W7 m ρ c (Proc.devRef .tc main_arg1) = W0 m ρ c (Proc.devRef .tc main_arg1) :=
  calc W7 m ρ c (Proc.devRef .tc main_arg1)
    _ = W6 m ρ c (Proc.devRef .tc main_arg1) := StableHlo.after_of_forall_not_mem (b := Proc.devRef .tc main_arg1) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_arg1) := (W6_arr m ρ c 0).trans (((dat2 (V5 m ρ) c).arrAt_in 0 rfl _).trans (A_eq2 (V5 m ρ) c 0))
    _ = W4 m ρ c (Proc.devRef .tc main_arg1) := StableHlo.after_of_forall_not_mem (b := Proc.devRef .tc main_arg1) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem arg8_6_0 (c : Dev nD) : W6 m ρ c (Proc.devRef .tc main_arg8) = W0 m ρ c (Proc.devRef .tc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem arg9_6_0 (c : Dev nD) : W6 m ρ c (Proc.devRef .tc main_arg9) = W0 m ρ c (Proc.devRef .tc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem v13_9_8 (c : Dev nD) : W9 m ρ c (Proc.devRef .tc main_v13) = W8 m ρ c (Proc.devRef .tc main_v13) :=
  calc W9 m ρ c (Proc.devRef .tc main_v13)
    _ = W8 m ρ c (Proc.devRef .tc main_v13) := StableHlo.after_of_forall_not_mem (b := Proc.devRef .tc main_v13) _ _ (List.forall_iff_forall_mem.mp (by
          simp only [hostOps4, List.Forall, StableHlo.unary_writes, StableHlo.reshape_writes, Finset.mem_singleton]
          repeat' apply And.intro
          all_goals exact StableHlo.devRef_ne_of_ne (by decide)))

theorem arg10_8_0 (c : Dev nD) : W8 m ρ c (Proc.devRef .tc main_arg10) = W0 m ρ c (Proc.devRef .tc main_arg10) :=
  calc W8 m ρ c (Proc.devRef .tc main_arg10)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem arg11_8_0 (c : Dev nD) : W8 m ρ c (Proc.devRef .tc main_arg11) = W0 m ρ c (Proc.devRef .tc main_arg11) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem arg1_11_0 (c : Dev nD) : W11 m ρ c (Proc.devRef .tc main_arg1) = W0 m ρ c (Proc.devRef .tc main_arg1) :=
  calc W11 m ρ c (Proc.devRef .tc main_arg1)
    _ = W10 m ρ c (Proc.devRef .tc main_arg1) := StableHlo.after_of_forall_not_mem (b := Proc.devRef .tc main_arg1) _ _ (List.forall_iff_forall_mem.mp (by
          simp only [hostOps5, List.Forall, StableHlo.unary_writes, StableHlo.reshape_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps4, List.Forall, StableHlo.unary_writes, StableHlo.reshape_writes, Finset.mem_singleton]
          repeat' apply And.intro
          all_goals exact StableHlo.devRef_ne_of_ne (by decide)))
    _ = W7 m ρ c (Proc.devRef .tc main_arg1) := (W8_arr m ρ c 0).trans (((dat3 (V7 m ρ) c).arrAt_in 0 rfl _).trans (A_eq3 (V7 m ρ) c 0))
    _ = W6 m ρ c (Proc.devRef .tc main_arg1) := StableHlo.after_of_forall_not_mem (b := Proc.devRef .tc main_arg1) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_arg1) := (W6_arr m ρ c 0).trans (((dat2 (V5 m ρ) c).arrAt_in 0 rfl _).trans (A_eq2 (V5 m ρ) c 0))
    _ = W4 m ρ c (Proc.devRef .tc main_arg1) := StableHlo.after_of_forall_not_mem (b := Proc.devRef .tc main_arg1) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem arg12_10_0 (c : Dev nD) : W10 m ρ c (Proc.devRef .tc main_arg12) = W0 m ρ c (Proc.devRef .tc main_arg12) :=
  calc W10 m ρ c (Proc.devRef .tc main_arg12)
    _ = W9 m ρ c (Proc.devRef .tc main_arg12) := W10_of_ne m ρ c main_arg12 (by decide)
    _ = W8 m ρ c (Proc.devRef .tc main_arg12) := StableHlo.after_of_forall_not_mem (b := Proc.devRef .tc main_arg12) _ _ (List.forall_iff_forall_mem.mp (by
          simp only [hostOps4, List.Forall, StableHlo.unary_writes, StableHlo.reshape_writes, Finset.mem_singleton]
          repeat' apply And.intro
          all_goals exact StableHlo.devRef_ne_of_ne (by decide)))
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem arg13_10_0 (c : Dev nD) : W10 m ρ c (Proc.devRef .tc main_arg13) = W0 m ρ c (Proc.devRef .tc main_arg13) :=
  calc W10 m ρ c (Proc.devRef .tc main_arg13)
    _ = W9 m ρ c (Proc.devRef .tc main_arg13) := W10_of_ne m ρ c main_arg13 (by decide)
    _ = W8 m ρ c (Proc.devRef .tc main_arg13) := StableHlo.after_of_forall_not_mem (b := Proc.devRef .tc main_arg13) _ _ (List.forall_iff_forall_mem.mp (by
          simp only [hostOps4, List.Forall, StableHlo.unary_writes, StableHlo.reshape_writes, Finset.mem_singleton]
          repeat' apply And.intro
          all_goals exact StableHlo.devRef_ne_of_ne (by decide)))
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem v20_13_12 (c : Dev nD) : W13 m ρ c (Proc.devRef .tc main_v20) = W12 m ρ c (Proc.devRef .tc main_v20) :=
  calc W13 m ρ c (Proc.devRef .tc main_v20)
    _ = W12 m ρ c (Proc.devRef .tc main_v20) := StableHlo.after_of_forall_not_mem (b := Proc.devRef .tc main_v20) _ _ (List.forall_iff_forall_mem.mp (by
          simp only [hostOps6, List.Forall, StableHlo.unary_writes, StableHlo.reshape_writes, Finset.mem_singleton]
          repeat' apply And.intro
          all_goals exact StableHlo.devRef_ne_of_ne (by decide)))

theorem arg14_12_0 (c : Dev nD) : W12 m ρ c (Proc.devRef .tc main_arg14) = W0 m ρ c (Proc.devRef .tc main_arg14) :=
  calc W12 m ρ c (Proc.devRef .tc main_arg14)
    _ = W11 m ρ c (Proc.devRef .tc main_arg14) := W12_of_ne m ρ c main_arg14 (by decide)
    _ = W10 m ρ c (Proc.devRef .tc main_arg14) := StableHlo.after_of_forall_not_mem (b := Proc.devRef .tc main_arg14) _ _ (List.forall_iff_forall_mem.mp (by
          simp only [hostOps5, List.Forall, StableHlo.unary_writes, StableHlo.reshape_writes, Finset.mem_singleton]
          repeat' apply And.intro
          all_goals exact StableHlo.devRef_ne_of_ne (by decide)))
    _ = W9 m ρ c (Proc.devRef .tc main_arg14) := W10_of_ne m ρ c main_arg14 (by decide)
    _ = W8 m ρ c (Proc.devRef .tc main_arg14) := StableHlo.after_of_forall_not_mem (b := Proc.devRef .tc main_arg14) _ _ (List.forall_iff_forall_mem.mp (by
          simp only [hostOps4, List.Forall, StableHlo.unary_writes, StableHlo.reshape_writes, Finset.mem_singleton]
          repeat' apply And.intro
          all_goals exact StableHlo.devRef_ne_of_ne (by decide)))
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem arg15_12_0 (c : Dev nD) : W12 m ρ c (Proc.devRef .tc main_arg15) = W0 m ρ c (Proc.devRef .tc main_arg15) :=
  calc W12 m ρ c (Proc.devRef .tc main_arg15)
    _ = W11 m ρ c (Proc.devRef .tc main_arg15) := W12_of_ne m ρ c main_arg15 (by decide)
    _ = W10 m ρ c (Proc.devRef .tc main_arg15) := StableHlo.after_of_forall_not_mem (b := Proc.devRef .tc main_arg15) _ _ (List.forall_iff_forall_mem.mp (by
          simp only [hostOps5, List.Forall, StableHlo.unary_writes, StableHlo.reshape_writes, Finset.mem_singleton]
          repeat' apply And.intro
          all_goals exact StableHlo.devRef_ne_of_ne (by decide)))
    _ = W9 m ρ c (Proc.devRef .tc main_arg15) := W10_of_ne m ρ c main_arg15 (by decide)
    _ = W8 m ρ c (Proc.devRef .tc main_arg15) := StableHlo.after_of_forall_not_mem (b := Proc.devRef .tc main_arg15) _ _ (List.forall_iff_forall_mem.mp (by
          simp only [hostOps4, List.Forall, StableHlo.unary_writes, StableHlo.reshape_writes, Finset.mem_singleton]
          repeat' apply And.intro
          all_goals exact StableHlo.devRef_ne_of_ne (by decide)))
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem arg0_15_0 (c : Dev nD) : W15 m ρ c (Proc.devRef .tc main_arg0) = W0 m ρ c (Proc.devRef .tc main_arg0) :=
  calc W15 m ρ c (Proc.devRef .tc main_arg0)
    _ = W14 m ρ c (Proc.devRef .tc main_arg0) := StableHlo.after_of_forall_not_mem (b := Proc.devRef .tc main_arg0) _ _ (List.forall_iff_forall_mem.mp (by
          simp only [hostOps7, List.Forall, StableHlo.unary_writes, StableHlo.reshape_writes, Finset.mem_singleton]
          repeat' apply And.intro
          all_goals exact StableHlo.devRef_ne_of_ne (by decide)))
    _ = W13 m ρ c (Proc.devRef .tc main_arg0) := W14_of_ne m ρ c main_arg0 (by decide)
    _ = W12 m ρ c (Proc.devRef .tc main_arg0) := StableHlo.after_of_forall_not_mem (b := Proc.devRef .tc main_arg0) _ _ (List.forall_iff_forall_mem.mp (by
          simp only [hostOps6, List.Forall, StableHlo.unary_writes, StableHlo.reshape_writes, Finset.mem_singleton]
          repeat' apply And.intro
          all_goals exact StableHlo.devRef_ne_of_ne (by decide)))
    _ = W11 m ρ c (Proc.devRef .tc main_arg0) := W12_of_ne m ρ c main_arg0 (by decide)
    _ = W10 m ρ c (Proc.devRef .tc main_arg0) := StableHlo.after_of_forall_not_mem (b := Proc.devRef .tc main_arg0) _ _ (List.forall_iff_forall_mem.mp (by
          simp only [hostOps5, List.Forall, StableHlo.unary_writes, StableHlo.reshape_writes, Finset.mem_singleton]
          repeat' apply And.intro
          all_goals exact StableHlo.devRef_ne_of_ne (by decide)))
    _ = W9 m ρ c (Proc.devRef .tc main_arg0) := W10_of_ne m ρ c main_arg0 (by decide)
    _ = W8 m ρ c (Proc.devRef .tc main_arg0) := StableHlo.after_of_forall_not_mem (b := Proc.devRef .tc main_arg0) _ _ (List.forall_iff_forall_mem.mp (by
          simp only [hostOps4, List.Forall, StableHlo.unary_writes, StableHlo.reshape_writes, Finset.mem_singleton]
          repeat' apply And.intro
          all_goals exact StableHlo.devRef_ne_of_ne (by decide)))
    _ = W7 m ρ c (Proc.devRef .tc main_arg0) := W8_of_ne m ρ c main_arg0 (by decide)
    _ = W6 m ρ c (Proc.devRef .tc main_arg0) := StableHlo.after_of_forall_not_mem (b := Proc.devRef .tc main_arg0) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.Forall, StableHlo.unary_writes, StableHlo.reshape_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))

theorem v6_15_5 (c : Dev nD) : W15 m ρ c (Proc.devRef .tc main_v6) = W5 m ρ c (Proc.devRef .tc main_v6) :=
  calc W15 m ρ c (Proc.devRef .tc main_v6)
    _ = W14 m ρ c (Proc.devRef .tc main_v6) := StableHlo.after_of_forall_not_mem (b := Proc.devRef .tc main_v6) _ _ (List.forall_iff_forall_mem.mp (by
          simp only [hostOps7, List.Forall, StableHlo.unary_writes, StableHlo.reshape_writes, Finset.mem_singleton]
          repeat' apply And.intro
          all_goals exact StableHlo.devRef_ne_of_ne (by decide)))
    _ = W13 m ρ c (Proc.devRef .tc main_v6) := W14_of_ne m ρ c main_v6 (by decide)
    _ = W12 m ρ c (Proc.devRef .tc main_v6) := StableHlo.after_of_forall_not_mem (b := Proc.devRef .tc main_v6) _ _ (List.forall_iff_forall_mem.mp (by
          simp only [hostOps6, List.Forall, StableHlo.unary_writes, StableHlo.reshape_writes, Finset.mem_singleton]
          repeat' apply And.intro
          all_goals exact StableHlo.devRef_ne_of_ne (by decide)))
    _ = W11 m ρ c (Proc.devRef .tc main_v6) := W12_of_ne m ρ c main_v6 (by decide)
    _ = W10 m ρ c (Proc.devRef .tc main_v6) := StableHlo.after_of_forall_not_mem (b := Proc.devRef .tc main_v6) _ _ (List.forall_iff_forall_mem.mp (by
          simp only [hostOps5, List.Forall, StableHlo.unary_writes, StableHlo.reshape_writes, Finset.mem_singleton]
          repeat' apply And.intro
          all_goals exact StableHlo.devRef_ne_of_ne (by decide)))
    _ = W9 m ρ c (Proc.devRef .tc main_v6) := W10_of_ne m ρ c main_v6 (by decide)
    _ = W8 m ρ c (Proc.devRef .tc main_v6) := StableHlo.after_of_forall_not_mem (b := Proc.devRef .tc main_v6) _ _ (List.forall_iff_forall_mem.mp (by
          simp only [hostOps4, List.Forall, StableHlo.unary_writes, StableHlo.reshape_writes, Finset.mem_singleton]
          repeat' apply And.intro
          all_goals exact StableHlo.devRef_ne_of_ne (by decide)))
    _ = W7 m ρ c (Proc.devRef .tc main_v6) := W8_of_ne m ρ c main_v6 (by decide)
    _ = W6 m ρ c (Proc.devRef .tc main_v6) := StableHlo.after_of_forall_not_mem (b := Proc.devRef .tc main_v6) _ _ (List.forall_iff_forall_mem.mp (by
          simp only [hostOps3, List.Forall, StableHlo.unary_writes, StableHlo.reshape_writes, Finset.mem_singleton]
          repeat' apply And.intro
          all_goals exact StableHlo.devRef_ne_of_ne (by decide)))
    _ = W5 m ρ c (Proc.devRef .tc main_v6) := W6_of_ne m ρ c main_v6 (by decide)

theorem v10_15_7 (c : Dev nD) : W15 m ρ c (Proc.devRef .tc main_v10) = W7 m ρ c (Proc.devRef .tc main_v10) :=
  calc W15 m ρ c (Proc.devRef .tc main_v10)
    _ = W14 m ρ c (Proc.devRef .tc main_v10) := StableHlo.after_of_forall_not_mem (b := Proc.devRef .tc main_v10) _ _ (List.forall_iff_forall_mem.mp (by
          simp only [hostOps7, List.Forall, StableHlo.unary_writes, StableHlo.reshape_writes, Finset.mem_singleton]
          repeat' apply And.intro
          all_goals exact StableHlo.devRef_ne_of_ne (by decide)))
    _ = W13 m ρ c (Proc.devRef .tc main_v10) := W14_of_ne m ρ c main_v10 (by decide)
    _ = W12 m ρ c (Proc.devRef .tc main_v10) := StableHlo.after_of_forall_not_mem (b := Proc.devRef .tc main_v10) _ _ (List.forall_iff_forall_mem.mp (by
          simp only [hostOps6, List.Forall, StableHlo.unary_writes, StableHlo.reshape_writes, Finset.mem_singleton]
          repeat' apply And.intro
          all_goals exact StableHlo.devRef_ne_of_ne (by decide)))
    _ = W11 m ρ c (Proc.devRef .tc main_v10) := W12_of_ne m ρ c main_v10 (by decide)
    _ = W10 m ρ c (Proc.devRef .tc main_v10) := StableHlo.after_of_forall_not_mem (b := Proc.devRef .tc main_v10) _ _ (List.forall_iff_forall_mem.mp (by
          simp only [hostOps5, List.Forall, StableHlo.unary_writes, StableHlo.reshape_writes, Finset.mem_singleton]
          repeat' apply And.intro
          all_goals exact StableHlo.devRef_ne_of_ne (by decide)))
    _ = W9 m ρ c (Proc.devRef .tc main_v10) := W10_of_ne m ρ c main_v10 (by decide)
    _ = W8 m ρ c (Proc.devRef .tc main_v10) := StableHlo.after_of_forall_not_mem (b := Proc.devRef .tc main_v10) _ _ (List.forall_iff_forall_mem.mp (by
          simp only [hostOps4, List.Forall, StableHlo.unary_writes, StableHlo.reshape_writes, Finset.mem_singleton]
          repeat' apply And.intro
          all_goals exact StableHlo.devRef_ne_of_ne (by decide)))
    _ = W7 m ρ c (Proc.devRef .tc main_v10) := W8_of_ne m ρ c main_v10 (by decide)

theorem v17_15_11 (c : Dev nD) : W15 m ρ c (Proc.devRef .tc main_v17) = W11 m ρ c (Proc.devRef .tc main_v17) :=
  calc W15 m ρ c (Proc.devRef .tc main_v17)
    _ = W14 m ρ c (Proc.devRef .tc main_v17) := StableHlo.after_of_forall_not_mem (b := Proc.devRef .tc main_v17) _ _ (List.forall_iff_forall_mem.mp (by
          simp only [hostOps7, List.Forall, StableHlo.unary_writes, StableHlo.reshape_writes, Finset.mem_singleton]
          repeat' apply And.intro
          all_goals exact StableHlo.devRef_ne_of_ne (by decide)))
    _ = W13 m ρ c (Proc.devRef .tc main_v17) := W14_of_ne m ρ c main_v17 (by decide)
    _ = W12 m ρ c (Proc.devRef .tc main_v17) := StableHlo.after_of_forall_not_mem (b := Proc.devRef .tc main_v17) _ _ (List.forall_iff_forall_mem.mp (by
          simp only [hostOps6, List.Forall, StableHlo.unary_writes, StableHlo.reshape_writes, Finset.mem_singleton]
          repeat' apply And.intro
          all_goals exact StableHlo.devRef_ne_of_ne (by decide)))
    _ = W11 m ρ c (Proc.devRef .tc main_v17) := W12_of_ne m ρ c main_v17 (by decide)

end Cert.KernelIdeal.Walk

end
-- ==== Proof.LibMatmul.lean ====
/-
  A plain matrix product read at an entry, over the extended reals.

  A two-dimensional contraction `[M, K] × [K, N] → [M, N]` whose dimension numbers contract the left operand's
  second axis with the right operand's first, with no batch axis, accumulated into the zero matrix, has at the
  entry `(p, q)` the value `∑ k, lhs (p, k) * rhs (k, q)`: the textbook sum over the `K` positions of the
  contracted axis, with no order or grouping left in it.
-/
import Idealize.ShloMosaic.PureOps.Ideal.Laws
import Idealize.ShloMosaic.Lib.ValueIdx

noncomputable section

open scoped BigOperators
open Idealize.ShloMosaic Idealize.ShloMosaic.ValueIdx

namespace PlainMatmul

variable {M K N : ℕ}

/-- The dimension numbers of a plain product: rows times columns, one contracted axis, no batch axis. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank (h : IsPlain d) : d.contr.rank = 1 := by rw [d.rank_contr, h.lc]; rfl

theorem IsPlain.size (h : IsPlain d) : d.contr.size ⟨0, by rw [h.rank]; exact Nat.one_pos⟩ = K := by
  rw [d.size_contr 0 (by rw [h.lc]; exact Nat.one_pos)]
  simp only [h.lc]
  rfl

/-- The left operand is read at row `p` of the output entry … -/
theorem IsPlain.lhs_row (h : IsPlain d) (j : (⟨2, ![M, N]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- … and the right operand at column `q`. -/
theorem IsPlain.rhs_col (h : IsPlain d) (j : (⟨2, ![M, N]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- A plain product into the zero matrix, at the entry `(p, q)`, is the sum over the contracted axis of the
    products of the left operand's row `p` with the right operand's column `q`. -/
theorem apply {φ₁ φ₂ : FTy} (h : IsPlain d) (prec : Option ContractPrecision)
    (lhs : FVec Ideal (⟨2, ![M, K]⟩ : Shape) φ₁) (rhs : FVec Ideal (⟨2, ![K, N]⟩ : Shape) φ₂) (p : Fin M) (q : Fin N) :
    FloatOps.matmul d prec lhs rhs (constant (⟨2, ![M, N]⟩ : Shape) .f32 0x00000000#32) (ix2 p q)
      = ∑ k : Fin K, (lhs (ix2 p k) : EReal) * (rhs (ix2 k q) : EReal) := by
  rw [Ideal.matmul_constant_zero_apply]
  rw [← Equiv.sum_comp (contrEquiv1 d K h.rank h.size).symm]
  refine Finset.sum_congr rfl fun k _ => ?_
  have hl : d.lhsIdx (ix2 p q) ((contrEquiv1 d K h.rank h.size).symm k) = ix2 p k := by
    funext a
    apply Fin.ext
    match a with
    | ⟨0, _⟩ => exact h.lhs_row _ _
    | ⟨1, _⟩ => exact (d.lhsIdx_val_of_single h.lc _ _).trans (contrEquiv1_symm_val d K h.rank h.size k)
  have hr : d.rhsIdx (ix2 p q) ((contrEquiv1 d K h.rank h.size).symm k) = ix2 k q := by
    funext a
    apply Fin.ext
    match a with
    | ⟨0, _⟩ => exact (d.rhsIdx_val_of_single h.rc _ _).trans (contrEquiv1_symm_val d K h.rank h.size k)
    | ⟨1, _⟩ => exact h.rhs_col _ _
  rw [hl, hr]

end PlainMatmul

end
-- ==== Proof.LibDense.lean ====
/-
  The body of a dense layer read at an entry, over the extended reals: a plain product into the zero matrix plus a bias
  row `[1, N]` repeated down the rows is, at the entry `(p, q)`, `∑ k, x (p, k) * w (k, q) + b (0, q)`.
-/
import Idealize.ShloMosaic.PureOps.Ideal.Laws
import Idealize.ShloMosaic.Lib.ValueIdx
import Idealize.ShloMosaic.Lib.Pipeline.Value
import proofs.«166068_j82617990906012_2_alg».proof.Proof.LibMatmul

noncomputable section

open scoped BigOperators
open Idealize.ShloMosaic Idealize.ShloMosaic.ValueIdx

namespace DenseBody

variable {M K N : ℕ}

/-- A row `[1, N]` repeated down `M` rows has, at `(p, q)`, the row's entry `q`. -/
theorem row_apply {α : Type} (b : (⟨2, ![1, N]⟩ : Shape).Idx → α)
    (h : (⟨2, ![1, N]⟩ : Shape).Broadcasts (⟨2, ![M, N]⟩ : Shape)) (p : Fin M) (q : Fin N) :
    broadcastTo (⟨2, ![M, N]⟩ : Shape) b h (ix2 p q) = b (ix2 0 q) := by
  refine broadcastTo_apply b h (ix2 p q) (ix2 0 q) fun a => ?_
  match a with
  | ⟨0, _⟩ => exact (if_pos rfl).symm
  | ⟨1, _⟩ =>
    show q.val = if N = 1 then 0 else q.val
    split
    · have := q.isLt; omega
    · rfl

/-- The product into the zero matrix plus the repeated bias row, at the entry `(p, q)`. -/
theorem apply {φ₁ φ₂ : FTy} {d : DotDims (⟨2, ![M, K]⟩ : Shape) (⟨2, ![K, N]⟩ : Shape) (⟨2, ![M, N]⟩ : Shape)}
    (hd : PlainMatmul.IsPlain d) (prec : Option ContractPrecision)
    (x : FVec Ideal (⟨2, ![M, K]⟩ : Shape) φ₁) (w : FVec Ideal (⟨2, ![K, N]⟩ : Shape) φ₂)
    (b : FVec Ideal (⟨2, ![1, N]⟩ : Shape) .f32) (hb : (⟨2, ![1, N]⟩ : Shape).Broadcasts (⟨2, ![M, N]⟩ : Shape))
    (p : Fin M) (q : Fin N) :
    addf (matmul d prec x w (constant (⟨2, ![M, N]⟩ : Shape) .f32 0x00000000#32)) (broadcastTo (⟨2, ![M, N]⟩ : Shape) b hb) (ix2 p q)
      = (∑ k : Fin K, (x (ix2 p k) : EReal) * (w (ix2 k q) : EReal)) + (b (ix2 0 q) : EReal) := by
  show FloatOps.matmul d prec x w (constant (⟨2, ![M, N]⟩ : Shape) .f32 0x00000000#32) (ix2 p q)
      + broadcastTo (⟨2, ![M, N]⟩ : Shape) b hb (ix2 p q) = _
  rw [PlainMatmul.apply hd, row_apply]

end DenseBody

end
-- ==== Proof.Dense0.lean ====
/-
  Kernel region 0: a dense layer tiled over 32 blocks of 512 rows.

  Point `t` of the grid reads rows `512 t … 512 t + 511` of `x`, all of `w` and the bias row, and writes the same rows of
  the result: the positive part of `x · w + b` restricted to those rows. A row of the result depends on the same row of `x` only, so the 32
  blocks are the restrictions of ONE function of the whole arrays, and they tile the result.
-/
import proofs.«166068_j82617990906012_2_alg».proof.Proof.Gen.KernelIdeal.Frame
import proofs.«166068_j82617990906012_2_alg».proof.Proof.Spec
import proofs.«166068_j82617990906012_2_alg».proof.Proof.LibDense
import Idealize.ShloMosaic.Lib.Pipeline.Value

set_option maxRecDepth 16384

noncomputable section

namespace Cert.KernelIdeal.Dense0

open scoped BigOperators
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the region leaves in its result array: the positive part of `x · w + b`, of the arrays as the region finds them. -/
def G (c : Dev nD) : S16384x2048.Idx → EReal :=
  HyperMix.relu (HyperMix.dense (V c main_arg1) (V c main_v0) (fun j => V c main_v1 (ix2 0 (j 0))))

/-- The body's value at an entry of the block, from the loaded blocks. -/
theorem pay_apply (x0 : Vec Ideal S512x512 .f32) (x1 : Vec Ideal S512x2048 .bf16) (x2 : Vec Ideal S1x2048 .f32) (p : Fin 512) (q : Fin 2048) :
    k0_pay1 x0 x1 x2 (ix2 p q) = max ((∑ k : Fin 512, (x0 (ix2 p k) : EReal) * (x1 (ix2 k q) : EReal)) + (x2 (ix2 0 q) : EReal)) HyperMix.zero := by
  simp only [k0_pay1, shapeCast_self]
  exact congrArg (fun z : EReal => max z HyperMix.zero) (DenseBody.apply (d := dot_S512x512_S512x2048_S512x2048_1_0_0_1_n_n) ⟨rfl, rfl, rfl, rfl, rfl, rfl⟩ none _ x1 x2 _ p q)

/-- The index maps over the grid: the row block moves with the point, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `G`. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S512x512) hz, View.ld_unit_zero (S := S512x2048) hz, View.ld_unit_zero (S := S1x2048) hz]
  obtain ⟨e00, e01, e10, e11, e20, e21, e30, e31⟩ := idx_facts t
  funext j
  have hj0 : (j 0).val < 512 := (j 0).isLt
  have hj1 : (j 1).val < 2048 := (j 1).isLt
  have hjj : j = ix2 (⟨(j 0).val, hj0⟩ : Fin 512) (⟨(j 1).val, hj1⟩ : Fin 2048) := by
    funext a; match a with | ⟨0, _⟩ => rfl | ⟨1, _⟩ => rfl
  show k0_pay1 (iblk0 V c 0 t) (iblk0 V c 1 t) (iblk0 V c 2 t) j = G V c (((cfg0.win 3).blk t).view.emb j)
  refine (congrArg (k0_pay1 (iblk0 V c 0 t) (iblk0 V c 1 t) (iblk0 V c 2 t)) hjj).trans
    ((pay_apply (iblk0 V c 0 t) (iblk0 V c 1 t) (iblk0 V c 2 t) ⟨(j 0).val, hj0⟩ ⟨(j 1).val, hj1⟩).trans ?_)
  have hx : ∀ k : Fin 512, iblk0 V c 0 t (ix2 (⟨(j 0).val, hj0⟩ : Fin 512) k)
      = V c main_arg1 (ix2 ((((cfg0.win 3).blk t).view.emb j) 0) k) := fun k => by
    show V c main_arg1 (((cfg0.win 0).blk t).view.emb (ix2 (⟨(j 0).val, hj0⟩ : Fin 512) k)) = _
    refine congrArg (V c main_arg1) (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 512 + 1 * k.val = k.val; omega
  have hw : ∀ k : Fin 512, iblk0 V c 1 t (ix2 k (⟨(j 1).val, hj1⟩ : Fin 2048))
      = V c main_v0 (ix2 k ((((cfg0.win 3).blk t).view.emb j) 1)) := fun k => by
    show V c main_v0 (((cfg0.win 1).blk t).view.emb (ix2 k (⟨(j 1).val, hj1⟩ : Fin 2048))) = _
    refine congrArg (V c main_v0) (funext fun a => Fin.ext ?_)
    match a with
    | ⟨0, _⟩ => show win0_1.index t (0 : Fin 2) * 512 + 1 * k.val = k.val; omega
    | ⟨1, _⟩ => show win0_1.index t (1 : Fin 2) * 2048 + 1 * (j 1).val = win0_3.index t (1 : Fin 2) * 2048 + 1 * (j 1).val; omega
  have hb : iblk0 V c 2 t (ix2 (0 : Fin 1) (⟨(j 1).val, hj1⟩ : Fin 2048))
      = V c main_v1 (ix2 (0 : Fin 1) ((((cfg0.win 3).blk t).view.emb j) 1)) := by
    show V c main_v1 (((cfg0.win 2).blk t).view.emb (ix2 (0 : Fin 1) (⟨(j 1).val, hj1⟩ : Fin 2048))) = _
    refine congrArg (V c main_v1) (funext fun a => Fin.ext ?_)
    match a with
    | ⟨0, _⟩ => show win0_2.index t (0 : Fin 2) * 1 + 1 * 0 = 0; omega
    | ⟨1, _⟩ => show win0_2.index t (1 : Fin 2) * 2048 + 1 * (j 1).val = win0_3.index t (1 : Fin 2) * 2048 + 1 * (j 1).val; omega
  simp only [hx, hw, hb]
  rfl

/-- An index of the result array is in point `t`'s block iff each coordinate is in the block's range on its axis. -/
theorem mem_blk (t : Fin cfg0.N) (i : S16384x2048.Idx) :
    i ∈ ((cfg0.win 3).blk t).view.set ↔ ∀ a : Fin 2, win0_3.index t a * S512x2048.size a ≤ (i a).val ∧ (i a).val < win0_3.index t a * S512x2048.size a + S512x2048.size a := by
  show i ∈ ((View.whole main_v2).slice (win0_3.rect t)).set ↔ _
  rw [View.set_slice_whole, Rect.mem_set_unit]
  exact Iff.rfl

/-- The blocks tile the result array: row `r` is in the block of point `r / 512`. -/
theorem cover (i : S16384x2048.Idx) : ∃ t : Fin cfg0.N, (cfg0.win 3).flush t = true ∧ i ∈ ((cfg0.win 3).blk t).view.set := by
  have hi0 : (i 0).val < 16384 := (i 0).isLt
  have hi1 : (i 1).val < 2048 := (i 1).isLt
  have ht : (i 0).val / 512 < 32 := by omega
  refine ⟨⟨(i 0).val / 512, ht⟩, flush0_3 _, ?_⟩
  obtain ⟨-, -, -, -, -, -, e30, e31⟩ := idx_facts ⟨(i 0).val / 512, ht⟩
  rw [mem_blk]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win0_3.index ⟨(i 0).val / 512, ht⟩ (1 : Fin 2) * 2048 ≤ (i 1).val ∧ (i 1).val < win0_3.index ⟨(i 0).val / 512, ht⟩ (1 : Fin 2) * 2048 + 2048
    rw [e31]; omega

/-- THE RESULT ARRAY after the region: `G` of the arrays as the region finds them. -/
theorem final (c : Dev nD) : (dat0 V c).arrAt 3 cfg0.N = G V c :=
  (dat0 V c).arrAt_eq_of_cover 3 (G V c) (fun t _ => flushed_eq V c t) (cover)

end Cert.KernelIdeal.Dense0

end
-- ==== Proof.Dense1.lean ====
/-
  Kernel region 1: a dense layer tiled over 32 blocks of 512 rows.

  Point `t` of the grid reads rows `512 t … 512 t + 511` of `x`, all of `w` and the bias row, and writes the same rows of
  the result: `x · w + b` restricted to those rows. A row of the result depends on the same row of `x` only, so the 32
  blocks are the restrictions of ONE function of the whole arrays, and they tile the result.
-/
import proofs.«166068_j82617990906012_2_alg».proof.Proof.Gen.KernelIdeal.Frame
import proofs.«166068_j82617990906012_2_alg».proof.Proof.Spec
import proofs.«166068_j82617990906012_2_alg».proof.Proof.LibDense
import Idealize.ShloMosaic.Lib.Pipeline.Value

set_option maxRecDepth 16384

noncomputable section

namespace Cert.KernelIdeal.Dense1

open scoped BigOperators
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the region leaves in its result array: `x · w + b`, of the arrays as the region finds them. -/
def G (c : Dev nD) : S16384x2048.Idx → EReal :=
  HyperMix.dense (V c main_v2) (V c main_v3) (fun j => V c main_v4 (ix2 0 (j 0)))

/-- The body's value at an entry of the block, from the loaded blocks. -/
theorem pay_apply (x0 : Vec Ideal S512x2048 .bf16) (x1 : Vec Ideal S2048x2048 .bf16) (x2 : Vec Ideal S1x2048 .f32) (p : Fin 512) (q : Fin 2048) :
    k1_pay1 x0 x1 x2 (ix2 p q) = (∑ k : Fin 2048, (x0 (ix2 p k) : EReal) * (x1 (ix2 k q) : EReal)) + (x2 (ix2 0 q) : EReal) := by
  simp only [k1_pay1, shapeCast_self]
  exact DenseBody.apply (d := dot_S512x2048_S2048x2048_S512x2048_1_0_0_1_n_n) ⟨rfl, rfl, rfl, rfl, rfl, rfl⟩ none _ x1 x2 _ p q

/-- The index maps over the grid: the row block moves with the point, every other block index is zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `G`. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S512x2048) hz, View.ld_unit_zero (S := S2048x2048) hz, View.ld_unit_zero (S := S1x2048) hz]
  obtain ⟨e00, e01, e10, e11, e20, e21, e30, e31⟩ := idx_facts t
  funext j
  have hj0 : (j 0).val < 512 := (j 0).isLt
  have hj1 : (j 1).val < 2048 := (j 1).isLt
  have hjj : j = ix2 (⟨(j 0).val, hj0⟩ : Fin 512) (⟨(j 1).val, hj1⟩ : Fin 2048) := by
    funext a; match a with | ⟨0, _⟩ => rfl | ⟨1, _⟩ => rfl
  show k1_pay1 (iblk1 V c 0 t) (iblk1 V c 1 t) (iblk1 V c 2 t) j = G V c (((cfg1.win 3).blk t).view.emb j)
  refine (congrArg (k1_pay1 (iblk1 V c 0 t) (iblk1 V c 1 t) (iblk1 V c 2 t)) hjj).trans
    ((pay_apply (iblk1 V c 0 t) (iblk1 V c 1 t) (iblk1 V c 2 t) ⟨(j 0).val, hj0⟩ ⟨(j 1).val, hj1⟩).trans ?_)
  have hx : ∀ k : Fin 2048, iblk1 V c 0 t (ix2 (⟨(j 0).val, hj0⟩ : Fin 512) k)
      = V c main_v2 (ix2 ((((cfg1.win 3).blk t).view.emb j) 0) k) := fun k => by
    show V c main_v2 (((cfg1.win 0).blk t).view.emb (ix2 (⟨(j 0).val, hj0⟩ : Fin 512) k)) = _
    refine congrArg (V c main_v2) (funext fun a => Fin.ext ?_)
    match a with
    | ⟨0, _⟩ => show win1_0.index t (0 : Fin 2) * 512 + 1 * (j 0).val = win1_3.index t (0 : Fin 2) * 512 + 1 * (j 0).val; omega
    | ⟨1, _⟩ => show win1_0.index t (1 : Fin 2) * 2048 + 1 * k.val = k.val; omega
  have hw : ∀ k : Fin 2048, iblk1 V c 1 t (ix2 k (⟨(j 1).val, hj1⟩ : Fin 2048))
      = V c main_v3 (ix2 k ((((cfg1.win 3).blk t).view.emb j) 1)) := fun k => by
    show V c main_v3 (((cfg1.win 1).blk t).view.emb (ix2 k (⟨(j 1).val, hj1⟩ : Fin 2048))) = _
    refine congrArg (V c main_v3) (funext fun a => Fin.ext ?_)
    match a with
    | ⟨0, _⟩ => show win1_1.index t (0 : Fin 2) * 2048 + 1 * k.val = k.val; omega
    | ⟨1, _⟩ => show win1_1.index t (1 : Fin 2) * 2048 + 1 * (j 1).val = win1_3.index t (1 : Fin 2) * 2048 + 1 * (j 1).val; omega
  have hb : iblk1 V c 2 t (ix2 (0 : Fin 1) (⟨(j 1).val, hj1⟩ : Fin 2048))
      = V c main_v4 (ix2 (0 : Fin 1) ((((cfg1.win 3).blk t).view.emb j) 1)) := by
    show V c main_v4 (((cfg1.win 2).blk t).view.emb (ix2 (0 : Fin 1) (⟨(j 1).val, hj1⟩ : Fin 2048))) = _
    refine congrArg (V c main_v4) (funext fun a => Fin.ext ?_)
    match a with
    | ⟨0, _⟩ => show win1_2.index t (0 : Fin 2) * 1 + 1 * 0 = 0; omega
    | ⟨1, _⟩ => show win1_2.index t (1 : Fin 2) * 2048 + 1 * (j 1).val = win1_3.index t (1 : Fin 2) * 2048 + 1 * (j 1).val; omega
  simp only [hx, hw, hb]
  rfl

/-- An index of the result array is in point `t`'s block iff each coordinate is in the block's range on its axis. -/
theorem mem_blk (t : Fin cfg1.N) (i : S16384x2048.Idx) :
    i ∈ ((cfg1.win 3).blk t).view.set ↔ ∀ a : Fin 2, win1_3.index t a * S512x2048.size a ≤ (i a).val ∧ (i a).val < win1_3.index t a * S512x2048.size a + S512x2048.size a := by
  show i ∈ ((View.whole main_v5).slice (win1_3.rect t)).set ↔ _
  rw [View.set_slice_whole, Rect.mem_set_unit]
  exact Iff.rfl

/-- The blocks tile the result array: row `r` is in the block of point `r / 512`. -/
theorem cover (i : S16384x2048.Idx) : ∃ t : Fin cfg1.N, (cfg1.win 3).flush t = true ∧ i ∈ ((cfg1.win 3).blk t).view.set := by
  have hi0 : (i 0).val < 16384 := (i 0).isLt
  have hi1 : (i 1).val < 2048 := (i 1).isLt
  have ht : (i 0).val / 512 < 32 := by omega
  refine ⟨⟨(i 0).val / 512, ht⟩, flush1_3 _, ?_⟩
  obtain ⟨-, -, -, -, -, -, e30, e31⟩ := idx_facts ⟨(i 0).val / 512, ht⟩
  rw [mem_blk]
  intro a
  match a with
  | ⟨0, _⟩ =>
    show win1_3.index ⟨(i 0).val / 512, ht⟩ (0 : Fin 2) * 512 ≤ (i 0).val ∧ (i 0).val < win1_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win1_3.index ⟨(i 0).val / 512, ht⟩ (1 : Fin 2) * 2048 ≤ (i 1).val ∧ (i 1).val < win1_3.index ⟨(i 0).val / 512, ht⟩ (1 : Fin 2) * 2048 + 2048
    rw [e31]; omega

/-- THE RESULT ARRAY after the region: `G` of the arrays as the region finds them. -/
theorem final (c : Dev nD) : (dat1 V c).arrAt 3 cfg1.N = G V c :=
  (dat1 V c).arrAt_eq_of_cover 3 (G V c) (fun t _ => flushed_eq V c t) (cover)

end Cert.KernelIdeal.Dense1

end
-- ==== Proof.Dense2.lean ====
/-
  Kernel region 2: a dense layer tiled over 32 blocks of 512 rows.

  Point `t` of the grid reads rows `512 t … 512 t + 511` of `x`, all of `w` and the bias row, and writes the same rows of
  the result: `x · w + b` restricted to those rows. A row of the result depends on the same row of `x` only, so the 32
  blocks are the restrictions of ONE function of the whole arrays, and they tile the result.
-/
import proofs.«166068_j82617990906012_2_alg».proof.Proof.Gen.KernelIdeal.Frame
import proofs.«166068_j82617990906012_2_alg».proof.Proof.Spec
import proofs.«166068_j82617990906012_2_alg».proof.Proof.LibDense
import Idealize.ShloMosaic.Lib.Pipeline.Value

set_option maxRecDepth 16384

noncomputable section

namespace Cert.KernelIdeal.Dense2

open scoped BigOperators
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the region leaves in its result array: `x · w + b`, of the arrays as the region finds them. -/
def G (c : Dev nD) : S16384x1024.Idx → EReal :=
  HyperMix.dense (V c main_arg1) (V c main_v7) (fun j => V c main_v8 (ix2 0 (j 0)))

/-- The body's value at an entry of the block, from the loaded blocks. -/
theorem pay_apply (x0 : Vec Ideal S512x512 .f32) (x1 : Vec Ideal S512x1024 .bf16) (x2 : Vec Ideal S1x1024 .f32) (p : Fin 512) (q : Fin 1024) :
    k2_pay1 x0 x1 x2 (ix2 p q) = (∑ k : Fin 512, (x0 (ix2 p k) : EReal) * (x1 (ix2 k q) : EReal)) + (x2 (ix2 0 q) : EReal) := by
  simp only [k2_pay1, shapeCast_self]
  exact DenseBody.apply (d := dot_S512x512_S512x1024_S512x1024_1_0_0_1_n_n) ⟨rfl, rfl, rfl, rfl, rfl, rfl⟩ none _ x1 x2 _ p q

/-- The index maps over the grid: the row block moves with the point, every other block index is zero. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of `G`. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S512x512) hz, View.ld_unit_zero (S := S512x1024) hz, View.ld_unit_zero (S := S1x1024) hz]
  obtain ⟨e00, e01, e10, e11, e20, e21, e30, e31⟩ := idx_facts t
  funext j
  have hj0 : (j 0).val < 512 := (j 0).isLt
  have hj1 : (j 1).val < 1024 := (j 1).isLt
  have hjj : j = ix2 (⟨(j 0).val, hj0⟩ : Fin 512) (⟨(j 1).val, hj1⟩ : Fin 1024) := by
    funext a; match a with | ⟨0, _⟩ => rfl | ⟨1, _⟩ => rfl
  show k2_pay1 (iblk2 V c 0 t) (iblk2 V c 1 t) (iblk2 V c 2 t) j = G V c (((cfg2.win 3).blk t).view.emb j)
  refine (congrArg (k2_pay1 (iblk2 V c 0 t) (iblk2 V c 1 t) (iblk2 V c 2 t)) hjj).trans
    ((pay_apply (iblk2 V c 0 t) (iblk2 V c 1 t) (iblk2 V c 2 t) ⟨(j 0).val, hj0⟩ ⟨(j 1).val, hj1⟩).trans ?_)
  have hx : ∀ k : Fin 512, iblk2 V c 0 t (ix2 (⟨(j 0).val, hj0⟩ : Fin 512) k)
      = V c main_arg1 (ix2 ((((cfg2.win 3).blk t).view.emb j) 0) k) := fun k => by
    show V c main_arg1 (((cfg2.win 0).blk t).view.emb (ix2 (⟨(j 0).val, hj0⟩ : Fin 512) k)) = _
    refine congrArg (V c main_arg1) (funext fun a => Fin.ext ?_)
    match a with
    | ⟨0, _⟩ => show win2_0.index t (0 : Fin 2) * 512 + 1 * (j 0).val = win2_3.index t (0 : Fin 2) * 512 + 1 * (j 0).val; omega
    | ⟨1, _⟩ => show win2_0.index t (1 : Fin 2) * 512 + 1 * k.val = k.val; omega
  have hw : ∀ k : Fin 512, iblk2 V c 1 t (ix2 k (⟨(j 1).val, hj1⟩ : Fin 1024))
      = V c main_v7 (ix2 k ((((cfg2.win 3).blk t).view.emb j) 1)) := fun k => by
    show V c main_v7 (((cfg2.win 1).blk t).view.emb (ix2 k (⟨(j 1).val, hj1⟩ : Fin 1024))) = _
    refine congrArg (V c main_v7) (funext fun a => Fin.ext ?_)
    match a with
    | ⟨0, _⟩ => show win2_1.index t (0 : Fin 2) * 512 + 1 * k.val = k.val; omega
    | ⟨1, _⟩ => show win2_1.index t (1 : Fin 2) * 1024 + 1 * (j 1).val = win2_3.index t (1 : Fin 2) * 1024 + 1 * (j 1).val; omega
  have hb : iblk2 V c 2 t (ix2 (0 : Fin 1) (⟨(j 1).val, hj1⟩ : Fin 1024))
      = V c main_v8 (ix2 (0 : Fin 1) ((((cfg2.win 3).blk t).view.emb j) 1)) := by
    show V c main_v8 (((cfg2.win 2).blk t).view.emb (ix2 (0 : Fin 1) (⟨(j 1).val, hj1⟩ : Fin 1024))) = _
    refine congrArg (V c main_v8) (funext fun a => Fin.ext ?_)
    match a with
    | ⟨0, _⟩ => show win2_2.index t (0 : Fin 2) * 1 + 1 * 0 = 0; omega
    | ⟨1, _⟩ => show win2_2.index t (1 : Fin 2) * 1024 + 1 * (j 1).val = win2_3.index t (1 : Fin 2) * 1024 + 1 * (j 1).val; omega
  simp only [hx, hw, hb]
  rfl

/-- An index of the result array is in point `t`'s block iff each coordinate is in the block's range on its axis. -/
theorem mem_blk (t : Fin cfg2.N) (i : S16384x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v9).slice (win2_3.rect t)).set ↔ _
  rw [View.set_slice_whole, Rect.mem_set_unit]
  exact Iff.rfl

/-- The blocks tile the result array: row `r` is in the block of point `r / 512`. -/
theorem cover (i : S16384x1024.Idx) : ∃ t : Fin cfg2.N, (cfg2.win 3).flush t = true ∧ i ∈ ((cfg2.win 3).blk t).view.set := by
  have hi0 : (i 0).val < 16384 := (i 0).isLt
  have hi1 : (i 1).val < 1024 := (i 1).isLt
  have ht : (i 0).val / 512 < 32 := by omega
  refine ⟨⟨(i 0).val / 512, ht⟩, flush2_3 _, ?_⟩
  obtain ⟨-, -, -, -, -, -, e30, e31⟩ := idx_facts ⟨(i 0).val / 512, ht⟩
  rw [mem_blk]
  intro a
  match a with
  | ⟨0, _⟩ =>
    show win2_3.index ⟨(i 0).val / 512, ht⟩ (0 : Fin 2) * 512 ≤ (i 0).val ∧ (i 0).val < win2_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win2_3.index ⟨(i 0).val / 512, ht⟩ (1 : Fin 2) * 1024 ≤ (i 1).val ∧ (i 1).val < win2_3.index ⟨(i 0).val / 512, ht⟩ (1 : Fin 2) * 1024 + 1024
    rw [e31]; omega

/-- THE RESULT ARRAY after the region: `G` of the arrays as the region finds them. -/
theorem final (c : Dev nD) : (dat2 V c).arrAt 3 cfg2.N = G V c :=
  (dat2 V c).arrAt_eq_of_cover 3 (G V c) (fun t _ => flushed_eq V c t) (cover)

end Cert.KernelIdeal.Dense2

end
-- ==== Proof.Dense3.lean ====
/-
  Kernel region 3: a dense layer tiled over 32 blocks of 512 rows.

  Point `t` of the grid reads rows `512 t … 512 t + 511` of `x`, all of `w` and the bias row, and writes the same rows of
  the result: the positive part of `x · w + b` restricted to those rows. A row of the result depends on the same row of `x` only, so the 32
  blocks are the restrictions of ONE function of the whole arrays, and they tile the result.
-/
import proofs.«166068_j82617990906012_2_alg».proof.Proof.Gen.KernelIdeal.Frame
import proofs.«166068_j82617990906012_2_alg».proof.Proof.Spec
import proofs.«166068_j82617990906012_2_alg».proof.Proof.LibDense
import Idealize.ShloMosaic.Lib.Pipeline.Value

set_option maxRecDepth 16384

noncomputable section

namespace Cert.KernelIdeal.Dense3

open scoped BigOperators
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the region leaves in its result array: the positive part of `x · w + b`, of the arrays as the region finds them. -/
def G (c : Dev nD) : S16384x4096.Idx → EReal :=
  HyperMix.relu (HyperMix.dense (V c main_arg1) (V c main_v11) (fun j => V c main_v12 (ix2 0 (j 0))))

/-- The body's value at an entry of the block, from the loaded blocks. -/
theorem pay_apply (x0 : Vec Ideal S512x512 .f32) (x1 : Vec Ideal S512x4096 .bf16) (x2 : Vec Ideal S1x4096 .f32) (p : Fin 512) (q : Fin 4096) :
    k3_pay1 x0 x1 x2 (ix2 p q) = max ((∑ k : Fin 512, (x0 (ix2 p k) : EReal) * (x1 (ix2 k q) : EReal)) + (x2 (ix2 0 q) : EReal)) HyperMix.zero := by
  simp only [k3_pay1, shapeCast_self]
  exact congrArg (fun z : EReal => max z HyperMix.zero) (DenseBody.apply (d := dot_S512x512_S512x4096_S512x4096_1_0_0_1_n_n) ⟨rfl, rfl, rfl, rfl, rfl, rfl⟩ none _ x1 x2 _ p q)

/-- The index maps over the grid: the row block moves with the point, every other block index is zero. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of `G`. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S512x512) hz, View.ld_unit_zero (S := S512x4096) hz, View.ld_unit_zero (S := S1x4096) hz]
  obtain ⟨e00, e01, e10, e11, e20, e21, e30, e31⟩ := idx_facts t
  funext j
  have hj0 : (j 0).val < 512 := (j 0).isLt
  have hj1 : (j 1).val < 4096 := (j 1).isLt
  have hjj : j = ix2 (⟨(j 0).val, hj0⟩ : Fin 512) (⟨(j 1).val, hj1⟩ : Fin 4096) := by
    funext a; match a with | ⟨0, _⟩ => rfl | ⟨1, _⟩ => rfl
  show k3_pay1 (iblk3 V c 0 t) (iblk3 V c 1 t) (iblk3 V c 2 t) j = G V c (((cfg3.win 3).blk t).view.emb j)
  refine (congrArg (k3_pay1 (iblk3 V c 0 t) (iblk3 V c 1 t) (iblk3 V c 2 t)) hjj).trans
    ((pay_apply (iblk3 V c 0 t) (iblk3 V c 1 t) (iblk3 V c 2 t) ⟨(j 0).val, hj0⟩ ⟨(j 1).val, hj1⟩).trans ?_)
  have hx : ∀ k : Fin 512, iblk3 V c 0 t (ix2 (⟨(j 0).val, hj0⟩ : Fin 512) k)
      = V c main_arg1 (ix2 ((((cfg3.win 3).blk t).view.emb j) 0) k) := fun k => by
    show V c main_arg1 (((cfg3.win 0).blk t).view.emb (ix2 (⟨(j 0).val, hj0⟩ : Fin 512) k)) = _
    refine congrArg (V c main_arg1) (funext fun a => Fin.ext ?_)
    match a with
    | ⟨0, _⟩ => show win3_0.index t (0 : Fin 2) * 512 + 1 * (j 0).val = win3_3.index t (0 : Fin 2) * 512 + 1 * (j 0).val; omega
    | ⟨1, _⟩ => show win3_0.index t (1 : Fin 2) * 512 + 1 * k.val = k.val; omega
  have hw : ∀ k : Fin 512, iblk3 V c 1 t (ix2 k (⟨(j 1).val, hj1⟩ : Fin 4096))
      = V c main_v11 (ix2 k ((((cfg3.win 3).blk t).view.emb j) 1)) := fun k => by
    show V c main_v11 (((cfg3.win 1).blk t).view.emb (ix2 k (⟨(j 1).val, hj1⟩ : Fin 4096))) = _
    refine congrArg (V c main_v11) (funext fun a => Fin.ext ?_)
    match a with
    | ⟨0, _⟩ => show win3_1.index t (0 : Fin 2) * 512 + 1 * k.val = k.val; omega
    | ⟨1, _⟩ => show win3_1.index t (1 : Fin 2) * 4096 + 1 * (j 1).val = win3_3.index t (1 : Fin 2) * 4096 + 1 * (j 1).val; omega
  have hb : iblk3 V c 2 t (ix2 (0 : Fin 1) (⟨(j 1).val, hj1⟩ : Fin 4096))
      = V c main_v12 (ix2 (0 : Fin 1) ((((cfg3.win 3).blk t).view.emb j) 1)) := by
    show V c main_v12 (((cfg3.win 2).blk t).view.emb (ix2 (0 : Fin 1) (⟨(j 1).val, hj1⟩ : Fin 4096))) = _
    refine congrArg (V c main_v12) (funext fun a => Fin.ext ?_)
    match a with
    | ⟨0, _⟩ => show win3_2.index t (0 : Fin 2) * 1 + 1 * 0 = 0; omega
    | ⟨1, _⟩ => show win3_2.index t (1 : Fin 2) * 4096 + 1 * (j 1).val = win3_3.index t (1 : Fin 2) * 4096 + 1 * (j 1).val; omega
  simp only [hx, hw, hb]
  rfl

/-- An index of the result array is in point `t`'s block iff each coordinate is in the block's range on its axis. -/
theorem mem_blk (t : Fin cfg3.N) (i : S16384x4096.Idx) :
    i ∈ ((cfg3.win 3).blk t).view.set ↔ ∀ a : Fin 2, win3_3.index t a * S512x4096.size a ≤ (i a).val ∧ (i a).val < win3_3.index t a * S512x4096.size a + S512x4096.size a := by
  show i ∈ ((View.whole main_v13).slice (win3_3.rect t)).set ↔ _
  rw [View.set_slice_whole, Rect.mem_set_unit]
  exact Iff.rfl

/-- The blocks tile the result array: row `r` is in the block of point `r / 512`. -/
theorem cover (i : S16384x4096.Idx) : ∃ t : Fin cfg3.N, (cfg3.win 3).flush t = true ∧ i ∈ ((cfg3.win 3).blk t).view.set := by
  have hi0 : (i 0).val < 16384 := (i 0).isLt
  have hi1 : (i 1).val < 4096 := (i 1).isLt
  have ht : (i 0).val / 512 < 32 := by omega
  refine ⟨⟨(i 0).val / 512, ht⟩, flush3_3 _, ?_⟩
  obtain ⟨-, -, -, -, -, -, e30, e31⟩ := idx_facts ⟨(i 0).val / 512, ht⟩
  rw [mem_blk]
  intro a
  match a with
  | ⟨0, _⟩ =>
    show win3_3.index ⟨(i 0).val / 512, ht⟩ (0 : Fin 2) * 512 ≤ (i 0).val ∧ (i 0).val < win3_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win3_3.index ⟨(i 0).val / 512, ht⟩ (1 : Fin 2) * 4096 ≤ (i 1).val ∧ (i 1).val < win3_3.index ⟨(i 0).val / 512, ht⟩ (1 : Fin 2) * 4096 + 4096
    rw [e31]; omega

/-- THE RESULT ARRAY after the region: `G` of the arrays as the region finds them. -/
theorem final (c : Dev nD) : (dat3 V c).arrAt 3 cfg3.N = G V c :=
  (dat3 V c).arrAt_eq_of_cover 3 (G V c) (fun t _ => flushed_eq V c t) (cover)

end Cert.KernelIdeal.Dense3

end
-- ==== Proof.Dense4.lean ====
/-
  Kernel region 4: a dense layer tiled over 32 blocks of 512 rows.

  Point `t` of the grid reads rows `512 t … 512 t + 511` of `x`, all of `w` and the bias row, and writes the same rows of
  the result: `x · w + b` restricted to those rows. A row of the result depends on the same row of `x` only, so the 32
  blocks are the restrictions of ONE function of the whole arrays, and they tile the result.
-/
import proofs.«166068_j82617990906012_2_alg».proof.Proof.Gen.KernelIdeal.Frame
import proofs.«166068_j82617990906012_2_alg».proof.Proof.Spec
import proofs.«166068_j82617990906012_2_alg».proof.Proof.LibDense
import Idealize.ShloMosaic.Lib.Pipeline.Value

set_option maxRecDepth 16384

noncomputable section

namespace Cert.KernelIdeal.Dense4

open scoped BigOperators
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the region leaves in its result array: `x · w + b`, of the arrays as the region finds them. -/
def G (c : Dev nD) : S16384x2048.Idx → EReal :=
  HyperMix.dense (V c main_v13) (V c main_v14) (fun j => V c main_v15 (ix2 0 (j 0)))

/-- The body's value at an entry of the block, from the loaded blocks. -/
theorem pay_apply (x0 : Vec Ideal S512x4096 .bf16) (x1 : Vec Ideal S4096x2048 .bf16) (x2 : Vec Ideal S1x2048 .f32) (p : Fin 512) (q : Fin 2048) :
    k4_pay1 x0 x1 x2 (ix2 p q) = (∑ k : Fin 4096, (x0 (ix2 p k) : EReal) * (x1 (ix2 k q) : EReal)) + (x2 (ix2 0 q) : EReal) := by
  simp only [k4_pay1, shapeCast_self]
  exact DenseBody.apply (d := dot_S512x4096_S4096x2048_S512x2048_1_0_0_1_n_n) ⟨rfl, rfl, rfl, rfl, rfl, rfl⟩ none _ x1 x2 _ p q

/-- The index maps over the grid: the row block moves with the point, every other block index is zero. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point `t` writes back is block `t` of `G`. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S512x4096) hz, View.ld_unit_zero (S := S4096x2048) hz, View.ld_unit_zero (S := S1x2048) hz]
  obtain ⟨e00, e01, e10, e11, e20, e21, e30, e31⟩ := idx_facts t
  funext j
  have hj0 : (j 0).val < 512 := (j 0).isLt
  have hj1 : (j 1).val < 2048 := (j 1).isLt
  have hjj : j = ix2 (⟨(j 0).val, hj0⟩ : Fin 512) (⟨(j 1).val, hj1⟩ : Fin 2048) := by
    funext a; match a with | ⟨0, _⟩ => rfl | ⟨1, _⟩ => rfl
  show k4_pay1 (iblk4 V c 0 t) (iblk4 V c 1 t) (iblk4 V c 2 t) j = G V c (((cfg4.win 3).blk t).view.emb j)
  refine (congrArg (k4_pay1 (iblk4 V c 0 t) (iblk4 V c 1 t) (iblk4 V c 2 t)) hjj).trans
    ((pay_apply (iblk4 V c 0 t) (iblk4 V c 1 t) (iblk4 V c 2 t) ⟨(j 0).val, hj0⟩ ⟨(j 1).val, hj1⟩).trans ?_)
  have hx : ∀ k : Fin 4096, iblk4 V c 0 t (ix2 (⟨(j 0).val, hj0⟩ : Fin 512) k)
      = V c main_v13 (ix2 ((((cfg4.win 3).blk t).view.emb j) 0) k) := fun k => by
    show V c main_v13 (((cfg4.win 0).blk t).view.emb (ix2 (⟨(j 0).val, hj0⟩ : Fin 512) k)) = _
    refine congrArg (V c main_v13) (funext fun a => Fin.ext ?_)
    match a with
    | ⟨0, _⟩ => show win4_0.index t (0 : Fin 2) * 512 + 1 * (j 0).val = win4_3.index t (0 : Fin 2) * 512 + 1 * (j 0).val; omega
    | ⟨1, _⟩ => show win4_0.index t (1 : Fin 2) * 4096 + 1 * k.val = k.val; omega
  have hw : ∀ k : Fin 4096, iblk4 V c 1 t (ix2 k (⟨(j 1).val, hj1⟩ : Fin 2048))
      = V c main_v14 (ix2 k ((((cfg4.win 3).blk t).view.emb j) 1)) := fun k => by
    show V c main_v14 (((cfg4.win 1).blk t).view.emb (ix2 k (⟨(j 1).val, hj1⟩ : Fin 2048))) = _
    refine congrArg (V c main_v14) (funext fun a => Fin.ext ?_)
    match a with
    | ⟨0, _⟩ => show win4_1.index t (0 : Fin 2) * 4096 + 1 * k.val = k.val; omega
    | ⟨1, _⟩ => show win4_1.index t (1 : Fin 2) * 2048 + 1 * (j 1).val = win4_3.index t (1 : Fin 2) * 2048 + 1 * (j 1).val; omega
  have hb : iblk4 V c 2 t (ix2 (0 : Fin 1) (⟨(j 1).val, hj1⟩ : Fin 2048))
      = V c main_v15 (ix2 (0 : Fin 1) ((((cfg4.win 3).blk t).view.emb j) 1)) := by
    show V c main_v15 (((cfg4.win 2).blk t).view.emb (ix2 (0 : Fin 1) (⟨(j 1).val, hj1⟩ : Fin 2048))) = _
    refine congrArg (V c main_v15) (funext fun a => Fin.ext ?_)
    match a with
    | ⟨0, _⟩ => show win4_2.index t (0 : Fin 2) * 1 + 1 * 0 = 0; omega
    | ⟨1, _⟩ => show win4_2.index t (1 : Fin 2) * 2048 + 1 * (j 1).val = win4_3.index t (1 : Fin 2) * 2048 + 1 * (j 1).val; omega
  simp only [hx, hw, hb]
  rfl

/-- An index of the result array is in point `t`'s block iff each coordinate is in the block's range on its axis. -/
theorem mem_blk (t : Fin cfg4.N) (i : S16384x2048.Idx) :
    i ∈ ((cfg4.win 3).blk t).view.set ↔ ∀ a : Fin 2, win4_3.index t a * S512x2048.size a ≤ (i a).val ∧ (i a).val < win4_3.index t a * S512x2048.size a + S512x2048.size a := by
  show i ∈ ((View.whole main_v16).slice (win4_3.rect t)).set ↔ _
  rw [View.set_slice_whole, Rect.mem_set_unit]
  exact Iff.rfl

/-- The blocks tile the result array: row `r` is in the block of point `r / 512`. -/
theorem cover (i : S16384x2048.Idx) : ∃ t : Fin cfg4.N, (cfg4.win 3).flush t = true ∧ i ∈ ((cfg4.win 3).blk t).view.set := by
  have hi0 : (i 0).val < 16384 := (i 0).isLt
  have hi1 : (i 1).val < 2048 := (i 1).isLt
  have ht : (i 0).val / 512 < 32 := by omega
  refine ⟨⟨(i 0).val / 512, ht⟩, flush4_3 _, ?_⟩
  obtain ⟨-, -, -, -, -, -, e30, e31⟩ := idx_facts ⟨(i 0).val / 512, ht⟩
  rw [mem_blk]
  intro a
  match a with
  | ⟨0, _⟩ =>
    show win4_3.index ⟨(i 0).val / 512, ht⟩ (0 : Fin 2) * 512 ≤ (i 0).val ∧ (i 0).val < win4_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win4_3.index ⟨(i 0).val / 512, ht⟩ (1 : Fin 2) * 2048 ≤ (i 1).val ∧ (i 1).val < win4_3.index ⟨(i 0).val / 512, ht⟩ (1 : Fin 2) * 2048 + 2048
    rw [e31]; omega

/-- THE RESULT ARRAY after the region: `G` of the arrays as the region finds them. -/
theorem final (c : Dev nD) : (dat4 V c).arrAt 3 cfg4.N = G V c :=
  (dat4 V c).arrAt_eq_of_cover 3 (G V c) (fun t _ => flushed_eq V c t) (cover)

end Cert.KernelIdeal.Dense4

end
-- ==== Proof.Dense5.lean ====
/-
  Kernel region 5: a dense layer tiled over 32 blocks of 512 rows.

  Point `t` of the grid reads rows `512 t … 512 t + 511` of `x`, all of `w` and the bias row, and writes the same rows of
  the result: the positive part of `x · w + b` restricted to those rows. A row of the result depends on the same row of `x` only, so the 32
  blocks are the restrictions of ONE function of the whole arrays, and they tile the result.
-/
import proofs.«166068_j82617990906012_2_alg».proof.Proof.Gen.KernelIdeal.Frame
import proofs.«166068_j82617990906012_2_alg».proof.Proof.Spec
import proofs.«166068_j82617990906012_2_alg».proof.Proof.LibDense
import Idealize.ShloMosaic.Lib.Pipeline.Value

set_option maxRecDepth 16384

noncomputable section

namespace Cert.KernelIdeal.Dense5

open scoped BigOperators
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the region leaves in its result array: the positive part of `x · w + b`, of the arrays as the region finds them. -/
def G (c : Dev nD) : S16384x1024.Idx → EReal :=
  HyperMix.relu (HyperMix.dense (V c main_arg1) (V c main_v18) (fun j => V c main_v19 (ix2 0 (j 0))))

/-- The body's value at an entry of the block, from the loaded blocks. -/
theorem pay_apply (x0 : Vec Ideal S512x512 .f32) (x1 : Vec Ideal S512x1024 .bf16) (x2 : Vec Ideal S1x1024 .f32) (p : Fin 512) (q : Fin 1024) :
    k5_pay1 x0 x1 x2 (ix2 p q) = max ((∑ k : Fin 512, (x0 (ix2 p k) : EReal) * (x1 (ix2 k q) : EReal)) + (x2 (ix2 0 q) : EReal)) HyperMix.zero := by
  simp only [k5_pay1, shapeCast_self]
  exact congrArg (fun z : EReal => max z HyperMix.zero) (DenseBody.apply (d := dot_S512x512_S512x1024_S512x1024_1_0_0_1_n_n) ⟨rfl, rfl, rfl, rfl, rfl, rfl⟩ none _ x1 x2 _ p q)

/-- The index maps over the grid: the row block moves with the point, every other block index is zero. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- What point `t` writes back is block `t` of `G`. -/
theorem flushed_eq (c : Dev nD) (t : Fin cfg5.N) :
    (dat5 V c).flushed 3 t = ((cfg5.win 3).blk t).view.read (Elt Ideal) (G V c) := by
  show (cfg5.win 3).cut (grid5.coords t) ((dat5 V c).after 3 t) = _
  rw [after5_3]
  unfold out5_3
  rw [View.canon_unit_zero hz]
  simp only [View.ld_unit_zero (S := S512x512) hz, View.ld_unit_zero (S := S512x1024) hz, View.ld_unit_zero (S := S1x1024) hz]
  obtain ⟨e00, e01, e10, e11, e20, e21, e30, e31⟩ := idx_facts t
  funext j
  have hj0 : (j 0).val < 512 := (j 0).isLt
  have hj1 : (j 1).val < 1024 := (j 1).isLt
  have hjj : j = ix2 (⟨(j 0).val, hj0⟩ : Fin 512) (⟨(j 1).val, hj1⟩ : Fin 1024) := by
    funext a; match a with | ⟨0, _⟩ => rfl | ⟨1, _⟩ => rfl
  show k5_pay1 (iblk5 V c 0 t) (iblk5 V c 1 t) (iblk5 V c 2 t) j = G V c (((cfg5.win 3).blk t).view.emb j)
  refine (congrArg (k5_pay1 (iblk5 V c 0 t) (iblk5 V c 1 t) (iblk5 V c 2 t)) hjj).trans
    ((pay_apply (iblk5 V c 0 t) (iblk5 V c 1 t) (iblk5 V c 2 t) ⟨(j 0).val, hj0⟩ ⟨(j 1).val, hj1⟩).trans ?_)
  have hx : ∀ k : Fin 512, iblk5 V c 0 t (ix2 (⟨(j 0).val, hj0⟩ : Fin 512) k)
      = V c main_arg1 (ix2 ((((cfg5.win 3).blk t).view.emb j) 0) k) := fun k => by
    show V c main_arg1 (((cfg5.win 0).blk t).view.emb (ix2 (⟨(j 0).val, hj0⟩ : Fin 512) k)) = _
    refine congrArg (V c main_arg1) (funext fun a => Fin.ext ?_)
    match a with
    | ⟨0, _⟩ => show win5_0.index t (0 : Fin 2) * 512 + 1 * (j 0).val = win5_3.index t (0 : Fin 2) * 512 + 1 * (j 0).val; omega
    | ⟨1, _⟩ => show win5_0.index t (1 : Fin 2) * 512 + 1 * k.val = k.val; omega
  have hw : ∀ k : Fin 512, iblk5 V c 1 t (ix2 k (⟨(j 1).val, hj1⟩ : Fin 1024))
      = V c main_v18 (ix2 k ((((cfg5.win 3).blk t).view.emb j) 1)) := fun k => by
    show V c main_v18 (((cfg5.win 1).blk t).view.emb (ix2 k (⟨(j 1).val, hj1⟩ : Fin 1024))) = _
    refine congrArg (V c main_v18) (funext fun a => Fin.ext ?_)
    match a with
    | ⟨0, _⟩ => show win5_1.index t (0 : Fin 2) * 512 + 1 * k.val = k.val; omega
    | ⟨1, _⟩ => show win5_1.index t (1 : Fin 2) * 1024 + 1 * (j 1).val = win5_3.index t (1 : Fin 2) * 1024 + 1 * (j 1).val; omega
  have hb : iblk5 V c 2 t (ix2 (0 : Fin 1) (⟨(j 1).val, hj1⟩ : Fin 1024))
      = V c main_v19 (ix2 (0 : Fin 1) ((((cfg5.win 3).blk t).view.emb j) 1)) := by
    show V c main_v19 (((cfg5.win 2).blk t).view.emb (ix2 (0 : Fin 1) (⟨(j 1).val, hj1⟩ : Fin 1024))) = _
    refine congrArg (V c main_v19) (funext fun a => Fin.ext ?_)
    match a with
    | ⟨0, _⟩ => show win5_2.index t (0 : Fin 2) * 1 + 1 * 0 = 0; omega
    | ⟨1, _⟩ => show win5_2.index t (1 : Fin 2) * 1024 + 1 * (j 1).val = win5_3.index t (1 : Fin 2) * 1024 + 1 * (j 1).val; omega
  simp only [hx, hw, hb]
  rfl

/-- An index of the result array is in point `t`'s block iff each coordinate is in the block's range on its axis. -/
theorem mem_blk (t : Fin cfg5.N) (i : S16384x1024.Idx) :
    i ∈ ((cfg5.win 3).blk t).view.set ↔ ∀ a : Fin 2, win5_3.index t a * S512x1024.size a ≤ (i a).val ∧ (i a).val < win5_3.index t a * S512x1024.size a + S512x1024.size a := by
  show i ∈ ((View.whole main_v20).slice (win5_3.rect t)).set ↔ _
  rw [View.set_slice_whole, Rect.mem_set_unit]
  exact Iff.rfl

/-- The blocks tile the result array: row `r` is in the block of point `r / 512`. -/
theorem cover (i : S16384x1024.Idx) : ∃ t : Fin cfg5.N, (cfg5.win 3).flush t = true ∧ i ∈ ((cfg5.win 3).blk t).view.set := by
  have hi0 : (i 0).val < 16384 := (i 0).isLt
  have hi1 : (i 1).val < 1024 := (i 1).isLt
  have ht : (i 0).val / 512 < 32 := by omega
  refine ⟨⟨(i 0).val / 512, ht⟩, flush5_3 _, ?_⟩
  obtain ⟨-, -, -, -, -, -, e30, e31⟩ := idx_facts ⟨(i 0).val / 512, ht⟩
  rw [mem_blk]
  intro a
  match a with
  | ⟨0, _⟩ =>
    show win5_3.index ⟨(i 0).val / 512, ht⟩ (0 : Fin 2) * 512 ≤ (i 0).val ∧ (i 0).val < win5_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win5_3.index ⟨(i 0).val / 512, ht⟩ (1 : Fin 2) * 1024 ≤ (i 1).val ∧ (i 1).val < win5_3.index ⟨(i 0).val / 512, ht⟩ (1 : Fin 2) * 1024 + 1024
    rw [e31]; omega

/-- THE RESULT ARRAY after the region: `G` of the arrays as the region finds them. -/
theorem final (c : Dev nD) : (dat5 V c).arrAt 3 cfg5.N = G V c :=
  (dat5 V c).arrAt_eq_of_cover 3 (G V c) (fun t _ => flushed_eq V c t) (cover)

end Cert.KernelIdeal.Dense5

end
-- ==== Proof.Dense6.lean ====
/-
  Kernel region 6: a dense layer tiled over 32 blocks of 512 rows.

  Point `t` of the grid reads rows `512 t … 512 t + 511` of `x`, all of `w` and the bias row, and writes the same rows of
  the result: `x · w + b` restricted to those rows. A row of the result depends on the same row of `x` only, so the 32
  blocks are the restrictions of ONE function of the whole arrays, and they tile the result.
-/
import proofs.«166068_j82617990906012_2_alg».proof.Proof.Gen.KernelIdeal.Frame
import proofs.«166068_j82617990906012_2_alg».proof.Proof.Spec
import proofs.«166068_j82617990906012_2_alg».proof.Proof.LibDense
import Idealize.ShloMosaic.Lib.Pipeline.Value

set_option maxRecDepth 16384

noncomputable section

namespace Cert.KernelIdeal.Dense6

open scoped BigOperators
open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the region leaves in its result array: `x · w + b`, of the arrays as the region finds them. -/
def G (c : Dev nD) : S16384x2048.Idx → EReal :=
  HyperMix.dense (V c main_v20) (V c main_v21) (fun j => V c main_v22 (ix2 0 (j 0)))

/-- The body's value at an entry of the block, from the loaded blocks. -/
theorem pay_apply (x0 : Vec Ideal S512x1024 .bf16) (x1 : Vec Ideal S1024x2048 .bf16) (x2 : Vec Ideal S1x2048 .f32) (p : Fin 512) (q : Fin 2048) :
    k6_pay1 x0 x1 x2 (ix2 p q) = (∑ k : Fin 1024, (x0 (ix2 p k) : EReal) * (x1 (ix2 k q) : EReal)) + (x2 (ix2 0 q) : EReal) := by
  simp only [k6_pay1, shapeCast_self]
  exact DenseBody.apply (d := dot_S512x1024_S1024x2048_S512x2048_1_0_0_1_n_n) ⟨rfl, rfl, rfl, rfl, rfl, rfl⟩ none _ x1 x2 _ p q

/-- The index maps over the grid: the row block moves with the point, every other block index is zero. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point `t` writes back is block `t` of `G`. -/
theorem flushed_eq (c : Dev nD) (t : Fin cfg6.N) :
    (dat6 V c).flushed 3 t = ((cfg6.win 3).blk t).view.read (Elt Ideal) (G V c) := by
  show (cfg6.win 3).cut (grid6.coords t) ((dat6 V c).after 3 t) = _
  rw [after6_3]
  unfold out6_3
  rw [View.canon_unit_zero hz]
  simp only [View.ld_unit_zero (S := S512x1024) hz, View.ld_unit_zero (S := S1024x2048) hz, View.ld_unit_zero (S := S1x2048) hz]
  obtain ⟨e00, e01, e10, e11, e20, e21, e30, e31⟩ := idx_facts t
  funext j
  have hj0 : (j 0).val < 512 := (j 0).isLt
  have hj1 : (j 1).val < 2048 := (j 1).isLt
  have hjj : j = ix2 (⟨(j 0).val, hj0⟩ : Fin 512) (⟨(j 1).val, hj1⟩ : Fin 2048) := by
    funext a; match a with | ⟨0, _⟩ => rfl | ⟨1, _⟩ => rfl
  show k6_pay1 (iblk6 V c 0 t) (iblk6 V c 1 t) (iblk6 V c 2 t) j = G V c (((cfg6.win 3).blk t).view.emb j)
  refine (congrArg (k6_pay1 (iblk6 V c 0 t) (iblk6 V c 1 t) (iblk6 V c 2 t)) hjj).trans
    ((pay_apply (iblk6 V c 0 t) (iblk6 V c 1 t) (iblk6 V c 2 t) ⟨(j 0).val, hj0⟩ ⟨(j 1).val, hj1⟩).trans ?_)
  have hx : ∀ k : Fin 1024, iblk6 V c 0 t (ix2 (⟨(j 0).val, hj0⟩ : Fin 512) k)
      = V c main_v20 (ix2 ((((cfg6.win 3).blk t).view.emb j) 0) k) := fun k => by
    show V c main_v20 (((cfg6.win 0).blk t).view.emb (ix2 (⟨(j 0).val, hj0⟩ : Fin 512) k)) = _
    refine congrArg (V c main_v20) (funext fun a => Fin.ext ?_)
    match a with
    | ⟨0, _⟩ => show win6_0.index t (0 : Fin 2) * 512 + 1 * (j 0).val = win6_3.index t (0 : Fin 2) * 512 + 1 * (j 0).val; omega
    | ⟨1, _⟩ => show win6_0.index t (1 : Fin 2) * 1024 + 1 * k.val = k.val; omega
  have hw : ∀ k : Fin 1024, iblk6 V c 1 t (ix2 k (⟨(j 1).val, hj1⟩ : Fin 2048))
      = V c main_v21 (ix2 k ((((cfg6.win 3).blk t).view.emb j) 1)) := fun k => by
    show V c main_v21 (((cfg6.win 1).blk t).view.emb (ix2 k (⟨(j 1).val, hj1⟩ : Fin 2048))) = _
    refine congrArg (V c main_v21) (funext fun a => Fin.ext ?_)
    match a with
    | ⟨0, _⟩ => show win6_1.index t (0 : Fin 2) * 1024 + 1 * k.val = k.val; omega
    | ⟨1, _⟩ => show win6_1.index t (1 : Fin 2) * 2048 + 1 * (j 1).val = win6_3.index t (1 : Fin 2) * 2048 + 1 * (j 1).val; omega
  have hb : iblk6 V c 2 t (ix2 (0 : Fin 1) (⟨(j 1).val, hj1⟩ : Fin 2048))
      = V c main_v22 (ix2 (0 : Fin 1) ((((cfg6.win 3).blk t).view.emb j) 1)) := by
    show V c main_v22 (((cfg6.win 2).blk t).view.emb (ix2 (0 : Fin 1) (⟨(j 1).val, hj1⟩ : Fin 2048))) = _
    refine congrArg (V c main_v22) (funext fun a => Fin.ext ?_)
    match a with
    | ⟨0, _⟩ => show win6_2.index t (0 : Fin 2) * 1 + 1 * 0 = 0; omega
    | ⟨1, _⟩ => show win6_2.index t (1 : Fin 2) * 2048 + 1 * (j 1).val = win6_3.index t (1 : Fin 2) * 2048 + 1 * (j 1).val; omega
  simp only [hx, hw, hb]
  rfl

/-- An index of the result array is in point `t`'s block iff each coordinate is in the block's range on its axis. -/
theorem mem_blk (t : Fin cfg6.N) (i : S16384x2048.Idx) :
    i ∈ ((cfg6.win 3).blk t).view.set ↔ ∀ a : Fin 2, win6_3.index t a * S512x2048.size a ≤ (i a).val ∧ (i a).val < win6_3.index t a * S512x2048.size a + S512x2048.size a := by
  show i ∈ ((View.whole main_v23).slice (win6_3.rect t)).set ↔ _
  rw [View.set_slice_whole, Rect.mem_set_unit]
  exact Iff.rfl

/-- The blocks tile the result array: row `r` is in the block of point `r / 512`. -/
theorem cover (i : S16384x2048.Idx) : ∃ t : Fin cfg6.N, (cfg6.win 3).flush t = true ∧ i ∈ ((cfg6.win 3).blk t).view.set := by
  have hi0 : (i 0).val < 16384 := (i 0).isLt
  have hi1 : (i 1).val < 2048 := (i 1).isLt
  have ht : (i 0).val / 512 < 32 := by omega
  refine ⟨⟨(i 0).val / 512, ht⟩, flush6_3 _, ?_⟩
  obtain ⟨-, -, -, -, -, -, e30, e31⟩ := idx_facts ⟨(i 0).val / 512, ht⟩
  rw [mem_blk]
  intro a
  match a with
  | ⟨0, _⟩ =>
    show win6_3.index ⟨(i 0).val / 512, ht⟩ (0 : Fin 2) * 512 ≤ (i 0).val ∧ (i 0).val < win6_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win6_3.index ⟨(i 0).val / 512, ht⟩ (1 : Fin 2) * 2048 ≤ (i 1).val ∧ (i 1).val < win6_3.index ⟨(i 0).val / 512, ht⟩ (1 : Fin 2) * 2048 + 2048
    rw [e31]; omega

/-- THE RESULT ARRAY after the region: `G` of the arrays as the region finds them. -/
theorem final (c : Dev nD) : (dat6 V c).arrAt 3 cfg6.N = G V c :=
  (dat6 V c).arrAt_eq_of_cover 3 (G V c) (fun t _ => flushed_eq V c t) (cover)

end Cert.KernelIdeal.Dense6

end
-- ==== Proof.Chain.lean ====
/-
  The idealized kernel program's dense stages, composed: what each of the seven dense-layer regions leaves in its result
  array, as a function of the LAUNCH contents of the argument arrays.

  Between the regions @main only re-lays arrays out (a flat bias read as one row, a flat result read as per-sample
  matrices) and changes float formats, which at the extended reals is the identity; a region's inputs are followed back
  through the fold of buffer contents to the argument arrays or to an earlier region's result.
-/
import proofs.«166068_j82617990906012_2_alg».proof.Proof.Gen.KernelIdeal.Frame
import proofs.«166068_j82617990906012_2_alg».proof.Proof.Spec
import proofs.«166068_j82617990906012_2_alg».proof.Proof.LibLayout
import proofs.«166068_j82617990906012_2_alg».proof.Proof.Walk
import proofs.«166068_j82617990906012_2_alg».proof.Proof.Dense0
import proofs.«166068_j82617990906012_2_alg».proof.Proof.Dense1
import proofs.«166068_j82617990906012_2_alg».proof.Proof.Dense2
import proofs.«166068_j82617990906012_2_alg».proof.Proof.Dense3
import proofs.«166068_j82617990906012_2_alg».proof.Proof.Dense4
import proofs.«166068_j82617990906012_2_alg».proof.Proof.Dense5
import proofs.«166068_j82617990906012_2_alg».proof.Proof.Dense6
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The seven dense stages' values, from the launch arrays: three two-layer networks and one single layer. -/
def Y0 (c : Dev nD) : S16384x2048.Idx → EReal := HyperMix.relu (HyperMix.dense (m ((c : Thread nD τ).loc main_arg1)) (m ((c : Thread nD τ).loc main_arg2)) (m ((c : Thread nD τ).loc main_arg3)))
def Y1 (c : Dev nD) : S16384x2048.Idx → EReal := HyperMix.dense (Y0 m c) (m ((c : Thread nD τ).loc main_arg4)) (m ((c : Thread nD τ).loc main_arg5))
def Y2 (c : Dev nD) : S16384x1024.Idx → EReal := HyperMix.dense (m ((c : Thread nD τ).loc main_arg1)) (m ((c : Thread nD τ).loc main_arg6)) (m ((c : Thread nD τ).loc main_arg7))
def Y3 (c : Dev nD) : S16384x4096.Idx → EReal := HyperMix.relu (HyperMix.dense (m ((c : Thread nD τ).loc main_arg1)) (m ((c : Thread nD τ).loc main_arg8)) (m ((c : Thread nD τ).loc main_arg9)))
def Y4 (c : Dev nD) : S16384x2048.Idx → EReal := HyperMix.dense (Y3 m c) (m ((c : Thread nD τ).loc main_arg10)) (m ((c : Thread nD τ).loc main_arg11))
def Y5 (c : Dev nD) : S16384x1024.Idx → EReal := HyperMix.relu (HyperMix.dense (m ((c : Thread nD τ).loc main_arg1)) (m ((c : Thread nD τ).loc main_arg12)) (m ((c : Thread nD τ).loc main_arg13)))
def Y6 (c : Dev nD) : S16384x2048.Idx → EReal := HyperMix.dense (Y5 m c) (m ((c : Thread nD τ).loc main_arg14)) (m ((c : Thread nD τ).loc main_arg15))

/-! ## Region 0 -/

theorem in0_x (c : Dev nD) : V1 m ρ c main_arg1 = (m ((c : Thread nD τ).loc main_arg1)) := Walk.arg1_1_0 m ρ c
theorem in0_w (c : Dev nD) : (V1 m ρ c main_v0 : S512x2048.Idx → EReal) = (m ((c : Thread nD τ).loc main_arg2)) := by
  show StableHlo.after hostOps0 (W0 m ρ c) (Proc.devRef .tc main_v0) = _
  after_results
  exact rfl
theorem in0_b (c : Dev nD) :
    (fun j : S2048.Idx => (V1 m ρ c main_v1 : S1x2048.Idx → EReal) (ix2 (0 : Fin 1) (j 0))) = (m ((c : Thread nD τ).loc main_arg3)) := by
  have e : (V1 m ρ c main_v1 : S1x2048.Idx → EReal)
      = fun i => shapeCast S1x2048 (W0 m ρ c (Proc.devRef .tc main_arg3)) shapeCasts_S2048_S1x2048 i := by
    show StableHlo.after hostOps0 (W0 m ρ c) (Proc.devRef .tc main_v1) = _
    after_results
    rfl
  rw [e]
  exact (RowOfFlat.eq _ _).trans rfl
/-- What region 0 leaves in its result array. -/
theorem out0 (c : Dev nD) : W2 m ρ c (Proc.devRef .tc main_v2) = Y0 m c := by
  refine (W2_arr m ρ c 3).trans ((Dense0.final (V1 m ρ) c).trans ?_)
  unfold Dense0.G Y0
  rw [in0_x m ρ c, in0_w m ρ c, in0_b m ρ c]

/-! ## Region 1 -/

theorem in1_x (c : Dev nD) : V3 m ρ c main_v2 = Y0 m c := (Walk.v2_3_2 m ρ c).trans (out0 m ρ c)
theorem in1_w (c : Dev nD) : (V3 m ρ c main_v3 : S2048x2048.Idx → EReal) = (m ((c : Thread nD τ).loc main_arg4)) := by
  show StableHlo.after hostOps1 (W2 m ρ c) (Proc.devRef .tc main_v3) = _
  after_results
  exact Walk.arg4_2_0 m ρ c
theorem in1_b (c : Dev nD) :
    (fun j : S2048.Idx => (V3 m ρ c main_v4 : S1x2048.Idx → EReal) (ix2 (0 : Fin 1) (j 0))) = (m ((c : Thread nD τ).loc main_arg5)) := by
  have e : (V3 m ρ c main_v4 : S1x2048.Idx → EReal)
      = fun i => shapeCast S1x2048 (W2 m ρ c (Proc.devRef .tc main_arg5)) shapeCasts_S2048_S1x2048 i := by
    show StableHlo.after hostOps1 (W2 m ρ c) (Proc.devRef .tc main_v4) = _
    after_results
    rfl
  rw [e]
  exact (RowOfFlat.eq _ _).trans (Walk.arg5_2_0 m ρ c)
/-- What region 1 leaves in its result array. -/
theorem out1 (c : Dev nD) : W4 m ρ c (Proc.devRef .tc main_v5) = Y1 m c := by
  refine (W4_arr m ρ c 3).trans ((Dense1.final (V3 m ρ) c).trans ?_)
  unfold Dense1.G Y1
  rw [in1_x m ρ c, in1_w m ρ c, in1_b m ρ c]

/-! ## Region 2 -/

theorem in2_x (c : Dev nD) : V5 m ρ c main_arg1 = (m ((c : Thread nD τ).loc main_arg1)) := Walk.arg1_5_0 m ρ c
theorem in2_w (c : Dev nD) : (V5 m ρ c main_v7 : S512x1024.Idx → EReal) = (m ((c : Thread nD τ).loc main_arg6)) := by
  show StableHlo.after hostOps2 (W4 m ρ c) (Proc.devRef .tc main_v7) = _
  after_results
  exact Walk.arg6_4_0 m ρ c
theorem in2_b (c : Dev nD) :
    (fun j : S1024.Idx => (V5 m ρ c main_v8 : S1x1024.Idx → EReal) (ix2 (0 : Fin 1) (j 0))) = (m ((c : Thread nD τ).loc main_arg7)) := by
  have e : (V5 m ρ c main_v8 : S1x1024.Idx → EReal)
      = fun i => shapeCast S1x1024 (W4 m ρ c (Proc.devRef .tc main_arg7)) shapeCasts_S1024_S1x1024 i := by
    show StableHlo.after hostOps2 (W4 m ρ c) (Proc.devRef .tc main_v8) = _
    after_results
    rfl
  rw [e]
  exact (RowOfFlat.eq _ _).trans (Walk.arg7_4_0 m ρ c)
/-- What region 2 leaves in its result array. -/
theorem out2 (c : Dev nD) : W6 m ρ c (Proc.devRef .tc main_v9) = Y2 m c := by
  refine (W6_arr m ρ c 3).trans ((Dense2.final (V5 m ρ) c).trans ?_)
  unfold Dense2.G Y2
  rw [in2_x m ρ c, in2_w m ρ c, in2_b m ρ c]

/-! ## Region 3 -/

theorem in3_x (c : Dev nD) : V7 m ρ c main_arg1 = (m ((c : Thread nD τ).loc main_arg1)) := Walk.arg1_7_0 m ρ c
theorem in3_w (c : Dev nD) : (V7 m ρ c main_v11 : S512x4096.Idx → EReal) = (m ((c : Thread nD τ).loc main_arg8)) := by
  show StableHlo.after hostOps3 (W6 m ρ c) (Proc.devRef .tc main_v11) = _
  after_results
  exact Walk.arg8_6_0 m ρ c
theorem in3_b (c : Dev nD) :
    (fun j : S4096.Idx => (V7 m ρ c main_v12 : S1x4096.Idx → EReal) (ix2 (0 : Fin 1) (j 0))) = (m ((c : Thread nD τ).loc main_arg9)) := by
  have e : (V7 m ρ c main_v12 : S1x4096.Idx → EReal)
      = fun i => shapeCast S1x4096 (W6 m ρ c (Proc.devRef .tc main_arg9)) shapeCasts_S4096_S1x4096 i := by
    show StableHlo.after hostOps3 (W6 m ρ c) (Proc.devRef .tc main_v12) = _
    after_results
    rfl
  rw [e]
  exact (RowOfFlat.eq _ _).trans (Walk.arg9_6_0 m ρ c)
/-- What region 3 leaves in its result array. -/
theorem out3 (c : Dev nD) : W8 m ρ c (Proc.devRef .tc main_v13) = Y3 m c := by
  refine (W8_arr m ρ c 3).trans ((Dense3.final (V7 m ρ) c).trans ?_)
  unfold Dense3.G Y3
  rw [in3_x m ρ c, in3_w m ρ c, in3_b m ρ c]

/-! ## Region 4 -/

theorem in4_x (c : Dev nD) : V9 m ρ c main_v13 = Y3 m c := (Walk.v13_9_8 m ρ c).trans (out3 m ρ c)
theorem in4_w (c : Dev nD) : (V9 m ρ c main_v14 : S4096x2048.Idx → EReal) = (m ((c : Thread nD τ).loc main_arg10)) := by
  show StableHlo.after hostOps4 (W8 m ρ c) (Proc.devRef .tc main_v14) = _
  after_results
  exact Walk.arg10_8_0 m ρ c
theorem in4_b (c : Dev nD) :
    (fun j : S2048.Idx => (V9 m ρ c main_v15 : S1x2048.Idx → EReal) (ix2 (0 : Fin 1) (j 0))) = (m ((c : Thread nD τ).loc main_arg11)) := by
  have e : (V9 m ρ c main_v15 : S1x2048.Idx → EReal)
      = fun i => shapeCast S1x2048 (W8 m ρ c (Proc.devRef .tc main_arg11)) shapeCasts_S2048_S1x2048 i := by
    show StableHlo.after hostOps4 (W8 m ρ c) (Proc.devRef .tc main_v15) = _
    after_results
    rfl
  rw [e]
  exact (RowOfFlat.eq _ _).trans (Walk.arg11_8_0 m ρ c)
/-- What region 4 leaves in its result array. -/
theorem out4 (c : Dev nD) : W10 m ρ c (Proc.devRef .tc main_v16) = Y4 m c := by
  refine (W10_arr m ρ c 3).trans ((Dense4.final (V9 m ρ) c).trans ?_)
  unfold Dense4.G Y4
  rw [in4_x m ρ c, in4_w m ρ c, in4_b m ρ c]

/-! ## Region 5 -/

theorem in5_x (c : Dev nD) : V11 m ρ c main_arg1 = (m ((c : Thread nD τ).loc main_arg1)) := Walk.arg1_11_0 m ρ c
theorem in5_w (c : Dev nD) : (V11 m ρ c main_v18 : S512x1024.Idx → EReal) = (m ((c : Thread nD τ).loc main_arg12)) := by
  show StableHlo.after hostOps5 (W10 m ρ c) (Proc.devRef .tc main_v18) = _
  after_results
  exact Walk.arg12_10_0 m ρ c
theorem in5_b (c : Dev nD) :
    (fun j : S1024.Idx => (V11 m ρ c main_v19 : S1x1024.Idx → EReal) (ix2 (0 : Fin 1) (j 0))) = (m ((c : Thread nD τ).loc main_arg13)) := by
  have e : (V11 m ρ c main_v19 : S1x1024.Idx → EReal)
      = fun i => shapeCast S1x1024 (W10 m ρ c (Proc.devRef .tc main_arg13)) shapeCasts_S1024_S1x1024 i := by
    show StableHlo.after hostOps5 (W10 m ρ c) (Proc.devRef .tc main_v19) = _
    after_results
    rfl
  rw [e]
  exact (RowOfFlat.eq _ _).trans (Walk.arg13_10_0 m ρ c)
/-- What region 5 leaves in its result array. -/
theorem out5 (c : Dev nD) : W12 m ρ c (Proc.devRef .tc main_v20) = Y5 m c := by
  refine (W12_arr m ρ c 3).trans ((Dense5.final (V11 m ρ) c).trans ?_)
  unfold Dense5.G Y5
  rw [in5_x m ρ c, in5_w m ρ c, in5_b m ρ c]

/-! ## Region 6 -/

theorem in6_x (c : Dev nD) : V13 m ρ c main_v20 = Y5 m c := (Walk.v20_13_12 m ρ c).trans (out5 m ρ c)
theorem in6_w (c : Dev nD) : (V13 m ρ c main_v21 : S1024x2048.Idx → EReal) = (m ((c : Thread nD τ).loc main_arg14)) := by
  show StableHlo.after hostOps6 (W12 m ρ c) (Proc.devRef .tc main_v21) = _
  after_results
  exact Walk.arg14_12_0 m ρ c
theorem in6_b (c : Dev nD) :
    (fun j : S2048.Idx => (V13 m ρ c main_v22 : S1x2048.Idx → EReal) (ix2 (0 : Fin 1) (j 0))) = (m ((c : Thread nD τ).loc main_arg15)) := by
  have e : (V13 m ρ c main_v22 : S1x2048.Idx → EReal)
      = fun i => shapeCast S1x2048 (W12 m ρ c (Proc.devRef .tc main_arg15)) shapeCasts_S2048_S1x2048 i := by
    show StableHlo.after hostOps6 (W12 m ρ c) (Proc.devRef .tc main_v22) = _
    after_results
    rfl
  rw [e]
  exact (RowOfFlat.eq _ _).trans (Walk.arg15_12_0 m ρ c)
/-- What region 6 leaves in its result array. -/
theorem out6 (c : Dev nD) : W14 m ρ c (Proc.devRef .tc main_v23) = Y6 m c := by
  refine (W14_arr m ρ c 3).trans ((Dense6.final (V13 m ρ) c).trans ?_)
  unfold Dense6.G Y6
  rw [in6_x m ρ c, in6_w m ρ c, in6_b m ρ c]

/-! ## What region 7 finds in its five input arrays -/

theorem in7_e (c : Dev nD) : V15 m ρ c main_arg0 = (m ((c : Thread nD τ).loc main_arg0)) := Walk.arg0_15_0 m ρ c

theorem in7_w1 (c : Dev nD) :
    (V15 m ρ c main_v6 : S16384x64x32.Idx → EReal) = HyperMix.relay shapeCasts_S16384x2048_S16384x64x32 (Y1 m c) := by
  refine (Walk.v6_15_5 m ρ c).trans ?_
  show StableHlo.after hostOps2 (W4 m ρ c) (Proc.devRef .tc main_v6) = _
  after_results
  rw [out1 m ρ c]
  rfl

theorem in7_b1 (c : Dev nD) :
    (V15 m ρ c main_v10 : S16384x32x32.Idx → EReal) = HyperMix.relay shapeCasts_S16384x1024_S16384x32x32 (Y2 m c) := by
  refine (Walk.v10_15_7 m ρ c).trans ?_
  show StableHlo.after hostOps3 (W6 m ρ c) (Proc.devRef .tc main_v10) = _
  after_results
  rw [out2 m ρ c]
  rfl

theorem in7_w2 (c : Dev nD) :
    (V15 m ρ c main_v17 : S16384x32x64.Idx → EReal) = HyperMix.relay shapeCasts_S16384x2048_S16384x32x64 (Y4 m c) := by
  refine (Walk.v17_15_11 m ρ c).trans ?_
  show StableHlo.after hostOps5 (W10 m ρ c) (Proc.devRef .tc main_v17) = _
  after_results
  rw [out4 m ρ c]
  rfl

theorem in7_b2 (c : Dev nD) :
    (V15 m ρ c main_v24 : S16384x32x64.Idx → EReal) = HyperMix.relay shapeCasts_S16384x2048_S16384x32x64 (Y6 m c) := by
  show StableHlo.after hostOps7 (W14 m ρ c) (Proc.devRef .tc main_v24) = _
  after_results
  rw [out6 m ρ c]
  rfl

end Cert.KernelIdeal.Chain

end
-- ==== Proof.LibContract.lean ====
/-
  Contractions read at an entry, over the extended reals.

  * The host's plain matrix product `[M, K] × [K, N] → [M, N]` at the entry `(p, q)` is `∑ k, lhs (p, k) * rhs (k, q)`,
    the same sum a kernel's product into the zero matrix has there.
  * A batched product `[B, M, K] × [B, K, N] → [B, M, N]` — one batch axis in front, the left operand's last axis
    contracted with the right operand's middle axis — at the entry `(b, p, q)` is `∑ k, lhs (b, p, k) * rhs (b, k, q)`,
    whether a kernel takes it into the zero array or the host takes it.
-/
import Idealize.ShloMosaic.PureOps.Ideal.Laws
import Idealize.ShloMosaic.Lib.ValueIdx
import proofs.«166068_j82617990906012_2_alg».proof.Proof.LibMatmul

noncomputable section

open scoped BigOperators
open Idealize.ShloMosaic Idealize.ShloMosaic.ValueIdx

namespace PlainMatmul

variable {M K N : ℕ}
variable {d : DotDims (⟨2, ![M, K]⟩ : Shape) (⟨2, ![K, N]⟩ : Shape) (⟨2, ![M, N]⟩ : Shape)}

/-- The left operand's index at the entry `(p, q)` and the contraction position `k` is `(p, k)`. -/
theorem IsPlain.lhsIdx_eq (h : IsPlain d) (p : Fin M) (q : Fin N) (k : Fin K) :
    d.lhsIdx (ix2 p q) ((contrEquiv1 d K h.rank h.size).symm k) = ix2 p k := by
  funext a
  apply Fin.ext
  match a with
  | ⟨0, _⟩ => exact h.lhs_row _ _
  | ⟨1, _⟩ => exact (d.lhsIdx_val_of_single h.lc _ _).trans (contrEquiv1_symm_val d K h.rank h.size k)

/-- The right operand's is `(k, q)`. -/
theorem IsPlain.rhsIdx_eq (h : IsPlain d) (p : Fin M) (q : Fin N) (k : Fin K) :
    d.rhsIdx (ix2 p q) ((contrEquiv1 d K h.rank h.size).symm k) = ix2 k q := by
  funext a
  apply Fin.ext
  match a with
  | ⟨0, _⟩ => exact (d.rhsIdx_val_of_single h.rc _ _).trans (contrEquiv1_symm_val d K h.rank h.size k)
  | ⟨1, _⟩ => exact h.rhs_col _ _

/-- The host's plain product at the entry `(p, q)`: the sum over the contracted axis. -/
theorem dot_apply {φ₁ φ₂ : FTy} (h : IsPlain d) (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral d prec sched lhs rhs (ix2 p q)
      = ∑ k : Fin K, (lhs (ix2 p k) : EReal) * (rhs (ix2 k q) : EReal) := by
  rw [Ideal.dotGeneral_apply]
  rw [← Equiv.sum_comp (contrEquiv1 d K h.rank h.size).symm]
  refine Finset.sum_congr rfl fun k _ => ?_
  rw [h.lhsIdx_eq, h.rhsIdx_eq]

end PlainMatmul

namespace BatchMatmul

variable {B M K N : ℕ}

/-- The dimension numbers of a batched product: the batch axis in front on both sides and in the result, the left
    operand's last axis contracted with the right operand's middle axis. -/
structure IsBatched (d : DotDims (⟨3, ![B, M, K]⟩ : Shape) (⟨3, ![B, K, N]⟩ : Shape) (⟨3, ![B, M, N]⟩ : Shape)) : Prop where
  lc : d.lhsContracting = [2]
  rc : d.rhsContracting = [1]
  ln : d.lhsNonContracting = [1]
  rn : d.rhsNonContracting = [2]
  lb : d.lhsBatch = [0]
  rb : d.rhsBatch = [0]

variable {d : DotDims (⟨3, ![B, M, K]⟩ : Shape) (⟨3, ![B, K, N]⟩ : Shape) (⟨3, ![B, M, N]⟩ : Shape)}

theorem IsBatched.rank (h : IsBatched d) : d.contr.rank = 1 := by rw [d.rank_contr, h.lc]; rfl

theorem IsBatched.size (h : IsBatched d) : d.contr.size ⟨0, by rw [h.rank]; exact Nat.one_pos⟩ = K := by
  rw [d.size_contr 0 (by rw [h.lc]; exact Nat.one_pos)]
  simp only [h.lc]
  rfl

private theorem coord_congr (j : (⟨3, ![B, M, N]⟩ : Shape).Idx) (p q : Nat) (hp : p < (⟨3, ![B, M, N]⟩ : Shape).rank)
    (hq : q < (⟨3, ![B, M, N]⟩ : Shape).rank) (e : p = q) : (j ⟨p, hp⟩).val = (j ⟨q, hq⟩).val := by subst e; rfl

/-- The left operand is read in the batch of the output entry … -/
theorem IsBatched.lhs_batch (h : IsBatched d) (j : (⟨3, ![B, M, N]⟩ : Shape).Idx) (k : d.contr.Idx) :
    (d.lhsIdx j k 0).val = (j 0).val := by
  unfold DotDims.lhsIdx
  rw [dif_pos (by rw [h.lb]; exact List.mem_singleton.mpr rfl)]
  simp only [Fin.val_cast]
  exact coord_congr j _ _ _ _ (by simp [h.lb])

/-- … at its row … -/
theorem IsBatched.lhs_row (h : IsBatched d) (j : (⟨3, ![B, M, N]⟩ : Shape).Idx) (k : d.contr.Idx) :
    (d.lhsIdx j k 1).val = (j 1).val := by
  unfold DotDims.lhsIdx
  rw [dif_neg (by rw [h.lb]; exact fun hmem => Nat.one_ne_zero (congrArg Fin.val (List.mem_singleton.mp hmem))),
    dif_pos (by rw [h.ln]; exact List.mem_singleton.mpr rfl)]
  simp only [Fin.val_cast]
  exact coord_congr j _ _ _ _ (by simp [h.lb, h.ln])

/-- … the right operand in the same batch … -/
theorem IsBatched.rhs_batch (h : IsBatched d) (j : (⟨3, ![B, M, N]⟩ : Shape).Idx) (k : d.contr.Idx) :
    (d.rhsIdx j k 0).val = (j 0).val := by
  unfold DotDims.rhsIdx
  rw [dif_pos (by rw [h.rb]; exact List.mem_singleton.mpr rfl)]
  simp only [Fin.val_cast]
  exact coord_congr j _ _ _ _ (by simp [h.rb])

/-- … at its column. -/
theorem IsBatched.rhs_col (h : IsBatched d) (j : (⟨3, ![B, M, N]⟩ : Shape).Idx) (k : d.contr.Idx) :
    (d.rhsIdx j k 2).val = (j 2).val := by
  unfold DotDims.rhsIdx
  rw [dif_neg (by rw [h.rb]; exact fun hmem => (by decide : (2 : ℕ) ≠ 0) (congrArg Fin.val (List.mem_singleton.mp hmem))),
    dif_pos (by rw [h.rn]; exact List.mem_singleton.mpr rfl)]
  simp only [Fin.val_cast]
  exact coord_congr j _ _ _ _ (by simp [h.lb, h.ln, h.rn])

/-- The left operand's index at the entry `(b, p, q)` and the contraction position `k` is `(b, p, k)`. -/
theorem IsBatched.lhsIdx_eq (h : IsBatched d) (b : Fin B) (p : Fin M) (q : Fin N) (k : Fin K) :
    d.lhsIdx (ix3 b p q) ((contrEquiv1 d K h.rank h.size).symm k) = ix3 b p k := by
  funext a
  apply Fin.ext
  match a with
  | ⟨0, _⟩ => exact h.lhs_batch _ _
  | ⟨1, _⟩ => exact h.lhs_row _ _
  | ⟨2, _⟩ => exact (d.lhsIdx_val_of_single h.lc _ _).trans (contrEquiv1_symm_val d K h.rank h.size k)

/-- The right operand's is `(b, k, q)`. -/
theorem IsBatched.rhsIdx_eq (h : IsBatched d) (b : Fin B) (p : Fin M) (q : Fin N) (k : Fin K) :
    d.rhsIdx (ix3 b p q) ((contrEquiv1 d K h.rank h.size).symm k) = ix3 b k q := by
  funext a
  apply Fin.ext
  match a with
  | ⟨0, _⟩ => exact h.rhs_batch _ _
  | ⟨1, _⟩ => exact (d.rhsIdx_val_of_single h.rc _ _).trans (contrEquiv1_symm_val d K h.rank h.size k)
  | ⟨2, _⟩ => exact h.rhs_col _ _

/-- A kernel's batched product into the zero array, at the entry `(b, p, q)`. -/
theorem apply {φ₁ φ₂ : FTy} (h : IsBatched d) (prec : Option ContractPrecision)
    (lhs : FVec Ideal (⟨3, ![B, M, K]⟩ : Shape) φ₁) (rhs : FVec Ideal (⟨3, ![B, K, N]⟩ : Shape) φ₂)
    (b : Fin B) (p : Fin M) (q : Fin N) :
    FloatOps.matmul d prec lhs rhs (constant (⟨3, ![B, M, N]⟩ : Shape) .f32 0x00000000#32) (ix3 b p q)
      = ∑ k : Fin K, (lhs (ix3 b p k) : EReal) * (rhs (ix3 b k q) : EReal) := by
  rw [Ideal.matmul_constant_zero_apply]
  rw [← Equiv.sum_comp (contrEquiv1 d K h.rank h.size).symm]
  refine Finset.sum_congr rfl fun k _ => ?_
  rw [h.lhsIdx_eq, h.rhsIdx_eq]

/-- The host's batched product at the entry `(b, p, q)`: the same sum. -/
theorem dot_apply {φ₁ φ₂ : FTy} (h : IsBatched d) (prec : Option ContractPrecision) (sched : HostSchedule)
    (lhs : FVec Ideal (⟨3, ![B, M, K]⟩ : Shape) φ₁) (rhs : FVec Ideal (⟨3, ![B, K, N]⟩ : Shape) φ₂)
    (b : Fin B) (p : Fin M) (q : Fin N) :
    FloatOps.dotGeneral d prec sched lhs rhs (ix3 b p q)
      = ∑ k : Fin K, (lhs (ix3 b p k) : EReal) * (rhs (ix3 b k q) : EReal) := by
  rw [Ideal.dotGeneral_apply]
  rw [← Equiv.sum_comp (contrEquiv1 d K h.rank h.size).symm]
  refine Finset.sum_congr rfl fun k _ => ?_
  rw [h.lhsIdx_eq, h.rhsIdx_eq]

end BatchMatmul

end
-- ==== Proof.MixPayload.lean ====
/-
  The mixing kernel's body, read as mathematics.

  One run of the body takes a block of 128 samples: the embeddings `E` (32 × 64 per sample) and the four per-sample
  matrices `W₁` (64 × 32), `B₁` (32 × 32), `W₂` (32 × 64), `B₂` (32 × 64).  What it stores is, entry by entry,

      logistic (O · min (1, 5 / (max over the 32 rows of |O| + ε))),   O = elu (E · W₁ + B₁) · W₂ + B₂,

  that is `HyperMix.mix` of the five blocks.  The two batched products are read at an entry as finite sums, the
  exponential linear unit by cases on the sign, the column maximum as a fold of `max` over the 32 rows, and the
  keep-the-axis reshaping and its broadcast back over the rows by the coordinates they move.
-/
import proofs.«166068_j82617990906012_2_alg».proof.Proof.Spec
import proofs.«166068_j82617990906012_2_alg».proof.Proof.LibContract
import proofs.«166068_j82617990906012_2_alg».proof.Proof.Gen.KernelIdeal.Skeleton
import Idealize.ShloMosaic.Lib.ValueLayout

noncomputable section

open scoped BigOperators
open Idealize.ShloMosaic Idealize.ShloMosaic.ValueIdx
open Cert.KernelIdeal Cert.KernelIdeal.Gen

namespace Cert.KernelIdeal.MixRegion

/-! ## Scalars -/

/-- The exponential linear unit as the kernel spells it: a choice on `x > 0` between `x` and `exp (min x 0) - 1`. -/
theorem elu_select (y : EReal) :
    Scalar.select (Ideal.cmp .ogt y HyperMix.zero) y (Ideal.exp (min y HyperMix.zero) - HyperMix.one) = HyperMix.elu y := by
  rw [HyperMix.zero_eq, HyperMix.one_eq]
  unfold HyperMix.elu Ideal.cmp
  by_cases h : (0 : EReal) < y
  · rw [if_pos h]
    simp only [h, decide_true]
    exact select_one _ _
  · rw [if_neg h]
    simp only [h, decide_false]
    rw [min_eq_left (not_lt.mp h)]
    exact select_zero _ _

/-! ## The layout steps around the column maximum -/

/-- An `[a, c]` array cast to `[a, 1, c]` reads, at `(i, u, j)`, the operand at `(i, j)`. -/
theorem shapeCast_ac_a1c_apply {α : Type} {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An `[a, 1, c]` array broadcast to `[a, b, c]` reads, at `(i, p, j)`, the operand's one row at `(i, j)`. -/
theorem broadcastTo_a1c_abc_apply {α : Type} {a b c : ℕ} (v : (⟨3, ![a, 1, c]⟩ : Shape).Idx → α)
    (h : (⟨3, ![a, 1, c]⟩ : Shape).Broadcasts ⟨3, ![a, b, c]⟩) (i : Fin a) (p : Fin b) (j : Fin c) :
    broadcastTo ⟨3, ![a, b, c]⟩ v h (ix3 i p j) = v (ix3 i (0 : Fin 1) j) := by
  refine broadcastTo_apply v h (ix3 i p j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- The source index of a reduction over the middle axis: the kept coordinates with the row put back. -/
theorem lift_mid {a b c : ℕ} (h : (⟨3, ![a, b, c]⟩ : Shape).Reduces [1] ⟨2, ![a, c]⟩) (i : Fin a) (j : Fin c) (k : Fin b) :
    h.lift (ix2 i j) k = ix3 i k j := by
  funext ax
  apply Fin.ext
  match ax with
  | ⟨0, _⟩ => rfl
  | ⟨1, _⟩ => rfl
  | ⟨2, _⟩ => rfl

/-- A maximum over the middle axis from `-∞`, read at `(i, j)`: the fold of `max` over the rows. -/
theorem max_mid_apply {a b c : ℕ} (src : FVec Ideal (⟨3, ![a, b, c]⟩ : Shape) .f32)
    (h : (⟨3, ![a, b, c]⟩ : Shape).Reduces [1] ⟨2, ![a, c]⟩) (hφ : FKind.Formats .f32)
    (hacc : (0xFF800000#32 : BitVec FTy.f32.bits) = FKind.maximumf.neutral .f32 hφ) (i : Fin a) (j : Fin c) :
    multiReduction .maximumf [1] ⟨2, ![a, c]⟩ src 0xFF800000#32 h hφ hacc (ix2 i j)
      = (Finset.univ : Finset (Fin b)).fold max HyperMix.negInf (fun k => src (ix3 i k j)) := by
  refine (Ideal.multiReduction_maximumf_single src 0xFF800000#32 h hφ hacc (ix2 i j)).trans ?_
  refine congrArg (fun g => (Finset.univ : Finset (Fin b)).fold max HyperMix.negInf g) ?_
  funext k
  exact congrArg src (lift_mid h i j k)

/-! ## The body's arithmetic, named step by step -/

/-- `E · W₁ + B₁`, as the body computes it (the operands pass through a narrower format, which changes nothing here). -/
def pre (x0 : Vec Ideal S128x32x64 .f32) (x1 : Vec Ideal S128x64x32 .f32) (x2 : Vec Ideal S128x32x32 .f32) :
    FVec Ideal S128x32x32 .f32 :=
  addf (FloatOps.matmul dot_S128x32x64_S128x64x32_S128x32x32_2_1_1_2_0_0 none
      (truncf .bf16 x0 bitsLt_bf16_f32)
      (truncf .bf16 (shapeCast S128x64x32 x1 shapeCasts_S128x64x32_S128x64x32) bitsLt_bf16_f32)
      (constant S128x32x32 .f32 0x00000000#32))
    (shapeCast S128x32x32 x2 shapeCasts_S128x32x32_S128x32x32)

/-- The hidden activations: the unit applied to `pre`, as a choice on `pre > 0`. -/
def hid (x0 : Vec Ideal S128x32x64 .f32) (x1 : Vec Ideal S128x64x32 .f32) (x2 : Vec Ideal S128x32x32 .f32) :
    FVec Ideal S128x32x32 .f32 :=
  select (cmpf .ogt (pre x0 x1 x2) (broadcast S128x32x32 (Scalar.ofBits .f32 0x00000000#32)))
    (pre x0 x1 x2)
    (subf (exp (minimumf (pre x0 x1 x2) (broadcast S128x32x32 (Scalar.ofBits .f32 0x00000000#32))))
      (broadcast S128x32x32 (Scalar.ofBits .f32 0x3F800000#32)))

/-- The column scale from the mixed output `o`: `min (1, 5 / (max over the rows of |o| + ε))`, one number per
    column, repeated down the rows. -/
def scaleV (o : FVec Ideal S128x32x64 .f32) : FVec Ideal S128x32x64 .f32 :=
  broadcastTo S128x32x64
    (minimumf (broadcast S128x1x64 (Scalar.ofBits .f32 0x3F800000#32))
      (divf (broadcast S128x1x64 (Scalar.ofBits .f32 0x40A00000#32))
        (addf (shapeCast S128x1x64
            (multiReduction .maximumf [1] S128x64 (absf o) 0xFF800000#32 reduces_S128x32x64_S128x64 (.inl rfl) rfl)
            shapeCasts_S128x64_S128x1x64)
          (broadcast S128x1x64 (Scalar.ofBits .f32 0x3727C5AC#32)))))
    broadcasts_S128x1x64_S128x32x64

/-- The body's pre-normalisation value is the second product over the hidden activations, plus its bias. -/
theorem pay2_unfold (x0 : Vec Ideal S128x32x64 .f32) (x1 : Vec Ideal S128x64x32 .f32) (x2 : Vec Ideal S128x32x32 .f32)
    (x3 x4 : Vec Ideal S128x32x64 .f32) :
    k7_pay2 x0 x1 x2 x3 x4
      = addf (FloatOps.matmul dot_S128x32x32_S128x32x64_S128x32x64_2_1_1_2_0_0 none
          (truncf .bf16 (hid x0 x1 x2) bitsLt_bf16_f32)
          (truncf .bf16 (shapeCast S128x32x64 x3 shapeCasts_S128x32x64_S128x32x64) bitsLt_bf16_f32)
          (constant S128x32x64 .f32 0x00000000#32))
        (shapeCast S128x32x64 x4 shapeCasts_S128x32x64_S128x32x64) := rfl

/-- The body's scale is `scaleV` of its pre-normalisation value. -/
theorem pay3_unfold (x0 : Vec Ideal S128x32x64 .f32) (x1 : Vec Ideal S128x64x32 .f32) (x2 : Vec Ideal S128x32x32 .f32)
    (x3 x4 : Vec Ideal S128x32x64 .f32) :
    k7_pay3 x0 x1 x2 x3 x4 = scaleV (k7_pay2 x0 x1 x2 x3 x4) := rfl

/-! ## Each step read at an entry -/

theorem isBatched1 : BatchMatmul.IsBatched dot_S128x32x64_S128x64x32_S128x32x32_2_1_1_2_0_0 := ⟨rfl, rfl, rfl, rfl, rfl, rfl⟩
theorem isBatched2 : BatchMatmul.IsBatched dot_S128x32x32_S128x32x64_S128x32x64_2_1_1_2_0_0 := ⟨rfl, rfl, rfl, rfl, rfl, rfl⟩

/-- `pre` at the entry `(b, v, h)`: row `v` of `E` against column `h` of `W₁`, plus `B₁`'s entry. -/
theorem pre_apply (x0 : Vec Ideal S128x32x64 .f32) (x1 : Vec Ideal S128x64x32 .f32) (x2 : Vec Ideal S128x32x32 .f32)
    (b : Fin 128) (v : Fin 32) (h : Fin 32) :
    pre x0 x1 x2 (ix3 b v h) = (∑ a : Fin 64, x0 (ix3 b v a) * x1 (ix3 b a h)) + x2 (ix3 b v h) := by
  unfold pre
  rw [shapeCast_self, shapeCast_self]
  exact congrArg (· + x2 (ix3 b v h)) (BatchMatmul.apply isBatched1 none _ _ b v h)

/-- The hidden activations at an entry are the specification's. -/
theorem hid_apply (x0 : Vec Ideal S128x32x64 .f32) (x1 : Vec Ideal S128x64x32 .f32) (x2 : Vec Ideal S128x32x32 .f32)
    (b : Fin 128) (v : Fin 32) (h : Fin 32) :
    hid x0 x1 x2 (ix3 b v h) = HyperMix.hidden x0 x1 x2 (ix3 b v h) := by
  show Scalar.select (Ideal.cmp .ogt (pre x0 x1 x2 (ix3 b v h)) HyperMix.zero) (pre x0 x1 x2 (ix3 b v h))
      (Ideal.exp (min (pre x0 x1 x2 (ix3 b v h)) HyperMix.zero) - HyperMix.one) = _
  rw [elu_select, pre_apply, HyperMix.hidden_ix3]

/-- The pre-normalisation value at an entry is the specification's mixed output. -/
theorem pay2_apply (x0 : Vec Ideal S128x32x64 .f32) (x1 : Vec Ideal S128x64x32 .f32) (x2 : Vec Ideal S128x32x32 .f32)
    (x3 x4 : Vec Ideal S128x32x64 .f32) (b : Fin 128) (v : Fin 32) (f : Fin 64) :
    k7_pay2 x0 x1 x2 x3 x4 (ix3 b v f) = HyperMix.mixed (HyperMix.hidden x0 x1 x2) x3 x4 (ix3 b v f) := by
  rw [pay2_unfold, shapeCast_self, shapeCast_self, HyperMix.mixed_ix3]
  refine (congrArg (· + x4 (ix3 b v f)) (BatchMatmul.apply isBatched2 none _ _ b v f)).trans ?_
  refine congrArg (· + x4 (ix3 b v f)) (Finset.sum_congr rfl fun k _ => ?_)
  exact congrArg (· * x3 (ix3 b k f)) (hid_apply x0 x1 x2 b v k)

/-- So the pre-normalisation value IS the specification's mixed output. -/
theorem pay2_eq (x0 : Vec Ideal S128x32x64 .f32) (x1 : Vec Ideal S128x64x32 .f32) (x2 : Vec Ideal S128x32x32 .f32)
    (x3 x4 : Vec Ideal S128x32x64 .f32) :
    k7_pay2 x0 x1 x2 x3 x4 = HyperMix.mixed (HyperMix.hidden x0 x1 x2) x3 x4 := by
  funext j
  obtain ⟨b, v, f, rfl⟩ : ∃ (b : Fin 128) (v : Fin 32) (f : Fin 64), j = ix3 b v f := ⟨_, _, _, eq_ix3 j⟩
  exact pay2_apply x0 x1 x2 x3 x4 b v f

/-- The literals' words, as the specification names them. -/
theorem word_one : (Scalar.ofBits .f32 0x3F800000#32 : Ideal .f32) = HyperMix.one := rfl
theorem word_five : (Scalar.ofBits .f32 0x40A00000#32 : Ideal .f32) = HyperMix.five := rfl
theorem word_eps : (Scalar.ofBits .f32 0x3727C5AC#32 : Ideal .f32) = HyperMix.eps := rfl

/-- The scale at an entry: the specification's, of the column's largest magnitude. -/
theorem scaleV_apply (o : FVec Ideal S128x32x64 .f32) (b : Fin 128) (v : Fin 32) (f : Fin 64) :
    scaleV o (ix3 b v f) = HyperMix.scale (HyperMix.absMax o b f) := by
  unfold scaleV
  refine (broadcastTo_a1c_abc_apply _ _ b v f).trans ?_
  rw [minimumf_apply, divf_apply, addf_apply, broadcast_apply, broadcast_apply, broadcast_apply,
    shapeCast_ac_a1c_apply, word_one, word_five, word_eps]
  refine (congrArg (fun m => min HyperMix.one (Ideal.div HyperMix.five (m + HyperMix.eps)))
    (max_mid_apply (absf o) reduces_S128x32x64_S128x64 (.inl rfl) rfl b f)).trans ?_
  rfl

/-! ## The body's stored value -/

/-- WHAT THE BODY STORES, from the five blocks it loads: the mixing step of those blocks. -/
theorem payload_eq (x0 : Vec Ideal S128x32x64 .f32) (x1 : Vec Ideal S128x64x32 .f32) (x2 : Vec Ideal S128x32x32 .f32)
    (x3 x4 : Vec Ideal S128x32x64 .f32) :
    k7_pay1 (k7_pay2 x0 x1 x2 x3 x4) (k7_pay3 x0 x1 x2 x3 x4) = HyperMix.mix x0 x1 x2 x3 x4 := by
  rw [pay3_unfold, pay2_eq]
  funext j
  obtain ⟨b, v, f, rfl⟩ : ∃ (b : Fin 128) (v : Fin 32) (f : Fin 64), j = ix3 b v f := ⟨_, _, _, eq_ix3 j⟩
  show Ideal.logistic (HyperMix.mixed (HyperMix.hidden x0 x1 x2) x3 x4 (ix3 b v f)
      * scaleV (HyperMix.mixed (HyperMix.hidden x0 x1 x2) x3 x4) (ix3 b v f)) = _
  rw [scaleV_apply]
  rfl

end Cert.KernelIdeal.MixRegion

end
-- ==== Proof.MixArray.lean ====
/-
  From the body's blocks to the whole array.

  The mixing kernel runs over 128 grid points; point `t` stages samples `128 t … 128 t + 127` of each of its five
  input arrays, and writes samples `128 t … 128 t + 127` of the result.  The mixing step relates only entries of ONE
  sample, so the step of the blocks at point `t` is block `t` of the step of the whole arrays; the 128 blocks tile
  the 16384 samples, so after the last point the result array IS the step of the whole arrays.
-/
import proofs.«166068_j82617990906012_2_alg».proof.Proof.MixPayload
import proofs.«166068_j82617990906012_2_alg».proof.Proof.Gen.KernelIdeal.Frame
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.MixRegion

/-! ## The mixing step is sample by sample -/

/-- If five small arrays are the samples `σ b` of five large ones, the mixing step of the small arrays is, at sample
    `b`, the mixing step of the large ones at sample `σ b`. -/
theorem mix_restrict {B B' : ℕ} (E : HyperMix.Arr3 B 32 64) (W1 : HyperMix.Arr3 B 64 32) (B1 : HyperMix.Arr3 B 32 32)
    (W2 B2 : HyperMix.Arr3 B 32 64)
    (e : HyperMix.Arr3 B' 32 64) (w1 : HyperMix.Arr3 B' 64 32) (b1 : HyperMix.Arr3 B' 32 32) (w2 b2 : HyperMix.Arr3 B' 32 64)
    (σ : Fin B' → Fin B)
    (he : ∀ b v a, e (ix3 b v a) = E (ix3 (σ b) v a)) (hw1 : ∀ b a h, w1 (ix3 b a h) = W1 (ix3 (σ b) a h))
    (hb1 : ∀ b v h, b1 (ix3 b v h) = B1 (ix3 (σ b) v h)) (hw2 : ∀ b h f, w2 (ix3 b h f) = W2 (ix3 (σ b) h f))
    (hb2 : ∀ b v f, b2 (ix3 b v f) = B2 (ix3 (σ b) v f)) (b : Fin B') (v : Fin 32) (f : Fin 64) :
    HyperMix.mix e w1 b1 w2 b2 (ix3 b v f) = HyperMix.mix E W1 B1 W2 B2 (ix3 (σ b) v f) := by
  have hh : ∀ v h, HyperMix.hidden e w1 b1 (ix3 b v h) = HyperMix.hidden E W1 B1 (ix3 (σ b) v h) := fun v h => by
    simp only [HyperMix.hidden_ix3, he, hw1, hb1]
  have hm : ∀ v f, HyperMix.mixed (HyperMix.hidden e w1 b1) w2 b2 (ix3 b v f)
      = HyperMix.mixed (HyperMix.hidden E W1 B1) W2 B2 (ix3 (σ b) v f) := fun v f => by
    simp only [HyperMix.mixed_ix3, hh, hw2, hb2]
  unfold HyperMix.mix
  simp only [HyperMix.squash_ix3, HyperMix.absMax, hm]

/-! ## The windows' blocks -/

variable (V : (c : Dev nD) → (b : Ref sig .tc) → Buf (Elt Ideal) ((c : Thread nD τ).loc b))

theorem hz : (![0, 0, 0] : Fin 3 → Nat) = fun _ => 0 := funext fun a => by fin_cases a <;> rfl

/-- Every window of the mixing kernel moves with the grid point along the sample axis only: its block index at
    point `t` is `(t, 0, 0)` (decided over the 128 points). -/
theorem idx_facts : ∀ t : Fin cfg7.N,
    (win7_0.index t (0 : Fin 3) = t.val ∧ win7_0.index t (1 : Fin 3) = 0 ∧ win7_0.index t (2 : Fin 3) = 0)
    ∧ (win7_1.index t (0 : Fin 3) = t.val ∧ win7_1.index t (1 : Fin 3) = 0 ∧ win7_1.index t (2 : Fin 3) = 0)
    ∧ (win7_2.index t (0 : Fin 3) = t.val ∧ win7_2.index t (1 : Fin 3) = 0 ∧ win7_2.index t (2 : Fin 3) = 0)
    ∧ (win7_3.index t (0 : Fin 3) = t.val ∧ win7_3.index t (1 : Fin 3) = 0 ∧ win7_3.index t (2 : Fin 3) = 0)
    ∧ (win7_4.index t (0 : Fin 3) = t.val ∧ win7_4.index t (1 : Fin 3) = 0 ∧ win7_4.index t (2 : Fin 3) = 0)
    ∧ (win7_5.index t (0 : Fin 3) = t.val ∧ win7_5.index t (1 : Fin 3) = 0 ∧ win7_5.index t (2 : Fin 3) = 0) :=
  (by decide +kernel : ∀ t : Fin grid7.N, _)

theorem point_lt (t : Fin cfg7.N) : t.val < 128 := lt_of_lt_of_eq t.isLt N_7

/-- The sample of the whole arrays that sample `b` of a block at point `t` is. -/
def sample (t : Fin cfg7.N) (b : Fin 128) : Fin 16384 :=
  ⟨t.val * 128 + b.val, by have := point_lt t; have := b.isLt; omega⟩

/-- The embeddings' block at point `t` is samples `128 t …` of the embeddings. -/
theorem iblk_0_apply (c : Dev nD) (t : Fin cfg7.N) (b : Fin 128) (v : Fin 32) (a : Fin 64) :
    (iblk7 V c 0 t : Vec Ideal S128x32x64 .f32) (ix3 b v a)
      = (V c main_arg0 : S16384x32x64.Idx → Elt Ideal .f32) (ix3 (sample t b) v a) := by
  obtain ⟨e0, e1, e2⟩ := (idx_facts t).1
  unfold iblk7
  rw [View.read_apply]
  show V c main_arg0 _ = V c main_arg0 _
  refine congrArg (V c main_arg0) (funext fun ax => Fin.ext ?_)
  match ax with
  | ⟨0, _⟩ => show win7_0.index t (0 : Fin 3) * 128 + 1 * b.val = t.val * 128 + b.val; rw [e0]; omega
  | ⟨1, _⟩ => show win7_0.index t (1 : Fin 3) * 32 + 1 * v.val = v.val; rw [e1]; omega
  | ⟨2, _⟩ => show win7_0.index t (2 : Fin 3) * 64 + 1 * a.val = a.val; rw [e2]; omega

/-- The first weights' block at point `t` is samples `128 t …` of the first weights. -/
theorem iblk_1_apply (c : Dev nD) (t : Fin cfg7.N) (b : Fin 128) (a : Fin 64) (h : Fin 32) :
    (iblk7 V c 1 t : Vec Ideal S128x64x32 .f32) (ix3 b a h)
      = (V c main_v6 : S16384x64x32.Idx → Elt Ideal .f32) (ix3 (sample t b) a h) := by
  obtain ⟨e0, e1, e2⟩ := (idx_facts t).2.1
  unfold iblk7
  rw [View.read_apply]
  show V c main_v6 _ = V c main_v6 _
  refine congrArg (V c main_v6) (funext fun ax => Fin.ext ?_)
  match ax with
  | ⟨0, _⟩ => show win7_1.index t (0 : Fin 3) * 128 + 1 * b.val = t.val * 128 + b.val; rw [e0]; omega
  | ⟨1, _⟩ => show win7_1.index t (1 : Fin 3) * 64 + 1 * a.val = a.val; rw [e1]; omega
  | ⟨2, _⟩ => show win7_1.index t (2 : Fin 3) * 32 + 1 * h.val = h.val; rw [e2]; omega

/-- The first biases' block at point `t` is samples `128 t …` of the first biases. -/
theorem iblk_2_apply (c : Dev nD) (t : Fin cfg7.N) (b : Fin 128) (v : Fin 32) (h : Fin 32) :
    (iblk7 V c 2 t : Vec Ideal S128x32x32 .f32) (ix3 b v h)
      = (V c main_v10 : S16384x32x32.Idx → Elt Ideal .f32) (ix3 (sample t b) v h) := by
  obtain ⟨e0, e1, e2⟩ := (idx_facts t).2.2.1
  unfold iblk7
  rw [View.read_apply]
  show V c main_v10 _ = V c main_v10 _
  refine congrArg (V c main_v10) (funext fun ax => Fin.ext ?_)
  match ax with
  | ⟨0, _⟩ => show win7_2.index t (0 : Fin 3) * 128 + 1 * b.val = t.val * 128 + b.val; rw [e0]; omega
  | ⟨1, _⟩ => show win7_2.index t (1 : Fin 3) * 32 + 1 * v.val = v.val; rw [e1]; omega
  | ⟨2, _⟩ => show win7_2.index t (2 : Fin 3) * 32 + 1 * h.val = h.val; rw [e2]; omega

/-- The second weights' block at point `t` is samples `128 t …` of the second weights. -/
theorem iblk_3_apply (c : Dev nD) (t : Fin cfg7.N) (b : Fin 128) (h : Fin 32) (f : Fin 64) :
    (iblk7 V c 3 t : Vec Ideal S128x32x64 .f32) (ix3 b h f)
      = (V c main_v17 : S16384x32x64.Idx → Elt Ideal .f32) (ix3 (sample t b) h f) := by
  obtain ⟨e0, e1, e2⟩ := (idx_facts t).2.2.2.1
  unfold iblk7
  rw [View.read_apply]
  show V c main_v17 _ = V c main_v17 _
  refine congrArg (V c main_v17) (funext fun ax => Fin.ext ?_)
  match ax with
  | ⟨0, _⟩ => show win7_3.index t (0 : Fin 3) * 128 + 1 * b.val = t.val * 128 + b.val; rw [e0]; omega
  | ⟨1, _⟩ => show win7_3.index t (1 : Fin 3) * 32 + 1 * h.val = h.val; rw [e1]; omega
  | ⟨2, _⟩ => show win7_3.index t (2 : Fin 3) * 64 + 1 * f.val = f.val; rw [e2]; omega

/-- The second biases' block at point `t` is samples `128 t …` of the second biases. -/
theorem iblk_4_apply (c : Dev nD) (t : Fin cfg7.N) (b : Fin 128) (v : Fin 32) (f : Fin 64) :
    (iblk7 V c 4 t : Vec Ideal S128x32x64 .f32) (ix3 b v f)
      = (V c main_v24 : S16384x32x64.Idx → Elt Ideal .f32) (ix3 (sample t b) v f) := by
  obtain ⟨e0, e1, e2⟩ := (idx_facts t).2.2.2.2.1
  unfold iblk7
  rw [View.read_apply]
  show V c main_v24 _ = V c main_v24 _
  refine congrArg (V c main_v24) (funext fun ax => Fin.ext ?_)
  match ax with
  | ⟨0, _⟩ => show win7_4.index t (0 : Fin 3) * 128 + 1 * b.val = t.val * 128 + b.val; rw [e0]; omega
  | ⟨1, _⟩ => show win7_4.index t (1 : Fin 3) * 32 + 1 * v.val = v.val; rw [e1]; omega
  | ⟨2, _⟩ => show win7_4.index t (2 : Fin 3) * 64 + 1 * f.val = f.val; rw [e2]; omega

/-! ## What a point writes back, and the array after the last point -/

/-- The whole-array mixing step of the region's five input arrays as the region finds them. -/
abbrev mixed (c : Dev nD) : S16384x32x64.Idx → Elt Ideal .f32 :=
  HyperMix.mix (B := 16384) (V c main_arg0) (V c main_v6) (V c main_v10) (V c main_v17) (V c main_v24)

/-- WHAT POINT `t` WRITES BACK is block `t` of the mixing step of the whole input arrays. -/
theorem flushed_eq (c : Dev nD) (t : Fin cfg7.N) :
    (dat7 V c).flushed 5 t = ((cfg7.win 5).blk t).view.read (Elt Ideal) (mixed V c) := by
  show (cfg7.win 5).cut (grid7.coords t) ((dat7 V c).after 5 t) = _
  rw [after7_5]
  unfold out7_5
  rw [View.canon_unit_zero hz]
  simp only [View.ld_unit_zero (S := S128x32x64) hz, View.ld_unit_zero (S := S128x64x32) hz,
    View.ld_unit_zero (S := S128x32x32) hz]
  rw [payload_eq]
  obtain ⟨e0, e1, e2⟩ := (idx_facts t).2.2.2.2.2
  funext j
  show HyperMix.mix (iblk7 V c 0 t) (iblk7 V c 1 t) (iblk7 V c 2 t) (iblk7 V c 3 t) (iblk7 V c 4 t) j
    = mixed V c (((cfg7.win 5).blk t).view.emb j)
  have hemb : ((cfg7.win 5).blk t).view.emb j = ix3 (sample t (j 0)) (j 1) (j 2) := by
    funext ax
    apply Fin.ext
    match ax with
    | ⟨0, _⟩ => show win7_5.index t (0 : Fin 3) * 128 + 1 * (j 0).val = t.val * 128 + (j 0).val; rw [e0]; omega
    | ⟨1, _⟩ => show win7_5.index t (1 : Fin 3) * 32 + 1 * (j 1).val = (j 1).val; rw [e1]; omega
    | ⟨2, _⟩ => show win7_5.index t (2 : Fin 3) * 64 + 1 * (j 2).val = (j 2).val; rw [e2]; omega
  rw [hemb]
  exact (congrArg (HyperMix.mix (iblk7 V c 0 t) (iblk7 V c 1 t) (iblk7 V c 2 t) (iblk7 V c 3 t) (iblk7 V c 4 t)) (eq_ix3 j)).trans
    (mix_restrict (V c main_arg0) (V c main_v6) (V c main_v10) (V c main_v17) (V c main_v24)
      (iblk7 V c 0 t) (iblk7 V c 1 t) (iblk7 V c 2 t) (iblk7 V c 3 t) (iblk7 V c 4 t) (sample t)
      (iblk_0_apply V c t) (iblk_1_apply V c t) (iblk_2_apply V c t) (iblk_3_apply V c t) (iblk_4_apply V c t)
      (j 0) (j 1) (j 2))

/-- An index of the result array is in point `t`'s block iff each coordinate is in the block's range on its axis. -/
theorem mem_blk (t : Fin cfg7.N) (i : S16384x32x64.Idx) :
    i ∈ ((cfg7.win 5).blk t).view.set ↔ ∀ a : Fin 3, win7_5.index t a * S128x32x64.size a ≤ (i a).val
      ∧ (i a).val < win7_5.index t a * S128x32x64.size a + S128x32x64.size a := by
  show i ∈ ((View.whole main_v25).slice (win7_5.rect t)).set ↔ _
  rw [View.set_slice_whole, Rect.mem_set_unit]
  exact Iff.rfl

/-- Every index of the result array is in some point's block: sample `s` is in the block of point `s / 128`. -/
theorem cover (i : S16384x32x64.Idx) :
    ∃ t : Fin cfg7.N, (cfg7.win 5).flush t = true ∧ i ∈ ((cfg7.win 5).blk t).view.set := by
  have hi0 : (i 0).val < 16384 := (i 0).isLt
  have hi1 : (i 1).val < 32 := (i 1).isLt
  have hi2 : (i 2).val < 64 := (i 2).isLt
  obtain ⟨t, ht⟩ : ∃ t : Fin cfg7.N, t.val = (i 0).val / 128 :=
    ⟨⟨(i 0).val / 128, lt_of_lt_of_eq (by omega) N_7.symm⟩, rfl⟩
  obtain ⟨e0, e1, e2⟩ := (idx_facts t).2.2.2.2.2
  refine ⟨t, flush7_5 t, ?_⟩
  rw [mem_blk]
  intro a
  match a with
  | ⟨0, _⟩ =>
    show win7_5.index t (0 : Fin 3) * 128 ≤ (i 0).val ∧ (i 0).val < win7_5.index t (0 : Fin 3) * 128 + 128
    rw [e0, ht]; omega
  | ⟨1, _⟩ =>
    show win7_5.index t (1 : Fin 3) * 32 ≤ (i 1).val ∧ (i 1).val < win7_5.index t (1 : Fin 3) * 32 + 32
    rw [e1]; omega
  | ⟨2, _⟩ =>
    show win7_5.index t (2 : Fin 3) * 64 ≤ (i 2).val ∧ (i 2).val < win7_5.index t (2 : Fin 3) * 64 + 64
    rw [e2]; omega

/-- THE RESULT ARRAY after the mixing kernel's last point: the mixing step of its five input arrays as the region
    finds them, whatever they hold. -/
theorem final7 (c : Dev nD) :
    (Gen.dat7 V c).arrAt 5 cfg7.N
      = HyperMix.mix (V c main_arg0) (V c main_v6) (V c main_v10) (V c main_v17) (V c main_v24) :=
  (dat7 V c).arrAt_eq_of_cover 5 (mixed V c) (fun t _ => flushed_eq V c t) cover

end Cert.KernelIdeal.MixRegion

end
-- ==== Proof.KValue.lean ====
/-
  The idealized kernel program's run, with its result as the specification's function of the argument arrays.

  The result array ends at what the mixing region leaves in it (the run), the mixing region leaves the mixing step of its
  five input arrays (the region's value), and those are the embeddings as launched and the four dense networks' results
  re-laid as per-sample matrices (the chain): together, `HyperMix.full` of the sixteen arguments.
-/
import proofs.«166068_j82617990906012_2_alg».proof.Proof.KRun
import proofs.«166068_j82617990906012_2_alg».proof.Proof.Chain
import proofs.«166068_j82617990906012_2_alg».proof.Proof.MixArray

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The result as a function of the launch contents. -/
abbrev spec (c : Dev nD) : S16384x32x64.Idx → EReal :=
  HyperMix.full (HyperMix.relay shapeCasts_S16384x2048_S16384x64x32) (HyperMix.relay shapeCasts_S16384x1024_S16384x32x32)
    (HyperMix.relay shapeCasts_S16384x2048_S16384x32x64)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- The last boundary's contents of the result array. -/
theorem result (c : Dev nD) : W16 m ρ c (Proc.devRef .tc main_v25) = spec m c := by
  refine (W16_arr m ρ c 5).trans ((MixRegion.final7 (V15 m ρ) c).trans ?_)
  rw [Chain.in7_e m ρ c, Chain.in7_w1 m ρ c, Chain.in7_b1 m ρ c, Chain.in7_w2 m ρ c, Chain.in7_b2 m ρ c]
  rfl

/-- The run, read: the result at the specification's function of the arguments, the arguments as launched. -/
theorem run : θ_run defs (onTc (τ := τ) (main (F := Ideal))) ⟨m, fun _ => 0, ρ⟩ (fun r => ∀ c : Dev nD,
      r.2.mem ((c.tc : Thread nD τ).loc main_v25) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (result m ρ c), (h c).2⟩) (KRun.run m ρ)

end Cert.KernelIdeal.KValue

end
-- ==== Proof.RefRun.lean ====
/-
  The reference program's @main as the list of its 83 host operations, the module-local functions (the three positive
  parts, the exponential linear unit and the two selections it calls) written out at their call sites over the buffers of
  each call, and its run read back: every weakly fair execution terminates with each buffer at the fold of the
  operations' results over the launch contents.
-/
import proofs.«166068_j82617990906012_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 83 operations, in order: a call's operations stand where the call stands, over that call's buffers. -/
abbrev ops : List (HloOp τ sig (Elt F)) :=
  [
    binary main_arg1 main_arg2 main_v0 ((fun l r => Host.dotGeneral dot_S16384x512_S512x2048_S16384x2048_1_0_0_1_n_n none l r) : (⟨S16384x512, .f32⟩ : BufTy).Contents (Elt F) → (⟨S512x2048, .f32⟩ : BufTy).Contents (Elt F) → (⟨S16384x2048, .f32⟩ : BufTy).Contents (Elt F)),
    unary main_arg3 main_v1 (broadcastInDim S1x2048 ![1] bcast_S2048_S1x2048_1 : (⟨S2048, .f32⟩ : BufTy).Contents (Elt F) → (⟨S1x2048, .f32⟩ : BufTy).Contents (Elt F)),
    unary main_v1 main_v2 (broadcastInDim S16384x2048 ![0, 1] bcast_S1x2048_S16384x2048_0_1 : (⟨S1x2048, .f32⟩ : BufTy).Contents (Elt F) → (⟨S16384x2048, .f32⟩ : BufTy).Contents (Elt F)),
    binary main_v0 main_v2 main_v3 (addf : (⟨S16384x2048, .f32⟩ : BufTy).Contents (Elt F) → (⟨S16384x2048, .f32⟩ : BufTy).Contents (Elt F) → (⟨S16384x2048, .f32⟩ : BufTy).Contents (Elt F)),
    TRef.nullary main_call0.cst (constant S_ .f32 0x00000000#32),
    TRef.unary main_call0.cst main_call0.v0 (broadcastInDim S16384x2048 ![] bcast_S_S16384x2048),
    TRef.binary (.of main_v3 : TRef sig ⟨S16384x2048, .f32⟩) main_call0.v0 main_call0.v1 maximumf,
    binary main_v4 main_arg4 main_v5 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    unary main_arg5 main_v6 (broadcastInDim S1x2048 ![1] bcast_S2048_S1x2048_1 : (⟨S2048, .f32⟩ : BufTy).Contents (Elt F) → (⟨S1x2048, .f32⟩ : BufTy).Contents (Elt F)),
    unary main_v6 main_v7 (broadcastInDim S16384x2048 ![0, 1] bcast_S1x2048_S16384x2048_0_1 : (⟨S1x2048, .f32⟩ : BufTy).Contents (Elt F) → (⟨S16384x2048, .f32⟩ : BufTy).Contents (Elt F)),
    binary main_v5 main_v7 main_v8 (addf : (⟨S16384x2048, .f32⟩ : BufTy).Contents (Elt F) → (⟨S16384x2048, .f32⟩ : BufTy).Contents (Elt F) → (⟨S16384x2048, .f32⟩ : BufTy).Contents (Elt F)),
    reshape main_v8 main_v9 rfl shapeCasts_S16384x2048_S16384x64x32,
    binary main_arg1 main_arg6 main_v10 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    unary main_arg7 main_v11 (broadcastInDim S1x1024 ![1] bcast_S1024_S1x1024_1 : (⟨S1024, .f32⟩ : BufTy).Contents (Elt F) → (⟨S1x1024, .f32⟩ : BufTy).Contents (Elt F)),
    unary main_v11 main_v12 (broadcastInDim S16384x1024 ![0, 1] bcast_S1x1024_S16384x1024_0_1 : (⟨S1x1024, .f32⟩ : BufTy).Contents (Elt F) → (⟨S16384x1024, .f32⟩ : BufTy).Contents (Elt F)),
    binary main_v10 main_v12 main_v13 (addf : (⟨S16384x1024, .f32⟩ : BufTy).Contents (Elt F) → (⟨S16384x1024, .f32⟩ : BufTy).Contents (Elt F) → (⟨S16384x1024, .f32⟩ : BufTy).Contents (Elt F)),
    reshape main_v13 main_v14 rfl shapeCasts_S16384x1024_S16384x32x32,
    binary main_arg1 main_arg8 main_v15 ((fun l r => Host.dotGeneral dot_S16384x512_S512x4096_S16384x4096_1_0_0_1_n_n none l r) : (⟨S16384x512, .f32⟩ : BufTy).Contents (Elt F) → (⟨S512x4096, .f32⟩ : BufTy).Contents (Elt F) → (⟨S16384x4096, .f32⟩ : BufTy).Contents (Elt F)),
    unary main_arg9 main_v16 (broadcastInDim S1x4096 ![1] bcast_S4096_S1x4096_1 : (⟨S4096, .f32⟩ : BufTy).Contents (Elt F) → (⟨S1x4096, .f32⟩ : BufTy).Contents (Elt F)),
    unary main_v16 main_v17 (broadcastInDim S16384x4096 ![0, 1] bcast_S1x4096_S16384x4096_0_1 : (⟨S1x4096, .f32⟩ : BufTy).Contents (Elt F) → (⟨S16384x4096, .f32⟩ : BufTy).Contents (Elt F)),
    binary main_v15 main_v17 main_v18 (addf : (⟨S16384x4096, .f32⟩ : BufTy).Contents (Elt F) → (⟨S16384x4096, .f32⟩ : BufTy).Contents (Elt F) → (⟨S16384x4096, .f32⟩ : BufTy).Contents (Elt F)),
    TRef.nullary main_call1.cst (constant S_ .f32 0x00000000#32),
    TRef.unary main_call1.cst main_call1.v0 (broadcastInDim S16384x4096 ![] bcast_S_S16384x4096),
    TRef.binary (.of main_v18 : TRef sig ⟨S16384x4096, .f32⟩) main_call1.v0 main_call1.v1 maximumf,
    binary main_v19 main_arg10 main_v20 ((fun l r => Host.dotGeneral dot_S16384x4096_S4096x2048_S16384x2048_1_0_0_1_n_n none l r) : (⟨S16384x4096, .f32⟩ : BufTy).Contents (Elt F) → (⟨S4096x2048, .f32⟩ : BufTy).Contents (Elt F) → (⟨S16384x2048, .f32⟩ : BufTy).Contents (Elt F)),
    unary main_arg11 main_v21 (broadcastInDim S1x2048 ![1] bcast_S2048_S1x2048_1 : (⟨S2048, .f32⟩ : BufTy).Contents (Elt F) → (⟨S1x2048, .f32⟩ : BufTy).Contents (Elt F)),
    unary main_v21 main_v22 (broadcastInDim S16384x2048 ![0, 1] bcast_S1x2048_S16384x2048_0_1 : (⟨S1x2048, .f32⟩ : BufTy).Contents (Elt F) → (⟨S16384x2048, .f32⟩ : BufTy).Contents (Elt F)),
    binary main_v20 main_v22 main_v23 (addf : (⟨S16384x2048, .f32⟩ : BufTy).Contents (Elt F) → (⟨S16384x2048, .f32⟩ : BufTy).Contents (Elt F) → (⟨S16384x2048, .f32⟩ : BufTy).Contents (Elt F)),
    reshape main_v23 main_v24 rfl shapeCasts_S16384x2048_S16384x32x64,
    binary main_arg1 main_arg12 main_v25 ((fun l r => Host.dotGeneral dot_S16384x512_S512x1024_S16384x1024_1_0_0_1_n_n none l r) : (⟨S16384x512, .f32⟩ : BufTy).Contents (Elt F) → (⟨S512x1024, .f32⟩ : BufTy).Contents (Elt F) → (⟨S16384x1024, .f32⟩ : BufTy).Contents (Elt F)),
    unary main_arg13 main_v26 (broadcastInDim S1x1024 ![1] bcast_S1024_S1x1024_1 : (⟨S1024, .f32⟩ : BufTy).Contents (Elt F) → (⟨S1x1024, .f32⟩ : BufTy).Contents (Elt F)),
    unary main_v26 main_v27 (broadcastInDim S16384x1024 ![0, 1] bcast_S1x1024_S16384x1024_0_1 : (⟨S1x1024, .f32⟩ : BufTy).Contents (Elt F) → (⟨S16384x1024, .f32⟩ : BufTy).Contents (Elt F)),
    binary main_v25 main_v27 main_v28 (addf : (⟨S16384x1024, .f32⟩ : BufTy).Contents (Elt F) → (⟨S16384x1024, .f32⟩ : BufTy).Contents (Elt F) → (⟨S16384x1024, .f32⟩ : BufTy).Contents (Elt F)),
    TRef.nullary main_call2.cst (constant S_ .f32 0x00000000#32),
    TRef.unary main_call2.cst main_call2.v0 (broadcastInDim S16384x1024 ![] bcast_S_S16384x1024),
    TRef.binary (.of main_v28 : TRef sig ⟨S16384x1024, .f32⟩) main_call2.v0 main_call2.v1 maximumf,
    binary main_v29 main_arg14 main_v30 ((fun l r => Host.dotGeneral dot_S16384x1024_S1024x2048_S16384x2048_1_0_0_1_n_n none l r) : (⟨S16384x1024, .f32⟩ : BufTy).Contents (Elt F) → (⟨S1024x2048, .f32⟩ : BufTy).Contents (Elt F) → (⟨S16384x2048, .f32⟩ : BufTy).Contents (Elt F)),
    unary main_arg15 main_v31 (broadcastInDim S1x2048 ![1] bcast_S2048_S1x2048_1 : (⟨S2048, .f32⟩ : BufTy).Contents (Elt F) → (⟨S1x2048, .f32⟩ : BufTy).Contents (Elt F)),
    unary main_v31 main_v32 (broadcastInDim S16384x2048 ![0, 1] bcast_S1x2048_S16384x2048_0_1 : (⟨S1x2048, .f32⟩ : BufTy).Contents (Elt F) → (⟨S16384x2048, .f32⟩ : BufTy).Contents (Elt F)),
    binary main_v30 main_v32 main_v33 (addf : (⟨S16384x2048, .f32⟩ : BufTy).Contents (Elt F) → (⟨S16384x2048, .f32⟩ : BufTy).Contents (Elt F) → (⟨S16384x2048, .f32⟩ : BufTy).Contents (Elt F)),
    reshape main_v33 main_v34 rfl shapeCasts_S16384x2048_S16384x32x64,
    binary main_arg0 main_v9 main_v35 ((fun l r => Host.dotGeneral dot_S16384x32x64_S16384x64x32_S16384x32x32_2_1_1_2_0_0 none l r) : (⟨S16384x32x64, .f32⟩ : BufTy).Contents (Elt F) → (⟨S16384x64x32, .f32⟩ : BufTy).Contents (Elt F) → (⟨S16384x32x32, .f32⟩ : BufTy).Contents (Elt F)),
    binary main_v35 main_v14 main_v36 (addf : (⟨S16384x32x32, .f32⟩ : BufTy).Contents (Elt F) → (⟨S16384x32x32, .f32⟩ : BufTy).Contents (Elt F) → (⟨S16384x32x32, .f32⟩ : BufTy).Contents (Elt F)),
    TRef.nullary main_call3.cst (constant S_ .f32 0x00000000#32),
    TRef.unary main_call3.cst main_call3.v0 (broadcastInDim S16384x32x32 ![] bcast_S_S16384x32x32),
    TRef.binary (.of main_v36 : TRef sig ⟨S16384x32x32, .f32⟩) main_call3.v0 main_call3.v1 (cmpf .ogt),
    TRef.nullary main_call3.cst_0 (constant S_ .f32 0x00000000#32),
    TRef.unary main_call3.cst_0 main_call3.v2 (broadcastInDim S16384x32x32 ![] bcast_S_S16384x32x32),
    TRef.binary (.of main_v36 : TRef sig ⟨S16384x32x32, .f32⟩) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S16384x32x32 ![] bcast_S_S16384x32x32),
    TRef.ternary main_call3.v3 main_call3.call0.v1 (.of main_v36 : TRef sig ⟨S16384x32x32, .f32⟩) main_call3.call0.v2 select,
    TRef.unary main_call3.call0.v2 main_call3.v5 Host.expm1,
    TRef.nullary main_call3.cst_2 (constant S_ .f32 0x3F800000#32),
    TRef.unary main_call3.cst_2 main_call3.v6 (broadcastInDim S16384x32x32 ![] bcast_S_S16384x32x32),
    TRef.binary main_call3.v6 main_call3.v5 main_call3.v7 mulf,
    TRef.ternary main_call3.v1 (.of main_v36 : TRef sig ⟨S16384x32x32, .f32⟩) main_call3.v7 main_call3.call1.v0 select,
    binary main_v37 main_v24 main_v38 ((fun l r => Host.dotGeneral dot_S16384x32x32_S16384x32x64_S16384x32x64_2_1_1_2_0_0 none l r) : (⟨S16384x32x32, .f32⟩ : BufTy).Contents (Elt F) → (⟨S16384x32x64, .f32⟩ : BufTy).Contents (Elt F) → (⟨S16384x32x64, .f32⟩ : BufTy).Contents (Elt F)),
    binary main_v38 main_v34 main_v39 (addf : (⟨S16384x32x64, .f32⟩ : BufTy).Contents (Elt F) → (⟨S16384x32x64, .f32⟩ : BufTy).Contents (Elt F) → (⟨S16384x32x64, .f32⟩ : BufTy).Contents (Elt F)),
    unary main_v39 main_v40 (Host.absf : (⟨S16384x32x64, .f32⟩ : BufTy).Contents (Elt F) → (⟨S16384x32x64, .f32⟩ : BufTy).Contents (Elt F)),
    nullary main_cst (constant S_ .f32 0xFF800000#32),
    binary main_v40 main_cst main_v41 ((fun x v => Host.reduce FloatOps.maximumf x v reducesTo_S16384x32x64_S16384x64_d1 h_S_) : (⟨S16384x32x64, .f32⟩ : BufTy).Contents (Elt F) → (⟨S_, .f32⟩ : BufTy).Contents (Elt F) → (⟨S16384x64, .f32⟩ : BufTy).Contents (Elt F)),
    unary main_v41 main_v42 (broadcastInDim S16384x1x64 ![0, 2] bcast_S16384x64_S16384x1x64_0_2 : (⟨S16384x64, .f32⟩ : BufTy).Contents (Elt F) → (⟨S16384x1x64, .f32⟩ : BufTy).Contents (Elt F)),
    nullary main_cst_0 (constant S_ .f32 0x3727C5AC#32),
    unary main_cst_0 main_v43 (broadcastInDim S16384x1x64 ![] bcast_S_S16384x1x64 : (⟨S_, .f32⟩ : BufTy).Contents (Elt F) → (⟨S16384x1x64, .f32⟩ : BufTy).Contents (Elt F)),
    binary main_v42 main_v43 main_v44 (addf : (⟨S16384x1x64, .f32⟩ : BufTy).Contents (Elt F) → (⟨S16384x1x64, .f32⟩ : BufTy).Contents (Elt F) → (⟨S16384x1x64, .f32⟩ : BufTy).Contents (Elt F)),
    nullary main_cst_1 (constant S_ .f32 0x3F800000#32),
    unary main_cst_1 main_v45 (broadcastInDim S16384x1x64 ![] bcast_S_S16384x1x64 : (⟨S_, .f32⟩ : BufTy).Contents (Elt F) → (⟨S16384x1x64, .f32⟩ : BufTy).Contents (Elt F)),
    nullary main_cst_2 (constant S_ .f32 0x40A00000#32),
    unary main_cst_2 main_v46 (broadcastInDim S16384x1x64 ![] bcast_S_S16384x1x64 : (⟨S_, .f32⟩ : BufTy).Contents (Elt F) → (⟨S16384x1x64, .f32⟩ : BufTy).Contents (Elt F)),
    binary main_v46 main_v44 main_v47 (Host.divf : (⟨S16384x1x64, .f32⟩ : BufTy).Contents (Elt F) → (⟨S16384x1x64, .f32⟩ : BufTy).Contents (Elt F) → (⟨S16384x1x64, .f32⟩ : BufTy).Contents (Elt F)),
    binary main_v45 main_v47 main_v48 (minimumf : (⟨S16384x1x64, .f32⟩ : BufTy).Contents (Elt F) → (⟨S16384x1x64, .f32⟩ : BufTy).Contents (Elt F) → (⟨S16384x1x64, .f32⟩ : BufTy).Contents (Elt F)),
    unary main_v48 main_v49 (broadcastInDim S16384x32x64 ![0, 1, 2] bcast_S16384x1x64_S16384x32x64_0_1_2 : (⟨S16384x1x64, .f32⟩ : BufTy).Contents (Elt F) → (⟨S16384x32x64, .f32⟩ : BufTy).Contents (Elt F)),
    binary main_v39 main_v49 main_v50 (mulf : (⟨S16384x32x64, .f32⟩ : BufTy).Contents (Elt F) → (⟨S16384x32x64, .f32⟩ : BufTy).Contents (Elt F) → (⟨S16384x32x64, .f32⟩ : BufTy).Contents (Elt F)),
    unary main_v50 main_v51 (Host.negf : (⟨S16384x32x64, .f32⟩ : BufTy).Contents (Elt F) → (⟨S16384x32x64, .f32⟩ : BufTy).Contents (Elt F)),
    unary main_v51 main_v52 (Host.exp : (⟨S16384x32x64, .f32⟩ : BufTy).Contents (Elt F) → (⟨S16384x32x64, .f32⟩ : BufTy).Contents (Elt F)),
    nullary main_cst_3 (constant S_ .f32 0x3F800000#32),
    unary main_cst_3 main_v53 (broadcastInDim S16384x32x64 ![] bcast_S_S16384x32x64 : (⟨S_, .f32⟩ : BufTy).Contents (Elt F) → (⟨S16384x32x64, .f32⟩ : BufTy).Contents (Elt F)),
    binary main_v53 main_v52 main_v54 (addf : (⟨S16384x32x64, .f32⟩ : BufTy).Contents (Elt F) → (⟨S16384x32x64, .f32⟩ : BufTy).Contents (Elt F) → (⟨S16384x32x64, .f32⟩ : BufTy).Contents (Elt F)),
    nullary main_cst_4 (constant S_ .f32 0x3F800000#32),
    unary main_cst_4 main_v55 (broadcastInDim S16384x32x64 ![] bcast_S_S16384x32x64 : (⟨S_, .f32⟩ : BufTy).Contents (Elt F) → (⟨S16384x32x64, .f32⟩ : BufTy).Contents (Elt F)),
    binary main_v55 main_v54 main_v56 (Host.divf : (⟨S16384x32x64, .f32⟩ : BufTy).Contents (Elt F) → (⟨S16384x32x64, .f32⟩ : BufTy).Contents (Elt F) → (⟨S16384x32x64, .f32⟩ : BufTy).Contents (Elt F)) ]

set_option maxRecDepth 8192 in
set_option maxHeartbeats 4000000 in
/-- @main is that straight line: the two windows and the functions' bodies unfolded, sequencing reassociated. -/
theorem main_eq (c : Dev nD) : main (F := F) c = seq ops := by
  simp only [main, main_part0, main_part1, fn_relu.body, fn_relu_0.body, fn_relu_1.body, fn_elu.body, fn_where.body,
    fn_where_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., binary_bufs_sub .., unary_bufs_sub .., unary_bufs_sub .., binary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., reshape_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., binary_bufs_sub .., unary_bufs_sub .., nullary_bufs_sub .., binary_bufs_sub .., unary_bufs_sub .., nullary_bufs_sub .., unary_bufs_sub .., binary_bufs_sub .., nullary_bufs_sub .., unary_bufs_sub .., nullary_bufs_sub .., unary_bufs_sub .., binary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- On every device, for any float values, from any memory with zero counters: every weakly fair execution of @main
    terminates, and every final state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The reference's host operations, stage by stage, as the functions of the specification.

  Each lemma reads one group of whole-array host operations at an entry and finds there the specification's formula:
  a product plus a bias broadcast over the rows is a dense layer; a maximum with the broadcast zero is the positive
  part; the two comparisons, the two selections and the exponential minus one are the exponential linear unit; a
  batched product plus an array is the mixing sum; the absolute value, the maximum over the rows, the quotient, the
  minimum, the product and the final quotient are the scaled logistic function.
-/
import Idealize.ShloMosaic.Lib.Pipeline.Value
import Idealize.ShloMosaic.PureOps.Reduce
import proofs.«166068_j82617990906012_2_alg».proof.Proof.Spec
import proofs.«166068_j82617990906012_2_alg».proof.Proof.LibContract

noncomputable section

open scoped BigOperators
open Idealize.ShloMosaic Idealize.ShloMosaic.ValueIdx

namespace HyperMix.Ref

/-- A coordinate of an axis of extent one is zero. -/
theorem val_eq_ite {n : ℕ} (q : Fin n) : q.val = if n = 1 then 0 else q.val := by
  have := q.isLt
  split
  · omega
  · rfl

/-- A scalar constant broadcast to any shape is that constant at every entry. -/
theorem bcast_scalar_apply {s : Shape} (h : (⟨0, ![]⟩ : Shape).BroadcastsInDim s (![] : Fin 0 → Fin s.rank))
    (w : BitVec 32) (i : s.Idx) :
    broadcastInDim s ![] h (constant (F := Ideal) (⟨0, ![]⟩ : Shape) .f32 w) i = Ideal.ofBits .f32 w := rfl

/-- A bias row broadcast over the rows of a matrix, at the entry `(p, q)`, is the bias of column `q`. -/
theorem bias_apply {M N : ℕ}
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : FVec Ideal (⟨1, ![N]⟩ : Shape) .f32) (p : Fin M) (q : Fin N) :
    broadcastInDim (⟨2, ![M, N]⟩ : Shape) ![0, 1] h2 (broadcastInDim (⟨2, ![1, N]⟩ : Shape) ![1] h1 b) (ix2 p q) = b (ix1 q) := by
  rw [broadcastInDim_apply ![0, 1] h2 _ (ix2 p q) (ix2 (0 : Fin 1) q) (fun a => by
        match a with
        | ⟨0, _⟩ => rfl
        | ⟨1, _⟩ => exact val_eq_ite q),
      broadcastInDim_apply ![1] h1 b (ix2 (0 : Fin 1) q) (ix1 q) (fun a => by
        match a with
        | ⟨0, _⟩ => exact val_eq_ite q)]

/-- A dense layer: the product plus the bias broadcast over the rows. -/
theorem dense_eq {M K N : ℕ} {d : DotDims (⟨2, ![M, K]⟩ : Shape) (⟨2, ![K, N]⟩ : Shape) (⟨2, ![M, N]⟩ : Shape)}
    (hd : PlainMatmul.IsPlain d)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (x : FVec Ideal (⟨2, ![M, K]⟩ : Shape) .f32) (w : FVec Ideal (⟨2, ![K, N]⟩ : Shape) .f32)
    (b : FVec Ideal (⟨1, ![N]⟩ : Shape) .f32) :
    addf (Host.dotGeneral d none x w)
        (broadcastInDim (⟨2, ![M, N]⟩ : Shape) ![0, 1] h2 (broadcastInDim (⟨2, ![1, N]⟩ : Shape) ![1] h1 b))
      = HyperMix.dense x w b := by
  funext i
  obtain ⟨p, q, rfl⟩ : ∃ p q, i = ix2 p q := ⟨i 0, i 1, eq_ix2 i⟩
  rw [addf_apply, HyperMix.dense_ix2, bias_apply h1 h2 b p q]
  exact congrArg (· + b (ix1 q)) (PlainMatmul.dot_apply hd none .single x w p q)

/-- The positive part: the maximum with the broadcast zero. -/
theorem relu_eq {s : Shape} (h : (⟨0, ![]⟩ : Shape).BroadcastsInDim s (![] : Fin 0 → Fin s.rank)) (y : FVec Ideal s .f32) :
    maximumf y (broadcastInDim s ![] h (constant (F := Ideal) (⟨0, ![]⟩ : Shape) .f32 0x00000000#32)) = HyperMix.relu y :=
  funext fun _ => rfl

/-- The reference's exponential linear unit of an array: two comparisons with zero, the inner selection that feeds
    the exponential only what is not above zero, the product with one, the outer selection. -/
def eluT {s : Shape} (h : (⟨0, ![]⟩ : Shape).BroadcastsInDim s (![] : Fin 0 → Fin s.rank)) (x : FVec Ideal s .f32) :
    FVec Ideal s .f32 :=
  select (cmpf .ogt x (broadcastInDim s ![] h (constant (F := Ideal) (⟨0, ![]⟩ : Shape) .f32 0x00000000#32))) x
    (mulf (broadcastInDim s ![] h (constant (F := Ideal) (⟨0, ![]⟩ : Shape) .f32 0x3F800000#32))
      (Host.expm1 (select (cmpf .ogt x (broadcastInDim s ![] h (constant (F := Ideal) (⟨0, ![]⟩ : Shape) .f32 0x00000000#32)))
        (broadcastInDim s ![] h (id (constant (F := Ideal) (⟨0, ![]⟩ : Shape) .f32 0x00000000#32))) x)))

/-- Entry by entry it is the specification's: above zero both selections take the entry itself; from zero down the
    inner one passes the entry to the exponential and the outer one takes `1 · (eˣ - 1)`. -/
theorem eluT_apply {s : Shape} (h : (⟨0, ![]⟩ : Shape).BroadcastsInDim s (![] : Fin 0 → Fin s.rank)) (x : FVec Ideal s .f32)
    (i : s.Idx) : eluT h x i = HyperMix.elu (x i) := by
  show Scalar.select (Ideal.cmp .ogt (x i) HyperMix.zero) (x i)
      (HyperMix.one * (Ideal.exp (Scalar.select (Ideal.cmp .ogt (x i) HyperMix.zero) HyperMix.zero (x i)) - 1))
    = HyperMix.elu (x i)
  rw [HyperMix.zero_eq, HyperMix.one_eq, one_mul]
  unfold HyperMix.elu
  by_cases hpos : (0 : EReal) < x i
  · have hc : Ideal.cmp .ogt (x i) 0 = 1#1 := by simp [Ideal.cmp, hpos]
    rw [hc, select_one, if_pos hpos]
  · have hc : Ideal.cmp .ogt (x i) 0 = 0#1 := by simp [Ideal.cmp, hpos]
    rw [hc, select_zero, select_zero, if_neg hpos]

/-- The hidden activations: the batched product plus the per-sample matrix, through the exponential linear unit. -/
theorem hidden_eq {B : ℕ} {d : DotDims (⟨3, ![B, 32, 64]⟩ : Shape) (⟨3, ![B, 64, 32]⟩ : Shape) (⟨3, ![B, 32, 32]⟩ : Shape)}
    (hd : BatchMatmul.IsBatched d)
    (h : (⟨0, ![]⟩ : Shape).BroadcastsInDim (⟨3, ![B, 32, 32]⟩ : Shape) (![] : Fin 0 → Fin 3))
    (e : FVec Ideal (⟨3, ![B, 32, 64]⟩ : Shape) .f32) (w₁ : FVec Ideal (⟨3, ![B, 64, 32]⟩ : Shape) .f32)
    (b₁ : FVec Ideal (⟨3, ![B, 32, 32]⟩ : Shape) .f32) :
    eluT h (addf (Host.dotGeneral d none e w₁) b₁) = HyperMix.hidden e w₁ b₁ := by
  funext i
  obtain ⟨b, v, k, rfl⟩ : ∃ b v k, i = ix3 b v k := ⟨i 0, i 1, i 2, eq_ix3 i⟩
  rw [eluT_apply, HyperMix.hidden_ix3, addf_apply]
  exact congrArg (fun z => HyperMix.elu (z + b₁ (ix3 b v k))) (BatchMatmul.dot_apply hd none .single e w₁ b v k)

/-- The mixed output: the batched product plus the per-sample matrix. -/
theorem mixed_eq {B : ℕ} {d : DotDims (⟨3, ![B, 32, 32]⟩ : Shape) (⟨3, ![B, 32, 64]⟩ : Shape) (⟨3, ![B, 32, 64]⟩ : Shape)}
    (hd : BatchMatmul.IsBatched d)
    (hh : FVec Ideal (⟨3, ![B, 32, 32]⟩ : Shape) .f32) (w₂ : FVec Ideal (⟨3, ![B, 32, 64]⟩ : Shape) .f32)
    (b₂ : FVec Ideal (⟨3, ![B, 32, 64]⟩ : Shape) .f32) :
    addf (Host.dotGeneral d none hh w₂) b₂ = HyperMix.mixed hh w₂ b₂ := by
  funext i
  obtain ⟨b, v, f, rfl⟩ : ∃ b v f, i = ix3 b v f := ⟨i 0, i 1, i 2, eq_ix3 i⟩
  rw [HyperMix.mixed_ix3, addf_apply]
  exact congrArg (· + b₂ (ix3 b v f)) (BatchMatmul.dot_apply hd none .single hh w₂ b v f)

/-! ## The scaled logistic function -/

instance : Std.Commutative (FloatOps.maximumf (F := Ideal) (φ := .f32)) := ⟨fun a b => max_comm a b⟩
instance : Std.Associative (FloatOps.maximumf (F := Ideal) (φ := .f32)) := ⟨fun a b c => max_assoc a b c⟩

/-- The index over the result entry `(b, f)` of a reduction over the middle axis, at row `v`, is `(b, v, f)`. -/
theorem lift_eq {B : ℕ} (hred : (⟨3, ![B, 32, 64]⟩ : Shape).Reduces [1] (⟨2, ![B, 64]⟩ : Shape)) (b : Fin B) (f : Fin 64)
    (v : Fin 32) : hred.lift (ix2 b f) v = ix3 b v f := by
  funext c
  apply Fin.ext
  match c with
  | ⟨0, _⟩ => rfl
  | ⟨1, _⟩ => rfl
  | ⟨2, _⟩ => rfl

/-- The maximum over the rows of the magnitudes, from `-∞`: the largest magnitude of the column. -/
theorem absMax_eq {B : ℕ} (hred' : (⟨3, ![B, 32, 64]⟩ : Shape).ReducesTo [1] (⟨2, ![B, 64]⟩ : Shape))
    (hred : (⟨3, ![B, 32, 64]⟩ : Shape).Reduces [1] (⟨2, ![B, 64]⟩ : Shape)) (hS : 0 < (⟨0, ![]⟩ : Shape).numel)
    (o : FVec Ideal (⟨3, ![B, 32, 64]⟩ : Shape) .f32) (b : Fin B) (f : Fin 64) :
    Host.reduce FloatOps.maximumf (Host.absf o) (constant (F := Ideal) (⟨0, ![]⟩ : Shape) .f32 0xFF800000#32) hred' hS (ix2 b f)
      = HyperMix.absMax o b f := by
  rw [Host.reduce_eq_fold_single FloatOps.maximumf (Host.absf o) _ hred' hred hS (ix2 b f)]
  show (Finset.univ : Finset (Fin 32)).fold max HyperMix.negInf (fun v => Host.absf o (hred.lift (ix2 b f) v)) = _
  unfold HyperMix.absMax
  refine Finset.fold_congr fun v _ => ?_
  rw [lift_eq hred b f v]
  rfl

/-- The reference's last operations on the mixed output `o`: the magnitudes, their maximum over the rows from `-∞`
    broadcast back with a unit row axis, `ε` added, five divided by it, the minimum with one, that factor broadcast over
    the rows and multiplied in, and `1 / (1 + e^(-·))` of the product. -/
def tailT {B : ℕ} (hred' : (⟨3, ![B, 32, 64]⟩ : Shape).ReducesTo [1] (⟨2, ![B, 64]⟩ : Shape))
    (hS : 0 < (⟨0, ![]⟩ : Shape).numel)
    (hb02 : (⟨2, ![B, 64]⟩ : Shape).BroadcastsInDim (⟨3, ![B, 1, 64]⟩ : Shape) (![0, 2] : Fin 2 → Fin 3))
    (hb1 : (⟨0, ![]⟩ : Shape).BroadcastsInDim (⟨3, ![B, 1, 64]⟩ : Shape) (![] : Fin 0 → Fin 3))
    (hb3 : (⟨3, ![B, 1, 64]⟩ : Shape).BroadcastsInDim (⟨3, ![B, 32, 64]⟩ : Shape) (![0, 1, 2] : Fin 3 → Fin 3))
    (hbS : (⟨0, ![]⟩ : Shape).BroadcastsInDim (⟨3, ![B, 32, 64]⟩ : Shape) (![] : Fin 0 → Fin 3))
    (o : FVec Ideal (⟨3, ![B, 32, 64]⟩ : Shape) .f32) : FVec Ideal (⟨3, ![B, 32, 64]⟩ : Shape) .f32 :=
  Host.divf (broadcastInDim (⟨3, ![B, 32, 64]⟩ : Shape) ![] hbS (constant (F := Ideal) (⟨0, ![]⟩ : Shape) .f32 0x3F800000#32))
    (addf (broadcastInDim (⟨3, ![B, 32, 64]⟩ : Shape) ![] hbS (constant (F := Ideal) (⟨0, ![]⟩ : Shape) .f32 0x3F800000#32))
      (Host.exp (Host.negf (mulf o
        (broadcastInDim (⟨3, ![B, 32, 64]⟩ : Shape) ![0, 1, 2] hb3
          (minimumf (broadcastInDim (⟨3, ![B, 1, 64]⟩ : Shape) ![] hb1 (constant (F := Ideal) (⟨0, ![]⟩ : Shape) .f32 0x3F800000#32))
            (Host.divf (broadcastInDim (⟨3, ![B, 1, 64]⟩ : Shape) ![] hb1 (constant (F := Ideal) (⟨0, ![]⟩ : Shape) .f32 0x40A00000#32))
              (addf
                (broadcastInDim (⟨3, ![B, 1, 64]⟩ : Shape) ![0, 2] hb02
                  (Host.reduce FloatOps.maximumf (Host.absf o)
                    (constant (F := Ideal) (⟨0, ![]⟩ : Shape) .f32 0xFF800000#32) hred' hS))
                (broadcastInDim (⟨3, ![B, 1, 64]⟩ : Shape) ![] hb1
                  (constant (F := Ideal) (⟨0, ![]⟩ : Shape) .f32 0x3727C5AC#32))))))))))

/-- A factor with a unit row axis broadcast over the rows, at the entry `(b, v, f)`, is the factor of `(b, f)`. -/
theorem bc3_apply {B : ℕ}
    (hb3 : (⟨3, ![B, 1, 64]⟩ : Shape).BroadcastsInDim (⟨3, ![B, 32, 64]⟩ : Shape) (![0, 1, 2] : Fin 3 → Fin 3))
    (x : FVec Ideal (⟨3, ![B, 1, 64]⟩ : Shape) .f32) (b : Fin B) (v : Fin 32) (f : Fin 64) :
    broadcastInDim (⟨3, ![B, 32, 64]⟩ : Shape) ![0, 1, 2] hb3 x (ix3 b v f) = x (ix3 b (0 : Fin 1) f) :=
  broadcastInDim_apply ![0, 1, 2] hb3 x (ix3 b v f) (ix3 b (0 : Fin 1) f) (fun a => by
    match a with
    | ⟨0, _⟩ => exact val_eq_ite b
    | ⟨1, _⟩ => rfl
    | ⟨2, _⟩ => exact val_eq_ite f)

/-- A matrix given a unit middle axis, at the entry `(b, 0, f)`, is the matrix at `(b, f)`. -/
theorem bc02_apply {B : ℕ}
    (hb02 : (⟨2, ![B, 64]⟩ : Shape).BroadcastsInDim (⟨3, ![B, 1, 64]⟩ : Shape) (![0, 2] : Fin 2 → Fin 3))
    (x : FVec Ideal (⟨2, ![B, 64]⟩ : Shape) .f32) (b : Fin B) (f : Fin 64) :
    broadcastInDim (⟨3, ![B, 1, 64]⟩ : Shape) ![0, 2] hb02 x (ix3 b (0 : Fin 1) f) = x (ix2 b f) :=
  broadcastInDim_apply ![0, 2] hb02 x (ix3 b (0 : Fin 1) f) (ix2 b f) (fun a => by
    match a with
    | ⟨0, _⟩ => exact val_eq_ite b
    | ⟨1, _⟩ => exact val_eq_ite f)

/-- The host's entrywise operations at an entry, over the extended reals. -/
theorem hdivf_apply {s : Shape} (x y : FVec Ideal s .f32) (i : s.Idx) : Host.divf x y i = Ideal.div (x i) (y i) := rfl
theorem hexp_apply {s : Shape} (x : FVec Ideal s .f32) (i : s.Idx) : Host.exp x i = Ideal.exp (x i) := rfl
theorem hnegf_apply {s : Shape} (x : FVec Ideal s .f32) (i : s.Idx) : Host.negf x i = -(x i) := rfl

set_option backward.isDefEq.respectTransparency.types false in
/-- They are the specification's scaled logistic function. -/
theorem tailT_eq {B : ℕ} (hred' : (⟨3, ![B, 32, 64]⟩ : Shape).ReducesTo [1] (⟨2, ![B, 64]⟩ : Shape))
    (hred : (⟨3, ![B, 32, 64]⟩ : Shape).Reduces [1] (⟨2, ![B, 64]⟩ : Shape))
    (hS : 0 < (⟨0, ![]⟩ : Shape).numel)
    (hb02 : (⟨2, ![B, 64]⟩ : Shape).BroadcastsInDim (⟨3, ![B, 1, 64]⟩ : Shape) (![0, 2] : Fin 2 → Fin 3))
    (hb1 : (⟨0, ![]⟩ : Shape).BroadcastsInDim (⟨3, ![B, 1, 64]⟩ : Shape) (![] : Fin 0 → Fin 3))
    (hb3 : (⟨3, ![B, 1, 64]⟩ : Shape).BroadcastsInDim (⟨3, ![B, 32, 64]⟩ : Shape) (![0, 1, 2] : Fin 3 → Fin 3))
    (hbS : (⟨0, ![]⟩ : Shape).BroadcastsInDim (⟨3, ![B, 32, 64]⟩ : Shape) (![] : Fin 0 → Fin 3))
    (o : FVec Ideal (⟨3, ![B, 32, 64]⟩ : Shape) .f32) :
    tailT hred' hS hb02 hb1 hb3 hbS o = HyperMix.squash o := by
  funext i
  obtain ⟨b, v, f, rfl⟩ : ∃ b v f, i = ix3 b v f := ⟨i 0, i 1, i 2, eq_ix3 i⟩
  rw [HyperMix.squash_ix3]
  unfold Ideal.logistic HyperMix.scale tailT
  simp only [hdivf_apply, hexp_apply, hnegf_apply, addf_apply, mulf_apply]
  rw [bcast_scalar_apply hbS _ (ix3 b v f), bc3_apply hb3 _ b v f]
  simp only [minimumf_apply, hdivf_apply, addf_apply]
  rw [bcast_scalar_apply hb1 _ (ix3 b (0 : Fin 1) f), bcast_scalar_apply hb1 _ (ix3 b (0 : Fin 1) f),
    bcast_scalar_apply hb1 _ (ix3 b (0 : Fin 1) f), bc02_apply hb02 _ b f, absMax_eq hred' hred hS o b f, ← HyperMix.one_eq]

end HyperMix.Ref

end
-- ==== Proof.RefValue.lean ====
/-
  The reference's result as the specification's function of the sixteen argument arrays.

  The run gives the result buffer as the fold of the 83 host operations over the launch contents; read off, that fold is
  one composed term of the arguments (`refOut`); stage by stage that term is the specification: four hyper networks of
  dense layers with the positive part between the layers, re-laid as per-sample matrices, the embedding mixed through
  them with the exponential linear unit in between, and the scaled logistic function of the result.
-/
import proofs.«166068_j82617990906012_2_alg».proof.Proof.RefRun
import proofs.«166068_j82617990906012_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefRun HyperMix.Ref

/-- The composed term of the result: the operations' functions applied in order to the argument arrays. -/
def refOut (h₁ : Shape.ShapeCasts ⟨2, ![16384, 2048]⟩ ⟨3, ![16384, 64, 32]⟩) (h₂ : Shape.ShapeCasts ⟨2, ![16384, 1024]⟩ ⟨3, ![16384, 32, 32]⟩) (h₃ : Shape.ShapeCasts ⟨2, ![16384, 2048]⟩ ⟨3, ![16384, 32, 64]⟩)
    (a0 : FVec Ideal S16384x32x64 .f32) (a1 : FVec Ideal S16384x512 .f32) (a2 : FVec Ideal S512x2048 .f32) (a3 : FVec Ideal S2048 .f32) (a4 : FVec Ideal S2048x2048 .f32) (a5 : FVec Ideal S2048 .f32) (a6 : FVec Ideal S512x1024 .f32) (a7 : FVec Ideal S1024 .f32) (a8 : FVec Ideal S512x4096 .f32) (a9 : FVec Ideal S4096 .f32) (a10 : FVec Ideal S4096x2048 .f32) (a11 : FVec Ideal S2048 .f32) (a12 : FVec Ideal S512x1024 .f32) (a13 : FVec Ideal S1024 .f32) (a14 : FVec Ideal S1024x2048 .f32) (a15 : FVec Ideal S2048 .f32) : FVec Ideal S16384x32x64 .f32 :=
  tailT reducesTo_S16384x32x64_S16384x64_d1 h_S_ bcast_S16384x64_S16384x1x64_0_2 bcast_S_S16384x1x64
    bcast_S16384x1x64_S16384x32x64_0_1_2 bcast_S_S16384x32x64
    (addf
      (Host.dotGeneral (φ₁ := .f32) (φ₂ := .f32) dot_S16384x32x32_S16384x32x64_S16384x32x64_2_1_1_2_0_0 none
        (eluT bcast_S_S16384x32x32
          (addf (Host.dotGeneral (φ₁ := .f32) (φ₂ := .f32) dot_S16384x32x64_S16384x64x32_S16384x32x32_2_1_1_2_0_0 none a0
              (HyperMix.relay h₁ (addf (Host.dotGeneral dot_S16384x2048_S2048x2048_S16384x2048_1_0_0_1_n_n none (maximumf (addf (Host.dotGeneral dot_S16384x512_S512x2048_S16384x2048_1_0_0_1_n_n none a1 a2) (broadcastInDim S16384x2048 ![0, 1] bcast_S1x2048_S16384x2048_0_1 (broadcastInDim S1x2048 ![1] bcast_S2048_S1x2048_1 a3))) (broadcastInDim S16384x2048 ![] bcast_S_S16384x2048 (constant S_ .f32 0x00000000#32))) a4) (broadcastInDim S16384x2048 ![0, 1] bcast_S1x2048_S16384x2048_0_1 (broadcastInDim S1x2048 ![1] bcast_S2048_S1x2048_1 a5)))))
            (HyperMix.relay h₂ (addf (Host.dotGeneral dot_S16384x512_S512x1024_S16384x1024_1_0_0_1_n_n none a1 a6) (broadcastInDim S16384x1024 ![0, 1] bcast_S1x1024_S16384x1024_0_1 (broadcastInDim S1x1024 ![1] bcast_S1024_S1x1024_1 a7))))))
        (HyperMix.relay h₃ (addf (Host.dotGeneral dot_S16384x4096_S4096x2048_S16384x2048_1_0_0_1_n_n none (maximumf (addf (Host.dotGeneral dot_S16384x512_S512x4096_S16384x4096_1_0_0_1_n_n none a1 a8) (broadcastInDim S16384x4096 ![0, 1] bcast_S1x4096_S16384x4096_0_1 (broadcastInDim S1x4096 ![1] bcast_S4096_S1x4096_1 a9))) (broadcastInDim S16384x4096 ![] bcast_S_S16384x4096 (constant S_ .f32 0x00000000#32))) a10) (broadcastInDim S16384x2048 ![0, 1] bcast_S1x2048_S16384x2048_0_1 (broadcastInDim S1x2048 ![1] bcast_S2048_S1x2048_1 a11)))))
      (HyperMix.relay h₃ (addf (Host.dotGeneral dot_S16384x1024_S1024x2048_S16384x2048_1_0_0_1_n_n none (maximumf (addf (Host.dotGeneral dot_S16384x512_S512x1024_S16384x1024_1_0_0_1_n_n none a1 a12) (broadcastInDim S16384x1024 ![0, 1] bcast_S1x1024_S16384x1024_0_1 (broadcastInDim S1x1024 ![1] bcast_S1024_S1x1024_1 a13))) (broadcastInDim S16384x1024 ![] bcast_S_S16384x1024 (constant S_ .f32 0x00000000#32))) a14) (broadcastInDim S16384x2048 ![0, 1] bcast_S1x2048_S16384x2048_0_1 (broadcastInDim S1x2048 ![1] bcast_S2048_S1x2048_1 a15)))))

set_option maxRecDepth 16384 in
set_option maxHeartbeats 4000000 in
/-- The fold at the result buffer is that term: each operation's result read at its own buffer, every other buffer
    left as it was. -/
theorem out_eq (h₁ : Shape.ShapeCasts ⟨2, ![16384, 2048]⟩ ⟨3, ![16384, 64, 32]⟩) (h₂ : Shape.ShapeCasts ⟨2, ![16384, 1024]⟩ ⟨3, ![16384, 32, 32]⟩) (h₃ : Shape.ShapeCasts ⟨2, ![16384, 2048]⟩ ⟨3, ![16384, 32, 64]⟩) (V : Valuation τ sig (Elt Ideal)) :
    after (ops (F := Ideal)) V (main_v56 : DevRef τ sig) = refOut h₁ h₂ h₃ (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  after_results_simp
  rfl

/-! No operation writes an argument buffer. -/

set_option maxRecDepth 16384
set_option maxHeartbeats 4000000

theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

theorem arg3_eq (V : Valuation τ sig (Elt Ideal)) :
    after (ops (F := Ideal)) V (main_arg3 : DevRef τ sig) = V (main_arg3 : DevRef τ sig) := by
  after_results_simp

theorem arg4_eq (V : Valuation τ sig (Elt Ideal)) :
    after (ops (F := Ideal)) V (main_arg4 : DevRef τ sig) = V (main_arg4 : DevRef τ sig) := by
  after_results_simp

theorem arg5_eq (V : Valuation τ sig (Elt Ideal)) :
    after (ops (F := Ideal)) V (main_arg5 : DevRef τ sig) = V (main_arg5 : DevRef τ sig) := by
  after_results_simp

theorem arg6_eq (V : Valuation τ sig (Elt Ideal)) :
    after (ops (F := Ideal)) V (main_arg6 : DevRef τ sig) = V (main_arg6 : DevRef τ sig) := by
  after_results_simp

theorem arg7_eq (V : Valuation τ sig (Elt Ideal)) :
    after (ops (F := Ideal)) V (main_arg7 : DevRef τ sig) = V (main_arg7 : DevRef τ sig) := by
  after_results_simp

theorem arg8_eq (V : Valuation τ sig (Elt Ideal)) :
    after (ops (F := Ideal)) V (main_arg8 : DevRef τ sig) = V (main_arg8 : DevRef τ sig) := by
  after_results_simp

theorem arg9_eq (V : Valuation τ sig (Elt Ideal)) :
    after (ops (F := Ideal)) V (main_arg9 : DevRef τ sig) = V (main_arg9 : DevRef τ sig) := by
  after_results_simp

theorem arg10_eq (V : Valuation τ sig (Elt Ideal)) :
    after (ops (F := Ideal)) V (main_arg10 : DevRef τ sig) = V (main_arg10 : DevRef τ sig) := by
  after_results_simp

theorem arg11_eq (V : Valuation τ sig (Elt Ideal)) :
    after (ops (F := Ideal)) V (main_arg11 : DevRef τ sig) = V (main_arg11 : DevRef τ sig) := by
  after_results_simp

theorem arg12_eq (V : Valuation τ sig (Elt Ideal)) :
    after (ops (F := Ideal)) V (main_arg12 : DevRef τ sig) = V (main_arg12 : DevRef τ sig) := by
  after_results_simp

theorem arg13_eq (V : Valuation τ sig (Elt Ideal)) :
    after (ops (F := Ideal)) V (main_arg13 : DevRef τ sig) = V (main_arg13 : DevRef τ sig) := by
  after_results_simp

theorem arg14_eq (V : Valuation τ sig (Elt Ideal)) :
    after (ops (F := Ideal)) V (main_arg14 : DevRef τ sig) = V (main_arg14 : DevRef τ sig) := by
  after_results_simp

theorem arg15_eq (V : Valuation τ sig (Elt Ideal)) :
    after (ops (F := Ideal)) V (main_arg15 : DevRef τ sig) = V (main_arg15 : DevRef τ sig) := by
  after_results_simp

set_option maxRecDepth 512
set_option maxHeartbeats 200000

/-- Stage by stage the composed term is the specification's function. -/
theorem refOut_eq (h₁ : Shape.ShapeCasts ⟨2, ![16384, 2048]⟩ ⟨3, ![16384, 64, 32]⟩) (h₂ : Shape.ShapeCasts ⟨2, ![16384, 1024]⟩ ⟨3, ![16384, 32, 32]⟩) (h₃ : Shape.ShapeCasts ⟨2, ![16384, 2048]⟩ ⟨3, ![16384, 32, 64]⟩)
    (a0 : FVec Ideal S16384x32x64 .f32) (a1 : FVec Ideal S16384x512 .f32) (a2 : FVec Ideal S512x2048 .f32) (a3 : FVec Ideal S2048 .f32) (a4 : FVec Ideal S2048x2048 .f32) (a5 : FVec Ideal S2048 .f32) (a6 : FVec Ideal S512x1024 .f32) (a7 : FVec Ideal S1024 .f32) (a8 : FVec Ideal S512x4096 .f32) (a9 : FVec Ideal S4096 .f32) (a10 : FVec Ideal S4096x2048 .f32) (a11 : FVec Ideal S2048 .f32) (a12 : FVec Ideal S512x1024 .f32) (a13 : FVec Ideal S1024 .f32) (a14 : FVec Ideal S1024x2048 .f32) (a15 : FVec Ideal S2048 .f32) :
    refOut h₁ h₂ h₃ a0 a1 a2 a3 a4 a5 a6 a7 a8 a9 a10 a11 a12 a13 a14 a15
      = HyperMix.full (HyperMix.relay h₁) (HyperMix.relay h₂) (HyperMix.relay h₃) a0 a1 a2 a3 a4 a5 a6 a7 a8 a9 a10 a11 a12 a13 a14 a15 := by
  unfold refOut HyperMix.full HyperMix.mix
  rw [HyperMix.Ref.dense_eq (d := dot_S16384x512_S512x2048_S16384x2048_1_0_0_1_n_n) ⟨rfl, rfl, rfl, rfl, rfl, rfl⟩ bcast_S2048_S1x2048_1 bcast_S1x2048_S16384x2048_0_1 a1 a2 a3,
    HyperMix.Ref.relu_eq bcast_S_S16384x2048,
    HyperMix.Ref.dense_eq (d := dot_S16384x2048_S2048x2048_S16384x2048_1_0_0_1_n_n) ⟨rfl, rfl, rfl, rfl, rfl, rfl⟩ bcast_S2048_S1x2048_1 bcast_S1x2048_S16384x2048_0_1 _ a4 a5,
    HyperMix.Ref.dense_eq (d := dot_S16384x512_S512x1024_S16384x1024_1_0_0_1_n_n) ⟨rfl, rfl, rfl, rfl, rfl, rfl⟩ bcast_S1024_S1x1024_1 bcast_S1x1024_S16384x1024_0_1 a1 a6 a7,
    HyperMix.Ref.dense_eq (d := dot_S16384x512_S512x4096_S16384x4096_1_0_0_1_n_n) ⟨rfl, rfl, rfl, rfl, rfl, rfl⟩ bcast_S4096_S1x4096_1 bcast_S1x4096_S16384x4096_0_1 a1 a8 a9,
    HyperMix.Ref.relu_eq bcast_S_S16384x4096,
    HyperMix.Ref.dense_eq (d := dot_S16384x4096_S4096x2048_S16384x2048_1_0_0_1_n_n) ⟨rfl, rfl, rfl, rfl, rfl, rfl⟩ bcast_S2048_S1x2048_1 bcast_S1x2048_S16384x2048_0_1 _ a10 a11,
    HyperMix.Ref.dense_eq (d := dot_S16384x512_S512x1024_S16384x1024_1_0_0_1_n_n) ⟨rfl, rfl, rfl, rfl, rfl, rfl⟩ bcast_S1024_S1x1024_1 bcast_S1x1024_S16384x1024_0_1 a1 a12 a13,
    HyperMix.Ref.relu_eq bcast_S_S16384x1024,
    HyperMix.Ref.dense_eq (d := dot_S16384x1024_S1024x2048_S16384x2048_1_0_0_1_n_n) ⟨rfl, rfl, rfl, rfl, rfl, rfl⟩ bcast_S2048_S1x2048_1 bcast_S1x2048_S16384x2048_0_1 _ a14 a15,
    HyperMix.Ref.hidden_eq (d := dot_S16384x32x64_S16384x64x32_S16384x32x32_2_1_1_2_0_0) ⟨rfl, rfl, rfl, rfl, rfl, rfl⟩ bcast_S_S16384x32x32,
    HyperMix.Ref.mixed_eq (d := dot_S16384x32x32_S16384x32x64_S16384x32x64_2_1_1_2_0_0) ⟨rfl, rfl, rfl, rfl, rfl, rfl⟩,
    HyperMix.Ref.tailT_eq reducesTo_S16384x32x64_S16384x64_d1 (by decide) h_S_ bcast_S16384x64_S16384x1x64_0_2
      bcast_S_S16384x1x64 bcast_S16384x1x64_S16384x32x64_0_1_2 bcast_S_S16384x32x64]

/-- On every device, from any memory with zero counters: every weakly fair execution of the reference's @main terminates
    with the result buffer at the specification's function of the argument arrays (the flat rows re-laid in row-major
    order) and the argument arrays unchanged. -/
theorem run (m : (ℓ : Loc nD τ sig) → Buf (Elt Ideal) ℓ) (ρ : Dev nD → PrngReg)
    (h₁ : Shape.ShapeCasts ⟨2, ![16384, 2048]⟩ ⟨3, ![16384, 64, 32]⟩) (h₂ : Shape.ShapeCasts ⟨2, ![16384, 1024]⟩ ⟨3, ![16384, 32, 32]⟩) (h₃ : Shape.ShapeCasts ⟨2, ![16384, 2048]⟩ ⟨3, ![16384, 32, 64]⟩) :
    θ_run (Cert.ReferenceIdeal.defs (F := Ideal)) (onTc (τ := Cert.ReferenceIdeal.τ) (Cert.ReferenceIdeal.main (F := Ideal)))
      ⟨m, fun _ => 0, ρ⟩ fun r => ∀ c : Dev nD,
      r.2.mem ((c.tc : Thread nD τ).loc main_v56)
        = HyperMix.full (HyperMix.relay h₁) (HyperMix.relay h₂) (HyperMix.relay h₃)
            (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
            (m ((c.tc : Thread nD τ).loc main_arg13))
            (m ((c.tc : Thread nD τ).loc main_arg14))
            (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    ⟨(h c main_v56).trans ((out_eq h₁ h₂ h₃ _).trans (refOut_eq h₁ h₂ h₃ _ _ _ _ _ _ _ _ _ _ _ _ _ _ _ _)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _)⟩)
    (run_main m ρ)

end Cert.ReferenceIdeal.RefValue

end
-- ==== Proof.lean ====
/-
  The proof of `Cert.Claim`: the three frames, `preserves` and `algebraic`.

  Both idealized programs compute ONE function of the sixteen argument arrays over the extended reals,
  `HyperMix.full` (Proof/Spec.lean): four small networks of dense layers driven by the state rows give, per sample,
  the matrices `W₁, B₁, W₂, B₂`; the sample's embedding is mixed through them, `O = elu (E · W₁ + B₁) · W₂ + B₂`; and each
  column of `O` is scaled by `min (1, 5 / (its largest magnitude + ε))` before the logistic function.

  * The kernel program reaches it through eight kernel regions. A dense region's grid point computes 512 rows of
    `x · w + b` (Proof/Dense0 … Dense6: the blocks are restrictions of one whole-array function and tile the result); the
    mixing region's point computes 128 samples (Proof/MixRegion); between regions the buffers are followed through the
    fold of contents (Proof/Walk, Proof/Chain); the run names the result (Proof/KRun, Proof/KValue).
  * The reference reaches it as a straight line of host operations (Proof/RefRun), read stage by stage
    (Proof/RefStages, Proof/RefValue).
  The two differ only by changes of float format (the identity here), by how the sums are tiled, by `eˣ - 1` against the
  host's `expm1`, and by the logistic function against its spelling `1 / (1 + e⁻ˣ)`: none of it needs the inputs finite.
  No rewrite was applied to the kernel, so `preserves` is `True`.
-/
import proofs.«166068_j82617990906012_2_alg».proof.Defs
import proofs.«166068_j82617990906012_2_alg».proof.Proof.Gen.Kernel
import proofs.«166068_j82617990906012_2_alg».proof.Proof.Gen.Kernel.Frame
import proofs.«166068_j82617990906012_2_alg».proof.Proof.Gen.KernelIdeal
import proofs.«166068_j82617990906012_2_alg».proof.Proof.Gen.KernelIdeal.Frame
import proofs.«166068_j82617990906012_2_alg».proof.Proof.Gen.ReferenceIdeal
import proofs.«166068_j82617990906012_2_alg».proof.Proof.Gen.Pre_finite_inputs
import proofs.«166068_j82617990906012_2_alg».proof.Proof.KValue
import proofs.«166068_j82617990906012_2_alg».proof.Proof.RefValue

set_option maxRecDepth 16384

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.RefValue.run m ρ Cert.KernelIdeal.Facts₀.shapeCasts_S16384x2048_S16384x64x32
      Cert.KernelIdeal.Facts₀.shapeCasts_S16384x1024_S16384x32x32 Cert.KernelIdeal.Facts₀.shapeCasts_S16384x2048_S16384x32x64)

/-- From memories agreeing on the arguments both programs end with the result at `HyperMix.full` of the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.KValue.spec m c, Cert.KernelIdeal.KValue.run m ρ, ?_⟩
  refine (θ_run Cert.ReferenceIdeal.defs _ _).mono (fun _ h c => ⟨(h c).1.trans ?_, (h c).2⟩)
    (Cert.ReferenceIdeal.RefValue.run m' ρ' Cert.KernelIdeal.Facts₀.shapeCasts_S16384x2048_S16384x64x32
      Cert.KernelIdeal.Facts₀.shapeCasts_S16384x1024_S16384x32x32 Cert.KernelIdeal.Facts₀.shapeCasts_S16384x2048_S16384x32x64)
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
